-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8 : Shape := ⟨2, ![16384, 8]⟩
abbrev S16384x2 : Shape := ⟨2, ![16384, 2]⟩
abbrev S16384x50 : Shape := ⟨2, ![16384, 50]⟩
abbrev S16384x200 : Shape := ⟨2, ![16384, 200]⟩
abbrev S2x1 : Shape := ⟨2, ![2, 1]⟩
abbrev S1 : Shape := ⟨1, ![1]⟩
abbrev S3112004x1 : Shape := ⟨2, ![3112004, 1]⟩
abbrev S3112004x16 : Shape := ⟨2, ![3112004, 16]⟩
abbrev S50000x16 : Shape := ⟨2, ![50000, 16]⟩
abbrev S1000x16 : Shape := ⟨2, ![1000, 16]⟩
abbrev S194x200 : Shape := ⟨2, ![194, 200]⟩
abbrev S200 : Shape := ⟨1, ![200]⟩
abbrev S200x200 : Shape := ⟨2, ![200, 200]⟩
abbrev S200x1 : Shape := ⟨2, ![200, 1]⟩
abbrev S1x1 : Shape := ⟨2, ![1, 1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_
  bcast_S_S3112004x1 : S_.BroadcastsInDim S3112004x1 (![] : Fin 0 → Fin S3112004x1.rank)
  reducesTo_S3112004x1_S_d0_1 : S3112004x1.ReducesTo [0, 1] S_
  bcast_S_S3112004x16 : S_.BroadcastsInDim S3112004x16 (![] : Fin 0 → Fin S3112004x16.rank)
  reducesTo_S3112004x16_S_d0_1 : S3112004x16.ReducesTo [0, 1] S_
  bcast_S_S50000x16 : S_.BroadcastsInDim S50000x16 (![] : Fin 0 → Fin S50000x16.rank)
  reducesTo_S50000x16_S_d0_1 : S50000x16.ReducesTo [0, 1] S_
  bcast_S_S1000x16 : S_.BroadcastsInDim S1000x16 (![] : Fin 0 → Fin S1000x16.rank)
  reducesTo_S1000x16_S_d0_1 : S1000x16.ReducesTo [0, 1] S_
  bcast_S_S194x200 : S_.BroadcastsInDim S194x200 (![] : Fin 0 → Fin S194x200.rank)
  reducesTo_S194x200_S_d0_1 : S194x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S200x1 : S_.BroadcastsInDim S200x1 (![] : Fin 0 → Fin S200x1.rank)
  reducesTo_S200x1_S_d0_1 : S200x1.ReducesTo [0, 1] S_
  bcast_S_S1x1 : S_.BroadcastsInDim S1x1 (![] : Fin 0 → Fin S1x1.rank)
  reducesTo_S1x1_S_d0_1 : S1x1.ReducesTo [0, 1] S_

variable [Facts]

def fn_part5 {F : FTy → Type} [FloatOps F] (main_arg23 : FVec F S1 .f32) (main_v83 : IVec S_ 1) (main_v84 : FVec F S1x1 .f32) (main_cst_32 : FVec F S_ .f32) : IVec S_ 1 :=
  let main_v85 : FVec F S1x1 .f32 := broadcastInDim S1x1 ![] bcast_S_S1x1 main_cst_32
  let main_v86 : IVec S1x1 1 := cmpf .olt main_v84 main_v85
  let main_c_33 : IVec S_ 1 := constantI S_ 1 1#1
  let main_v87 : IVec S_ 1 := (fun x v => Host.reduce IntOp.andi x v reducesTo_S1x1_S_d0_1 h_S_) main_v86 main_c_33
  let main_v88 : IVec S_ 1 := andi main_v83 main_v87
  let main_v89 : FVec F S1 .f32 := Host.absf main_arg23
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg19 : FVec F S1 .f32) (main_arg20 : FVec F S1x1 .f32) (main_arg21 : FVec F S1 .f32) (main_arg22 : FVec F S1x1 .f32) (main_arg23 : FVec F S1 .f32) (main_v63 : IVec S_ 1) (main_v67 : IVec S_ 1) : IVec S_ 1 :=
  let main_v68 : IVec S_ 1 := andi main_v63 main_v67
  let main_v69 : FVec F S1 .f32 := Host.absf main_arg19
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1x1 .f32 := Host.absf main_arg20
  let main_cst_28 : FVec F S_ .f32 := constant S_ .f32 0x7F800000#32
  let main_v75 : FVec F S1x1 .f32 := broadcastInDim S1x1 ![] bcast_S_S1x1 main_cst_28
  let main_v76 : IVec S1x1 1 := cmpf .olt main_v74 main_v75
  let main_c_29 : IVec S_ 1 := constantI S_ 1 1#1
  let main_v77 : IVec S_ 1 := (fun x v => Host.reduce IntOp.andi x v reducesTo_S1x1_S_d0_1 h_S_) main_v76 main_c_29
  let main_v78 : IVec S_ 1 := andi main_v73 main_v77
  let main_v79 : FVec F S1 .f32 := Host.absf main_arg21
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1x1 .f32 := Host.absf main_arg22
  let main_cst_32 : FVec F S_ .f32 := constant S_ .f32 0x7F800000#32
  fn_part5 (F := F) main_arg23 main_v83 main_v84 main_cst_32

def fn_part3 {F : FTy → Type} [FloatOps F] (main_arg16 : FVec F S200x200 .f32) (main_arg17 : FVec F S200 .f32) (main_arg18 : FVec F S200x1 .f32) (main_arg19 : FVec F S1 .f32) (main_arg20 : FVec F S1x1 .f32) (main_arg21 : FVec F S1 .f32) (main_arg22 : FVec F S1x1 .f32) (main_arg23 : FVec F S1 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S200x200 .f32 := Host.absf main_arg16
  let main_cst_20 : FVec F S_ .f32 := constant S_ .f32 0x7F800000#32
  let main_v55 : FVec F S200x200 .f32 := broadcastInDim S200x200 ![] bcast_S_S200x200 main_cst_20
  let main_v56 : IVec S200x200 1 := cmpf .olt main_v54 main_v55
  let main_c_21 : IVec S_ 1 := constantI S_ 1 1#1
  let main_v57 : IVec S_ 1 := (fun x v => Host.reduce IntOp.andi x v reducesTo_S200x200_S_d0_1 h_S_) main_v56 main_c_21
  let main_v58 : IVec S_ 1 := andi main_v53 main_v57
  let main_v59 : FVec F S200 .f32 := Host.absf main_arg17
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S200x1 .f32 := Host.absf main_arg18
  let main_cst_24 : FVec F S_ .f32 := constant S_ .f32 0x7F800000#32
  let main_v65 : FVec F S200x1 .f32 := broadcastInDim S200x1 ![] bcast_S_S200x1 main_cst_24
  let main_v66 : IVec S200x1 1 := cmpf .olt main_v64 main_v65
  let main_c_25 : IVec S_ 1 := constantI S_ 1 1#1
  let main_v67 : IVec S_ 1 := (fun x v => Host.reduce IntOp.andi x v reducesTo_S200x1_S_d0_1 h_S_) main_v66 main_c_25
  fn_part4 (F := F) main_arg19 main_arg20 main_arg21 main_arg22 main_arg23 main_v63 main_v67

def fn_part2 {F : FTy → Type} [FloatOps F] (main_arg12 : FVec F S194x200 .f32) (main_arg13 : FVec F S200 .f32) (main_arg14 : FVec F S200x200 .f32) (main_arg15 : FVec F S200 .f32) (main_arg16 : FVec F S200x200 .f32) (main_arg17 : FVec F S200 .f32) (main_arg18 : FVec F S200x1 .f32) (main_arg19 : FVec F S1 .f32) (main_arg20 : FVec F S1x1 .f32) (main_arg21 : FVec F S1 .f32) (main_arg22 : FVec F S1x1 .f32) (main_arg23 : FVec F S1 .f32) (main_v33 : IVec S_ 1) : IVec S_ 1 :=
  let main_v34 : FVec F S194x200 .f32 := Host.absf main_arg12
  let main_cst_12 : FVec F S_ .f32 := constant S_ .f32 0x7F800000#32
  let main_v35 : FVec F S194x200 .f32 := broadcastInDim S194x200 ![] bcast_S_S194x200 main_cst_12
  let main_v36 : IVec S194x200 1 := cmpf .olt main_v34 main_v35
  let main_c_13 : IVec S_ 1 := constantI S_ 1 1#1
  let main_v37 : IVec S_ 1 := (fun x v => Host.reduce IntOp.andi x v reducesTo_S194x200_S_d0_1 h_S_) main_v36 main_c_13
  let main_v38 : IVec S_ 1 := andi main_v33 main_v37
  let main_v39 : FVec F S200 .f32 := Host.absf main_arg13
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S200x200 .f32 := Host.absf main_arg14
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : FVec F S200 .f32 := Host.absf main_arg15
  let main_cst_18 : FVec F S_ .f32 := constant S_ .f32 0x7F800000#32
  let main_v50 : FVec F S200 .f32 := broadcastInDim S200 ![] bcast_S_S200 main_cst_18
  fn_part3 (F := F) main_arg16 main_arg17 main_arg18 main_arg19 main_arg20 main_arg21 main_arg22 main_arg23 main_v48 main_v49 main_v50

def fn_part1 {F : FTy → Type} [FloatOps F] (main_arg9 : FVec F S3112004x16 .f32) (main_arg10 : FVec F S50000x16 .f32) (main_arg11 : FVec F S1000x16 .f32) (main_arg12 : FVec F S194x200 .f32) (main_arg13 : FVec F S200 .f32) (main_arg14 : FVec F S200x200 .f32) (main_arg15 : FVec F S200 .f32) (main_arg16 : FVec F S200x200 .f32) (main_arg17 : FVec F S200 .f32) (main_arg18 : FVec F S200x1 .f32) (main_arg19 : FVec F S1 .f32) (main_arg20 : FVec F S1x1 .f32) (main_arg21 : FVec F S1 .f32) (main_arg22 : FVec F S1x1 .f32) (main_arg23 : FVec F S1 .f32) (main_v13 : IVec S_ 1) (main_v16 : IVec S3112004x1 1) : IVec S_ 1 :=
  let main_c_5 : IVec S_ 1 := constantI S_ 1 1#1
  let main_v17 : IVec S_ 1 := (fun x v => Host.reduce IntOp.andi x v reducesTo_S3112004x1_S_d0_1 h_S_) main_v16 main_c_5
  let main_v18 : IVec S_ 1 := andi main_v13 main_v17
  let main_v19 : FVec F S3112004x16 .f32 := Host.absf main_arg9
  let main_cst_6 : FVec F S_ .f32 := constant S_ .f32 0x7F800000#32
  let main_v20 : FVec F S3112004x16 .f32 := broadcastInDim S3112004x16 ![] bcast_S_S3112004x16 main_cst_6
  let main_v21 : IVec S3112004x16 1 := cmpf .olt main_v19 main_v20
  let main_c_7 : IVec S_ 1 := constantI S_ 1 1#1
  let main_v22 : IVec S_ 1 := (fun x v => Host.reduce IntOp.andi x v reducesTo_S3112004x16_S_d0_1 h_S_) main_v21 main_c_7
  let main_v23 : IVec S_ 1 := andi main_v18 main_v22
  let main_v24 : FVec F S50000x16 .f32 := Host.absf main_arg10
  let main_cst_8 : FVec F S_ .f32 := constant S_ .f32 0x7F800000#32
  let main_v25 : FVec F S50000x16 .f32 := broadcastInDim S50000x16 ![] bcast_S_S50000x16 main_cst_8
  let main_v26 : IVec S50000x16 1 := cmpf .olt main_v24 main_v25
  let main_c_9 : IVec S_ 1 := constantI S_ 1 1#1
  let main_v27 : IVec S_ 1 := (fun x v => Host.reduce IntOp.andi x v reducesTo_S50000x16_S_d0_1 h_S_) main_v26 main_c_9
  let main_v28 : IVec S_ 1 := andi main_v23 main_v27
  let main_v29 : FVec F S1000x16 .f32 := Host.absf main_arg11
  let main_cst_10 : FVec F S_ .f32 := constant S_ .f32 0x7F800000#32
  let main_v30 : FVec F S1000x16 .f32 := broadcastInDim S1000x16 ![] bcast_S_S1000x16 main_cst_10
  let main_v31 : IVec S1000x16 1 := cmpf .olt main_v29 main_v30
  let main_c_11 : IVec S_ 1 := constantI S_ 1 1#1
  let main_v32 : IVec S_ 1 := (fun x v => Host.reduce IntOp.andi x v reducesTo_S1000x16_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_v33

def fn {F : FTy → Type} [FloatOps F] (main_arg0 : IVec S16384x8 32) (main_arg1 : FVec F S16384x2 .f32) (main_arg2 : IVec S16384x50 32) (main_arg3 : IVec S16384x50 32) (main_arg4 : IVec S16384x200 32) (main_arg5 : IVec S16384x200 32) (main_arg6 : FVec F S2x1 .f32) (main_arg7 : FVec F S1 .f32) (main_arg8 : FVec F S3112004x1 .f32) (main_arg9 : FVec F S3112004x16 .f32) (main_arg10 : FVec F S50000x16 .f32) (main_arg11 : FVec F S1000x16 .f32) (main_arg12 : FVec F S194x200 .f32) (main_arg13 : FVec F S200 .f32) (main_arg14 : FVec F S200x200 .f32) (main_arg15 : FVec F S200 .f32) (main_arg16 : FVec F S200x200 .f32) (main_arg17 : FVec F S200 .f32) (main_arg18 : FVec F S200x1 .f32) (main_arg19 : FVec F S1 .f32) (main_arg20 : FVec F S1x1 .f32) (main_arg21 : FVec F S1 .f32) (main_arg22 : FVec F S1x1 .f32) (main_arg23 : FVec F S1 .f32) : IVec S_ 1 :=
  let main_v0 : FVec F S16384x2 .f32 := Host.absf main_arg1
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S2x1 .f32 := Host.absf main_arg6
  let main_cst_0 : FVec F S_ .f32 := constant S_ .f32 0x7F800000#32
  let main_v5 : FVec F S2x1 .f32 := broadcastInDim S2x1 ![] bcast_S_S2x1 main_cst_0
  let main_v6 : IVec S2x1 1 := cmpf .olt main_v4 main_v5
  let main_c_1 : IVec S_ 1 := constantI S_ 1 1#1
  let main_v7 : IVec S_ 1 := (fun x v => Host.reduce IntOp.andi x v reducesTo_S2x1_S_d0_1 h_S_) main_v6 main_c_1
  let main_v8 : IVec S_ 1 := andi main_v3 main_v7
  let main_v9 : FVec F S1 .f32 := Host.absf main_arg7
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S3112004x1 .f32 := Host.absf main_arg8
  let main_cst_4 : FVec F S_ .f32 := constant S_ .f32 0x7F800000#32
  let main_v15 : FVec F S3112004x1 .f32 := broadcastInDim S3112004x1 ![] bcast_S_S3112004x1 main_cst_4
  let main_v16 : IVec S3112004x1 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_v13 main_v16
-- ==== Kernel.lean ====
abbrev S16384x8 : Shape := ⟨2, ![16384, 8]⟩
abbrev S16384x2 : Shape := ⟨2, ![16384, 2]⟩
abbrev S16384x50 : Shape := ⟨2, ![16384, 50]⟩
abbrev S16384x200 : Shape := ⟨2, ![16384, 200]⟩
abbrev S2x1 : Shape := ⟨2, ![2, 1]⟩
abbrev S1 : Shape := ⟨1, ![1]⟩
abbrev S3112004x1 : Shape := ⟨2, ![3112004, 1]⟩
abbrev S3112004x16 : Shape := ⟨2, ![3112004, 16]⟩
abbrev S50000x16 : Shape := ⟨2, ![50000, 16]⟩
abbrev S1000x16 : Shape := ⟨2, ![1000, 16]⟩
abbrev S194x200 : Shape := ⟨2, ![194, 200]⟩
abbrev S200 : Shape := ⟨1, ![200]⟩
abbrev S200x200 : Shape := ⟨2, ![200, 200]⟩
abbrev S200x1 : Shape := ⟨2, ![200, 1]⟩
abbrev S1x1 : Shape := ⟨2, ![1, 1]⟩
abbrev S8 : Shape := ⟨1, ![8]⟩
abbrev S1x8 : Shape := ⟨2, ![1, 8]⟩
abbrev S_ : Shape := ⟨0, ![]⟩
abbrev S16384x8x1 : Shape := ⟨3, ![16384, 8, 1]⟩
abbrev S16384 : Shape := ⟨1, ![16384]⟩
abbrev S16384x1 : Shape := ⟨2, ![16384, 1]⟩
abbrev S16384x8x16 : Shape := ⟨3, ![16384, 8, 16]⟩
abbrev S16384x50x1 : Shape := ⟨3, ![16384, 50, 1]⟩
abbrev S16384x50x16 : Shape := ⟨3, ![16384, 50, 16]⟩
abbrev S16384x16 : Shape := ⟨2, ![16384, 16]⟩
abbrev S16384x1x16 : Shape := ⟨3, ![16384, 1, 16]⟩
abbrev S16384x2x16 : Shape := ⟨3, ![16384, 2, 16]⟩
abbrev S16384x200x1 : Shape := ⟨3, ![16384, 200, 1]⟩
abbrev S16384x200x16 : Shape := ⟨3, ![16384, 200, 16]⟩
abbrev S16384x12x16 : Shape := ⟨3, ![16384, 12, 16]⟩
abbrev S16384x128 : Shape := ⟨2, ![16384, 128]⟩
abbrev S16384x32 : Shape := ⟨2, ![16384, 32]⟩
abbrev S16384x194 : Shape := ⟨2, ![16384, 194]⟩
abbrev S2048x194 : Shape := ⟨2, ![2048, 194]⟩
abbrev S2048x12x16 : Shape := ⟨3, ![2048, 12, 16]⟩
abbrev S2048x1 : Shape := ⟨2, ![2048, 1]⟩
abbrev S2048x2 : Shape := ⟨2, ![2048, 2]⟩
abbrev S2048x16 : Shape := ⟨2, ![2048, 16]⟩
abbrev S2048 : Shape := ⟨1, ![2048]⟩
abbrev S2048x200 : Shape := ⟨2, ![2048, 200]⟩
abbrev S1x200 : Shape := ⟨2, ![1, 200]⟩

abbrev nBuf : Space → Nat
  | .hbm => 125
  | .vmem => 24
  | .smem => 0
  | _ => 0

abbrev bufTy : (tb : Table) → Fin (tcTables nBuf tb) → BufTy
  | .hbm, ⟨0, _⟩ => ⟨S16384x8, .i32⟩
  | .hbm, ⟨1, _⟩ => ⟨S16384x2, .f32⟩
  | .hbm, ⟨2, _⟩ => ⟨S16384x50, .i32⟩
  | .hbm, ⟨3, _⟩ => ⟨S16384x50, .i32⟩
  | .hbm, ⟨4, _⟩ => ⟨S16384x200, .i32⟩
  | .hbm, ⟨5, _⟩ => ⟨S16384x200, .i32⟩
  | .hbm, ⟨6, _⟩ => ⟨S2x1, .f32⟩
  | .hbm, ⟨7, _⟩ => ⟨S1, .f32⟩
  | .hbm, ⟨8, _⟩ => ⟨S3112004x1, .f32⟩
  | .hbm, ⟨9, _⟩ => ⟨S3112004x16, .f32⟩
  | .hbm, ⟨10, _⟩ => ⟨S50000x16, .f32⟩
  | .hbm, ⟨11, _⟩ => ⟨S1000x16, .f32⟩
  | .hbm, ⟨12, _⟩ => ⟨S194x200, .f32⟩
  | .hbm, ⟨13, _⟩ => ⟨S200, .f32⟩
  | .hbm, ⟨14, _⟩ => ⟨S200x200, .f32⟩
  | .hbm, ⟨15, _⟩ => ⟨S200, .f32⟩
  | .hbm, ⟨16, _⟩ => ⟨S200x200, .f32⟩
  | .hbm, ⟨17, _⟩ => ⟨S200, .f32⟩
  | .hbm, ⟨18, _⟩ => ⟨S200x1, .f32⟩
  | .hbm, ⟨19, _⟩ => ⟨S1, .f32⟩
  | .hbm, ⟨20, _⟩ => ⟨S1x1, .f32⟩
  | .hbm, ⟨21, _⟩ => ⟨S1, .f32⟩
  | .hbm, ⟨22, _⟩ => ⟨S1x1, .f32⟩
  | .hbm, ⟨23, _⟩ => ⟨S1, .f32⟩
  | .hbm, ⟨24, _⟩ => ⟨S8, .i32⟩
  | .hbm, ⟨25, _⟩ => ⟨S1x8, .i32⟩
  | .hbm, ⟨26, _⟩ => ⟨S16384x8, .i32⟩
  | .hbm, ⟨27, _⟩ => ⟨S16384x8, .i32⟩
  | .hbm, ⟨28, _⟩ => ⟨S_, .i32⟩
  | .hbm, ⟨29, _⟩ => ⟨S16384x8, .i32⟩
  | .hbm, ⟨30, _⟩ => ⟨S16384x8, .i1⟩
  | .hbm, ⟨31, _⟩ => ⟨S_, .i32⟩
  | .hbm, ⟨32, _⟩ => ⟨S16384x8, .i32⟩
  | .hbm, ⟨33, _⟩ => ⟨S16384x8, .i32⟩
  | .hbm, ⟨34, _⟩ => ⟨S16384x8, .i32⟩
  | .hbm, ⟨35, _⟩ => ⟨S16384x8x1, .i32⟩
  | .hbm, ⟨36, _⟩ => ⟨S16384x8x1, .f32⟩
  | .hbm, ⟨37, _⟩ => ⟨S16384x8, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .i32⟩
  | .hbm, ⟨42, _⟩ => ⟨S16384x8, .i32⟩
  | .hbm, ⟨43, _⟩ => ⟨S16384x8, .i1⟩
  | .hbm, ⟨44, _⟩ => ⟨S_, .i32⟩
  | .hbm, ⟨45, _⟩ => ⟨S16384x8, .i32⟩
  | .hbm, ⟨46, _⟩ => ⟨S16384x8, .i32⟩
  | .hbm, ⟨47, _⟩ => ⟨S16384x8, .i32⟩
  | .hbm, ⟨48, _⟩ => ⟨S16384x8x1, .i32⟩
  | .hbm, ⟨49, _⟩ => ⟨S16384x8x16, .f32⟩
  | .hbm, ⟨50, _⟩ => ⟨S_, .i32⟩
  | .hbm, ⟨51, _⟩ => ⟨S16384x50, .i32⟩
  | .hbm, ⟨52, _⟩ => ⟨S16384x50, .i1⟩
  | .hbm, ⟨53, _⟩ => ⟨S_, .i32⟩
  | .hbm, ⟨54, _⟩ => ⟨S16384x50, .i32⟩
  | .hbm, ⟨55, _⟩ => ⟨S16384x50, .i32⟩
  | .hbm, ⟨56, _⟩ => ⟨S16384x50, .i32⟩
  | .hbm, ⟨57, _⟩ => ⟨S16384x50x1, .i32⟩
  | .hbm, ⟨58, _⟩ => ⟨S16384x50x16, .f32⟩
  | .hbm, ⟨59, _⟩ => ⟨S_, .f32⟩
  | .hbm, ⟨60, _⟩ => ⟨S16384x16, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S_, .i32⟩
  | .hbm, ⟨65, _⟩ => ⟨S16384x50, .i32⟩
  | .hbm, ⟨66, _⟩ => ⟨S16384x50, .i1⟩
  | .hbm, ⟨67, _⟩ => ⟨S_, .i32⟩
  | .hbm, ⟨68, _⟩ => ⟨S16384x50, .i32⟩
  | .hbm, ⟨69, _⟩ => ⟨S16384x50, .i32⟩
  | .hbm, ⟨70, _⟩ => ⟨S16384x50, .i32⟩
  | .hbm, ⟨71, _⟩ => ⟨S16384x50x1, .i32⟩
  | .hbm, ⟨72, _⟩ => ⟨S16384x50x16, .f32⟩
  | .hbm, ⟨73, _⟩ => ⟨S_, .f32⟩
  | .hbm, ⟨74, _⟩ => ⟨S16384x16, .f32⟩
  | .hbm, ⟨75, _⟩ => ⟨S_, .f32⟩
  | .hbm, ⟨76, _⟩ => ⟨S16384x16, .f32⟩
  | .hbm, ⟨77, _⟩ => ⟨S16384x16, .f32⟩
  | .hbm, ⟨78, _⟩ => ⟨S16384x1x16, .f32⟩
  | .hbm, ⟨79, _⟩ => ⟨S16384x1x16, .f32⟩
  | .hbm, ⟨80, _⟩ => ⟨S16384x2x16, .f32⟩
  | .hbm, ⟨81, _⟩ => ⟨S_, .i32⟩
  | .hbm, ⟨82, _⟩ => ⟨S16384x200, .i32⟩
  | .hbm, ⟨83, _⟩ => ⟨S16384x200, .i32⟩
  | .hbm, ⟨84, _⟩ => ⟨S_, .i32⟩
  | .hbm, ⟨85, _⟩ => ⟨S16384x200, .i32⟩
  | .hbm, ⟨86, _⟩ => ⟨S16384x200, .i1⟩
  | .hbm, ⟨87, _⟩ => ⟨S_, .i32⟩
  | .hbm, ⟨88, _⟩ => ⟨S16384x200, .i32⟩
  | .hbm, ⟨89, _⟩ => ⟨S16384x200, .i32⟩
  | .hbm, ⟨90, _⟩ => ⟨S16384x200, .i32⟩
  | .hbm, ⟨91, _⟩ => ⟨S16384x200x1, .i32⟩
  | .hbm, ⟨92, _⟩ => ⟨S16384x200x16, .f32⟩
  | .hbm, ⟨93, _⟩ => ⟨S_, .f32⟩
  | .hbm, ⟨94, _⟩ => ⟨S16384x16, .f32⟩
  | .hbm, ⟨95, _⟩ => ⟨S_, .f32⟩
  | .hbm, ⟨96, _⟩ => ⟨S16384x16, .f32⟩
  | .hbm, ⟨97, _⟩ => ⟨S16384x16, .f32⟩
  | .hbm, ⟨98, _⟩ => ⟨S_, .i32⟩
  | .hbm, ⟨99, _⟩ => ⟨S16384x200, .i32⟩
  | .hbm, ⟨100, _⟩ => ⟨S16384x200, .i32⟩
  | .hbm, ⟨101, _⟩ => ⟨S_, .i32⟩
  | .hbm, ⟨102, _⟩ => ⟨S16384x200, .i32⟩
  | .hbm, ⟨103, _⟩ => ⟨S16384x200, .i1⟩
  | .hbm, ⟨104, _⟩ => ⟨S_, .i32⟩
  | .hbm, ⟨105, _⟩ => ⟨S16384x200, .i32⟩
  | .hbm, ⟨106, _⟩ => ⟨S16384x200, .i32⟩
  | .hbm, ⟨107, _⟩ => ⟨S16384x200, .i32⟩
  | .hbm, ⟨108, _⟩ => ⟨S16384x200x1, .i32⟩
  | .hbm, ⟨109, _⟩ => ⟨S16384x200x16, .f32⟩
  | .hbm, ⟨110, _⟩ => ⟨S_, .f32⟩
  | .hbm, ⟨111, _⟩ => ⟨S16384x16, .f32⟩
  | .hbm, ⟨112, _⟩ => ⟨S_, .f32⟩
  | .hbm, ⟨113, _⟩ => ⟨S16384x16, .f32⟩
  | .hbm, ⟨114, _⟩ => ⟨S16384x16, .f32⟩
  | .hbm, ⟨115, _⟩ => ⟨S16384x1x16, .f32⟩
  | .hbm, ⟨116, _⟩ => ⟨S16384x1x16, .f32⟩
  | .hbm, ⟨117, _⟩ => ⟨S16384x2x16, .f32⟩
  | .hbm, ⟨118, _⟩ => ⟨S16384x12x16, .f32⟩
  | .hbm, ⟨119, _⟩ => ⟨S16384x128, .f32⟩
  | .hbm, ⟨120, _⟩ => ⟨S16384x32, .f32⟩
  | .hbm, ⟨121, _⟩ => ⟨S16384x32, .f32⟩
  | .hbm, ⟨122, _⟩ => ⟨S16384x194, .f32⟩
  | .hbm, ⟨123, _⟩ => ⟨S16384x1, .f32⟩
  | .hbm, ⟨124, _⟩ => ⟨S16384x1, .f32⟩
  | .local _ .vmem, ⟨0, _⟩ => ⟨S2048x194, .f32⟩
  | .local _ .vmem, ⟨1, _⟩ => ⟨S2048x194, .f32⟩
  | .local _ .vmem, ⟨2, _⟩ => ⟨S2048x12x16, .f32⟩
  | .local _ .vmem, ⟨3, _⟩ => ⟨S2048x12x16, .f32⟩
  | .local _ .vmem, ⟨4, _⟩ => ⟨S2048x1, .f32⟩
  | .local _ .vmem, ⟨5, _⟩ => ⟨S2048x1, .f32⟩
  | .local _ .vmem, ⟨6, _⟩ => ⟨S2x1, .f32⟩
  | .local _ .vmem, ⟨7, _⟩ => ⟨S1, .f32⟩
  | .local _ .vmem, ⟨8, _⟩ => ⟨S194x200, .f32⟩
  | .local _ .vmem, ⟨9, _⟩ => ⟨S200, .f32⟩
  | .local _ .vmem, ⟨10, _⟩ => ⟨S200x200, .f32⟩
  | .local _ .vmem, ⟨11, _⟩ => ⟨S200, .f32⟩
  | .local _ .vmem, ⟨12, _⟩ => ⟨S200x200, .f32⟩
  | .local _ .vmem, ⟨13, _⟩ => ⟨S200, .f32⟩
  | .local _ .vmem, ⟨14, _⟩ => ⟨S200x1, .f32⟩
  | .local _ .vmem, ⟨15, _⟩ => ⟨S1, .f32⟩
  | .local _ .vmem, ⟨16, _⟩ => ⟨S1x1, .f32⟩
  | .local _ .vmem, ⟨17, _⟩ => ⟨S1, .f32⟩
  | .local _ .vmem, ⟨18, _⟩ => ⟨S1x1, .f32⟩
  | .local _ .vmem, ⟨19, _⟩ => ⟨S1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x1, .f32⟩
  | _, _ => ⟨S16384x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_cst_7 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_10 : Ref sig .tc := ⟨.hbm, 73, rfl⟩
abbrev main_v37 : Ref sig .tc := ⟨.hbm, 74, rfl⟩
abbrev main_cst_11 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_12 : Ref sig .tc := ⟨.hbm, 81, rfl⟩
abbrev main_v43 : Ref sig .tc := ⟨.hbm, 82, rfl⟩
abbrev main_v44 : Ref sig .tc := ⟨.hbm, 83, rfl⟩
abbrev main_c_13 : Ref sig .tc := ⟨.hbm, 84, rfl⟩
abbrev main_v45 : Ref sig .tc := ⟨.hbm, 85, rfl⟩
abbrev main_v46 : Ref sig .tc := ⟨.hbm, 86, rfl⟩
abbrev main_c_14 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_cst_16 : Ref sig .tc := ⟨.hbm, 95, rfl⟩
abbrev main_v53 : Ref sig .tc := ⟨.hbm, 96, rfl⟩
abbrev main_v54 : Ref sig .tc := ⟨.hbm, 97, rfl⟩
abbrev main_c_17 : Ref sig .tc := ⟨.hbm, 98, rfl⟩
abbrev main_v55 : Ref sig .tc := ⟨.hbm, 99, rfl⟩
abbrev main_v56 : Ref sig .tc := ⟨.hbm, 100, rfl⟩
abbrev main_c_18 : Ref sig .tc := ⟨.hbm, 101, rfl⟩
abbrev main_v57 : Ref sig .tc := ⟨.hbm, 102, rfl⟩
abbrev main_v58 : Ref sig .tc := ⟨.hbm, 103, rfl⟩
abbrev main_c_19 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_20 : Ref sig .tc := ⟨.hbm, 110, rfl⟩
abbrev main_v64 : Ref sig .tc := ⟨.hbm, 111, rfl⟩
abbrev main_cst_21 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75_0 : Ref sig .tc := ⟨.hbm, 123, rfl⟩
abbrev main_v75_1 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x194 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x12x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S194x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  shapeCasts_S16384x8x1_S16384x8 : S16384x8x1.ShapeCasts S16384x8
  reducesTo_S16384x8_S16384_d1 : S16384x8.ReducesTo [1] S16384
  h_S_ : 0 < S_.numel
  bcast_S16384_S16384x1_0 : S16384.BroadcastsInDim S16384x1 (![0] : Fin 1 → Fin S16384x1.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50x16_S16384x16_d1 : S16384x50x16.ReducesTo [1] S16384x16
  bcast_S_S16384x16 : S_.BroadcastsInDim S16384x16 (![] : Fin 0 → Fin S16384x16.rank)
  bcast_S16384x16_S16384x1x16_0_2 : S16384x16.BroadcastsInDim S16384x1x16 (![0, 2] : Fin 2 → Fin S16384x1x16.rank)
  concatenates_S16384x1x16_S16384x1x16_S16384x2x16_d1 : Shape.Concatenates [S16384x1x16, S16384x1x16] S16384x2x16 1
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  reducesTo_S16384x200x16_S16384x16_d1 : S16384x200x16.ReducesTo [1] S16384x16
  concatenates_S16384x8x16_S16384x2x16_S16384x2x16_S16384x12x16_d1 : Shape.Concatenates [S16384x8x16, S16384x2x16, S16384x2x16] S16384x12x16 1
  shapeCasts_S16384x8x16_S16384x128 : S16384x8x16.ShapeCasts S16384x128
  shapeCasts_S16384x2x16_S16384x32 : S16384x2x16.ShapeCasts S16384x32
  concatenates_S16384x2_S16384x128_S16384x32_S16384x32_S16384x194_d1 : Shape.Concatenates [S16384x2, S16384x128, S16384x32, S16384x32] S16384x194 1
  inb_S2048x194_S2048x194_0_0 : ∀ a, (![0, 0] : Fin 2 → Nat) a + S2048x194.size a ≤ S2048x194.size a
  h_S2048x194 : 0 < S2048x194.numel
  shapeCasts_S2048x194_S2048x194 : S2048x194.ShapeCasts S2048x194
  inb_S2048x12x16_S2048x12x16_0_0_0 : ∀ a, (![0, 0, 0] : Fin 3 → Nat) a + S2048x12x16.size a ≤ S2048x12x16.size a
  h_S2048x12x16 : 0 < S2048x12x16.numel
  shapeCasts_S2048x12x16_S2048x12x16 : S2048x12x16.ShapeCasts S2048x12x16
  slices_S2048x194_o0_0_S2048x2 : S2048x194.Slices ![0, 0] S2048x2
  reduces_S2048x12x16_S2048x16 : S2048x12x16.Reduces [1] S2048x16
  reduces_S2048x16_S2048 : S2048x16.Reduces [1] S2048
  shapeCasts_S2048_S2048x1 : S2048.ShapeCasts S2048x1
  bitsLt_bf16_f32 : FTy.bits .bf16 < FTy.bits .f32
  inb_S2x1_S2x1_0_0 : ∀ a, (![0, 0] : Fin 2 → Nat) a + S2x1.size a ≤ S2x1.size a
  h_S2x1 : 0 < S2x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S194x200_S194x200_0_0 : ∀ a, (![0, 0] : Fin 2 → Nat) a + S194x200.size a ≤ S194x200.size a
  h_S194x200 : 0 < S194x200.numel
  inb_S200_S200_0 : ∀ a, (![0] : Fin 1 → Nat) a + S200.size a ≤ S200.size a
  h_S200 : 0 < S200.numel
  shapeCasts_S200_S1x200 : S200.ShapeCasts S1x200
  broadcasts_S1x200_S2048x200 : S1x200.Broadcasts S2048x200
  inb_S200x200_S200x200_0_0 : ∀ a, (![0, 0] : Fin 2 → Nat) a + S200x200.size a ≤ S200x200.size a
  h_S200x200 : 0 < S200x200.numel
  inb_S200x1_S200x1_0_0 : ∀ a, (![0, 0] : Fin 2 → Nat) a + S200x1.size a ≤ S200x1.size a
  h_S200x1 : 0 < S200x1.numel
  inb_S1x1_S1x1_0_0 : ∀ a, (![0, 0] : Fin 2 → Nat) a + S1x1.size a ≤ S1x1.size a
  h_S1x1 : 0 < S1x1.numel
  gather_S3112004x1_S16384x8x1_S16384x8x1_2_0_n_n_0_2_11_wf : GatherDims.WF S3112004x1 S16384x8x1 S16384x8x1 [2] [0] [] [0] [] 2 ![1, 1]
  gather_S3112004x16_S16384x8x1_S16384x8x16_2_0_n_n_0_2_116_wf : GatherDims.WF S3112004x16 S16384x8x1 S16384x8x16 [2] [0] [] [0] [] 2 ![1, 16]
  gather_S50000x16_S16384x50x1_S16384x50x16_2_0_n_n_0_2_116_wf : GatherDims.WF S50000x16 S16384x50x1 S16384x50x16 [2] [0] [] [0] [] 2 ![1, 16]
  gather_S1000x16_S16384x50x1_S16384x50x16_2_0_n_n_0_2_116_wf : GatherDims.WF S1000x16 S16384x50x1 S16384x50x16 [2] [0] [] [0] [] 2 ![1, 16]
  gather_S3112004x16_S16384x200x1_S16384x200x16_2_0_n_n_0_2_116_wf : GatherDims.WF S3112004x16 S16384x200x1 S16384x200x16 [2] [0] [] [0] [] 2 ![1, 16]
  dot_S2048x2_S2x1_S2048x1_1_0_0_1_n_n_wf : DotDims.WF S2048x2 S2x1 S2048x1 [1] [0] [0] [1] [] []
  dot_S2048x194_S194x200_S2048x200_1_0_0_1_n_n_wf : DotDims.WF S2048x194 S194x200 S2048x200 [1] [0] [0] [1] [] []
  dot_S2048x200_S200x200_S2048x200_1_0_0_1_n_n_wf : DotDims.WF S2048x200 S200x200 S2048x200 [1] [0] [0] [1] [] []
  dot_S2048x200_S200x1_S2048x1_1_0_0_1_n_n_wf : DotDims.WF S2048x200 S200x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x194.size a ≤ S16384x194.size a
  hwx0_0 : ∀ i : grid0.Coords, EltTy.bits .f32 = 32 ∨ (Rect.block (s := S16384x194) S2048x194.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x12x16.size a ≤ S16384x12x16.size a
  hwx0_1 : ∀ i : grid0.Coords, EltTy.bits .f32 = 32 ∨ (Rect.block (s := S16384x12x16) S2048x12x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S194x200.size a ≤ S194x200.size a
  hwx0_5 : ∀ i : grid0.Coords, EltTy.bits .f32 = 32 ∨ (Rect.block (s := S194x200) S194x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200.size a ≤ S200.size a
  hwx0_6 : ∀ i : grid0.Coords, EltTy.bits .f32 = 32 ∨ (Rect.block (s := S200) S200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x200.size a ≤ S200x200.size a
  hwx0_7 : ∀ i : grid0.Coords, EltTy.bits .f32 = 32 ∨ (Rect.block (s := S200x200) S200x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200.size a ≤ S200.size a
  hwx0_8 : ∀ i : grid0.Coords, EltTy.bits .f32 = 32 ∨ (Rect.block (s := S200) S200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x200.size a ≤ S200x200.size a
  hwx0_9 : ∀ i : grid0.Coords, EltTy.bits .f32 = 32 ∨ (Rect.block (s := S200x200) S200x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200.size a ≤ S200.size a
  hwx0_10 : ∀ i : grid0.Coords, EltTy.bits .f32 = 32 ∨ (Rect.block (s := S200) S200.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x1.size a ≤ S200x1.size a
  hwx0_11 : ∀ i : grid0.Coords, EltTy.bits .f32 = 32 ∨ (Rect.block (s := S200x1) S200x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S16384x1.size a
  hwx0_17 : ∀ i : grid0.Coords, EltTy.bits .f32 = 32 ∨ (Rect.block (s := S16384x1) S2048x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x1.size a ≤ S16384x1.size a
  hwx0_18 : ∀ i : grid0.Coords, EltTy.bits .f32 = 32 ∨ (Rect.block (s := S16384x1) S2048x1.size (cc0_transform_18 i) (hinb0_18 i)).WholeWords (EltTy.packing .f32)

variable [Facts₀]

def gather_S3112004x1_S16384x8x1_S16384x8x1_2_0_n_n_0_2_11 : GatherDims S3112004x1 S16384x8x1 S16384x8x1 where
  offsetDims := [2]
  collapsedSliceDims := [0]
  operandBatchingDims := []
  startIndicesBatchingDims := []
  startIndexMap := [0]
  indexVectorDim := 2
  sliceSizes := ![1, 1]
  wf := gather_S3112004x1_S16384x8x1_S16384x8x1_2_0_n_n_0_2_11_wf
def gather_S3112004x16_S16384x8x1_S16384x8x16_2_0_n_n_0_2_116 : GatherDims S3112004x16 S16384x8x1 S16384x8x16 where
  offsetDims := [2]
  collapsedSliceDims := [0]
  operandBatchingDims := []
  startIndicesBatchingDims := []
  startIndexMap := [0]
  indexVectorDim := 2
  sliceSizes := ![1, 16]
  wf := gather_S3112004x16_S16384x8x1_S16384x8x16_2_0_n_n_0_2_116_wf
def gather_S50000x16_S16384x50x1_S16384x50x16_2_0_n_n_0_2_116 : GatherDims S50000x16 S16384x50x1 S16384x50x16 where
  offsetDims := [2]
  collapsedSliceDims := [0]
  operandBatchingDims := []
  startIndicesBatchingDims := []
  startIndexMap := [0]
  indexVectorDim := 2
  sliceSizes := ![1, 16]
  wf := gather_S50000x16_S16384x50x1_S16384x50x16_2_0_n_n_0_2_116_wf
def gather_S1000x16_S16384x50x1_S16384x50x16_2_0_n_n_0_2_116 : GatherDims S1000x16 S16384x50x1 S16384x50x16 where
  offsetDims := [2]
  collapsedSliceDims := [0]
  operandBatchingDims := []
  startIndicesBatchingDims := []
  startIndexMap := [0]
  indexVectorDim := 2
  sliceSizes := ![1, 16]
  wf := gather_S1000x16_S16384x50x1_S16384x50x16_2_0_n_n_0_2_116_wf
def gather_S3112004x16_S16384x200x1_S16384x200x16_2_0_n_n_0_2_116 : GatherDims S3112004x16 S16384x200x1 S16384x200x16 where
  offsetDims := [2]
  collapsedSliceDims := [0]
  operandBatchingDims := []
  startIndicesBatchingDims := []
  startIndexMap := [0]
  indexVectorDim := 2
  sliceSizes := ![1, 16]
  wf := gather_S3112004x16_S16384x200x1_S16384x200x16_2_0_n_n_0_2_116_wf
def dot_S2048x2_S2x1_S2048x1_1_0_0_1_n_n : DotDims S2048x2 S2x1 S2048x1 where
  lhsContracting := [1]
  rhsContracting := [0]
  lhsNonContracting := [0]
  rhsNonContracting := [1]
  lhsBatch := []
  rhsBatch := []
  wf := dot_S2048x2_S2x1_S2048x1_1_0_0_1_n_n_wf
def dot_S2048x194_S194x200_S2048x200_1_0_0_1_n_n : DotDims S2048x194 S194x200 S2048x200 where
  lhsContracting := [1]
  rhsContracting := [0]
  lhsNonContracting := [0]
  rhsNonContracting := [1]
  lhsBatch := []
  rhsBatch := []
  wf := dot_S2048x194_S194x200_S2048x200_1_0_0_1_n_n_wf
def dot_S2048x200_S200x200_S2048x200_1_0_0_1_n_n : DotDims S2048x200 S200x200 S2048x200 where
  lhsContracting := [1]
  rhsContracting := [0]
  lhsNonContracting := [0]
  rhsNonContracting := [1]
  lhsBatch := []
  rhsBatch := []
  wf := dot_S2048x200_S200x200_S2048x200_1_0_0_1_n_n_wf
def dot_S2048x200_S200x1_S2048x1_1_0_0_1_n_n : DotDims S2048x200 S200x1 S2048x1 where
  lhsContracting := [1]
  rhsContracting := [0]
  lhsNonContracting := [0]
  rhsNonContracting := [1]
  lhsBatch := []
  rhsBatch := []
  wf := dot_S2048x200_S200x1_S2048x1_1_0_0_1_n_n_wf

abbrev win0_0 : Pipeline.Window sig grid0 :=
  Pipeline.Window.ofSpec (Memref.whole main_v74) S2048x194.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S2048x12x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S194x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg16) S200x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg18) S200x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg19) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg20) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg21) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg22) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg23) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v75_0) S2048x1.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v75_1) S2048x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S16384x8 : Shape := ⟨2, ![16384, 8]⟩
abbrev S16384x2 : Shape := ⟨2, ![16384, 2]⟩
abbrev S16384x50 : Shape := ⟨2, ![16384, 50]⟩
abbrev S16384x200 : Shape := ⟨2, ![16384, 200]⟩
abbrev S2x1 : Shape := ⟨2, ![2, 1]⟩
abbrev S1 : Shape := ⟨1, ![1]⟩
abbrev S3112004x1 : Shape := ⟨2, ![3112004, 1]⟩
abbrev S3112004x16 : Shape := ⟨2, ![3112004, 16]⟩
abbrev S50000x16 : Shape := ⟨2, ![50000, 16]⟩
abbrev S1000x16 : Shape := ⟨2, ![1000, 16]⟩
abbrev S194x200 : Shape := ⟨2, ![194, 200]⟩
abbrev S200 : Shape := ⟨1, ![200]⟩
abbrev S200x200 : Shape := ⟨2, ![200, 200]⟩
abbrev S200x1 : Shape := ⟨2, ![200, 1]⟩
abbrev S1x1 : Shape := ⟨2, ![1, 1]⟩
abbrev S8 : Shape := ⟨1, ![8]⟩
abbrev S1x8 : Shape := ⟨2, ![1, 8]⟩
abbrev S_ : Shape := ⟨0, ![]⟩
abbrev S16384x8x1 : Shape := ⟨3, ![16384, 8, 1]⟩
abbrev S16384 : Shape := ⟨1, ![16384]⟩
abbrev S16384x1 : Shape := ⟨2, ![16384, 1]⟩
abbrev S16384x8x16 : Shape := ⟨3, ![16384, 8, 16]⟩
abbrev S16384x50x1 : Shape := ⟨3, ![16384, 50, 1]⟩
abbrev S16384x50x16 : Shape := ⟨3, ![16384, 50, 16]⟩
abbrev S16384x16 : Shape := ⟨2, ![16384, 16]⟩
abbrev S16384x1x16 : Shape := ⟨3, ![16384, 1, 16]⟩
abbrev S16384x2x16 : Shape := ⟨3, ![16384, 2, 16]⟩
abbrev S16384x200x1 : Shape := ⟨3, ![16384, 200, 1]⟩
abbrev S16384x200x16 : Shape := ⟨3, ![16384, 200, 16]⟩
abbrev S16384x12x16 : Shape := ⟨3, ![16384, 12, 16]⟩
abbrev S16384x128 : Shape := ⟨2, ![16384, 128]⟩
abbrev S16384x32 : Shape := ⟨2, ![16384, 32]⟩
abbrev S16384x194 : Shape := ⟨2, ![16384, 194]⟩
abbrev S1x200 : Shape := ⟨2, ![1, 200]⟩

abbrev nBuf : Space → Nat
  | .hbm => 192
  | .vmem => 0
  | .smem => 0
  | _ => 0

abbrev hbmTy0_0 (i : Nat) : BufTy := match i % 128 with
  | 0 => ⟨S16384x8, .i32⟩
  | 1 => ⟨S16384x2, .f32⟩
  | 2 => ⟨S16384x50, .i32⟩
  | 3 => ⟨S16384x50, .i32⟩
  | 4 => ⟨S16384x200, .i32⟩
  | 5 => ⟨S16384x200, .i32⟩
  | 6 => ⟨S2x1, .f32⟩
  | 7 => ⟨S1, .f32⟩
  | 8 => ⟨S3112004x1, .f32⟩
  | 9 => ⟨S3112004x16, .f32⟩
  | 10 => ⟨S50000x16, .f32⟩
  | 11 => ⟨S1000x16, .f32⟩
  | 12 => ⟨S194x200, .f32⟩
  | 13 => ⟨S200, .f32⟩
  | 14 => ⟨S200x200, .f32⟩
  | 15 => ⟨S200, .f32⟩
  | 16 => ⟨S200x200, .f32⟩
  | 17 => ⟨S200, .f32⟩
  | 18 => ⟨S200x1, .f32⟩
  | 19 => ⟨S1, .f32⟩
  | 20 => ⟨S1x1, .f32⟩
  | 21 => ⟨S1, .f32⟩
  | 22 => ⟨S1x1, .f32⟩
  | 23 => ⟨S1, .f32⟩
  | 24 => ⟨S8, .i32⟩
  | 25 => ⟨S1x8, .i32⟩
  | 26 => ⟨S16384x8, .i32⟩
  | 27 => ⟨S16384x8, .i32⟩
  | 28 => ⟨S_, .i32⟩
  | 29 => ⟨S16384x8, .i32⟩
  | 30 => ⟨S16384x8, .i1⟩
  | 31 => ⟨S_, .i32⟩
  | 32 => ⟨S16384x8, .i32⟩
  | 33 => ⟨S16384x8, .i32⟩
  | 34 => ⟨S16384x8, .i32⟩
  | 35 => ⟨S16384x8x1, .i32⟩
  | 36 => ⟨S16384x8x1, .f32⟩
  | 37 => ⟨S16384x8, .f32⟩
  | 38 => ⟨S_, .f32⟩
  | 39 => ⟨S16384, .f32⟩
  | 40 => ⟨S16384x1, .f32⟩
  | 41 => ⟨S16384x1, .f32⟩
  | 42 => ⟨S1x1, .f32⟩
  | 43 => ⟨S16384x1, .f32⟩
  | 44 => ⟨S16384x1, .f32⟩
  | 45 => ⟨S16384x1, .f32⟩
  | 46 => ⟨S_, .i32⟩
  | 47 => ⟨S16384x8, .i32⟩
  | 48 => ⟨S16384x8, .i1⟩
  | 49 => ⟨S_, .i32⟩
  | 50 => ⟨S16384x8, .i32⟩
  | 51 => ⟨S16384x8, .i32⟩
  | 52 => ⟨S16384x8, .i32⟩
  | 53 => ⟨S16384x8x1, .i32⟩
  | 54 => ⟨S16384x8x16, .f32⟩
  | 55 => ⟨S_, .i32⟩
  | 56 => ⟨S16384x50, .i32⟩
  | 57 => ⟨S16384x50, .i1⟩
  | 58 => ⟨S_, .i32⟩
  | 59 => ⟨S16384x50, .i32⟩
  | 60 => ⟨S16384x50, .i32⟩
  | 61 => ⟨S16384x50, .i32⟩
  | 62 => ⟨S16384x50x1, .i32⟩
  | 63 => ⟨S16384x50x16, .f32⟩
  | 64 => ⟨S_, .f32⟩
  | 65 => ⟨S16384x16, .f32⟩
  | 66 => ⟨S_, .f32⟩
  | 67 => ⟨S16384x16, .f32⟩
  | 68 => ⟨S16384x16, .f32⟩
  | 69 => ⟨S_, .i32⟩
  | 70 => ⟨S16384x50, .i32⟩
  | 71 => ⟨S16384x50, .i1⟩
  | 72 => ⟨S_, .i32⟩
  | 73 => ⟨S16384x50, .i32⟩
  | 74 => ⟨S16384x50, .i32⟩
  | 75 => ⟨S16384x50, .i32⟩
  | 76 => ⟨S16384x50x1, .i32⟩
  | 77 => ⟨S16384x50x16, .f32⟩
  | 78 => ⟨S_, .f32⟩
  | 79 => ⟨S16384x16, .f32⟩
  | 80 => ⟨S_, .f32⟩
  | 81 => ⟨S16384x16, .f32⟩
  | 82 => ⟨S16384x16, .f32⟩
  | 83 => ⟨S16384x1x16, .f32⟩
  | 84 => ⟨S16384x1x16, .f32⟩
  | 85 => ⟨S16384x2x16, .f32⟩
  | 86 => ⟨S_, .i32⟩
  | 87 => ⟨S16384x200, .i32⟩
  | 88 => ⟨S16384x200, .i32⟩
  | 89 => ⟨S_, .i32⟩
  | 90 => ⟨S16384x200, .i32⟩
  | 91 => ⟨S16384x200, .i1⟩
  | 92 => ⟨S_, .i32⟩
  | 93 => ⟨S16384x200, .i32⟩
  | 94 => ⟨S16384x200, .i32⟩
  | 95 => ⟨S16384x200, .i32⟩
  | 96 => ⟨S16384x200x1, .i32⟩
  | 97 => ⟨S16384x200x16, .f32⟩
  | 98 => ⟨S_, .f32⟩
  | 99 => ⟨S16384x16, .f32⟩
  | 100 => ⟨S_, .f32⟩
  | 101 => ⟨S16384x16, .f32⟩
  | 102 => ⟨S16384x16, .f32⟩
  | 103 => ⟨S_, .i32⟩
  | 104 => ⟨S16384x200, .i32⟩
  | 105 => ⟨S16384x200, .i32⟩
  | 106 => ⟨S_, .i32⟩
  | 107 => ⟨S16384x200, .i32⟩
  | 108 => ⟨S16384x200, .i1⟩
  | 109 => ⟨S_, .i32⟩
  | 110 => ⟨S16384x200, .i32⟩
  | 111 => ⟨S16384x200, .i32⟩
  | 112 => ⟨S16384x200, .i32⟩
  | 113 => ⟨S16384x200x1, .i32⟩
  | 114 => ⟨S16384x200x16, .f32⟩
  | 115 => ⟨S_, .f32⟩
  | 116 => ⟨S16384x16, .f32⟩
  | 117 => ⟨S_, .f32⟩
  | 118 => ⟨S16384x16, .f32⟩
  | 119 => ⟨S16384x16, .f32⟩
  | 120 => ⟨S16384x1x16, .f32⟩
  | 121 => ⟨S16384x1x16, .f32⟩
  | 122 => ⟨S16384x2x16, .f32⟩
  | 123 => ⟨S16384x12x16, .f32⟩
  | 124 => ⟨S_, .f32⟩
  | 125 => ⟨S16384x16, .f32⟩
  | 126 => ⟨S16384x16, .f32⟩
  | 127 => ⟨S16384x12x16, .f32⟩
  | _ => ⟨S16384x8, .i32⟩

abbrev hbmTy0_1 (i : Nat) : BufTy := match i % 128 with
  | 0 => ⟨S_, .f32⟩
  | 1 => ⟨S16384x16, .f32⟩
  | 2 => ⟨S16384x16, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S16384x128, .f32⟩
  | 10 => ⟨S16384x32, .f32⟩
  | 11 => ⟨S16384x32, .f32⟩
  | 12 => ⟨S16384x194, .f32⟩
  | 13 => ⟨S16384x200, .f32⟩
  | 14 => ⟨S1x200, .f32⟩
  | 15 => ⟨S16384x200, .f32⟩
  | 16 => ⟨S16384x200, .f32⟩
  | 17 => ⟨S_, .f32⟩
  | 18 => ⟨S16384x200, .f32⟩
  | 19 => ⟨S16384x200, .f32⟩
  | 20 => ⟨S16384x200, .f32⟩
  | 21 => ⟨S1x200, .f32⟩
  | 22 => ⟨S16384x200, .f32⟩
  | 23 => ⟨S16384x200, .f32⟩
  | 24 => ⟨S_, .f32⟩
  | 25 => ⟨S16384x200, .f32⟩
  | 26 => ⟨S16384x200, .f32⟩
  | 27 => ⟨S16384x200, .f32⟩
  | 28 => ⟨S1x200, .f32⟩
  | 29 => ⟨S16384x200, .f32⟩
  | 30 => ⟨S16384x200, .f32⟩
  | 31 => ⟨S_, .f32⟩
  | 32 => ⟨S16384x200, .f32⟩
  | 33 => ⟨S16384x200, .f32⟩
  | 34 => ⟨S16384x1, .f32⟩
  | 35 => ⟨S1x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S1x1, .f32⟩
  | 42 => ⟨S16384x1, .f32⟩
  | 43 => ⟨S16384x1, .f32⟩
  | 44 => ⟨S16384x1, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S1x1, .f32⟩
  | 54 => ⟨S16384x1, .f32⟩
  | 55 => ⟨S16384x1, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | _ => ⟨S16384x8, .i32⟩

abbrev hbmTy (i : Nat) : BufTy := match i / 128 with
  | 0 => hbmTy0_0 i
  | 1 => hbmTy0_1 i
  | _ => ⟨S16384x8, .i32⟩

abbrev bufTy : (tb : Table) → Fin (tcTables nBuf tb) → BufTy
  | .hbm, ⟨i, _⟩ => hbmTy i
  | _, _ => ⟨S16384x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_c_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_12 : Ref sig .tc := ⟨.hbm, 86, rfl⟩
abbrev main_v48 : Ref sig .tc := ⟨.hbm, 87, rfl⟩
abbrev main_v49 : Ref sig .tc := ⟨.hbm, 88, rfl⟩
abbrev main_c_13 : Ref sig .tc := ⟨.hbm, 89, rfl⟩
abbrev main_v50 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_15 : Ref sig .tc := ⟨.hbm, 98, rfl⟩
abbrev main_v57 : Ref sig .tc := ⟨.hbm, 99, rfl⟩
abbrev main_cst_16 : Ref sig .tc := ⟨.hbm, 100, rfl⟩
abbrev main_v58 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_c_19 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_20 : Ref sig .tc := ⟨.hbm, 115, rfl⟩
abbrev main_v69 : Ref sig .tc := ⟨.hbm, 116, rfl⟩
abbrev main_cst_21 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_22 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_23 : Ref sig .tc := ⟨.hbm, 128, rfl⟩
abbrev main_v79 : Ref sig .tc := ⟨.hbm, 129, rfl⟩
abbrev main_v80 : Ref sig .tc := ⟨.hbm, 130, rfl⟩
abbrev main_cst_24 : Ref sig .tc := ⟨.hbm, 131, rfl⟩
abbrev main_v81 : Ref sig .tc := ⟨.hbm, 132, rfl⟩
abbrev main_v82 : Ref sig .tc := ⟨.hbm, 133, rfl⟩
abbrev main_cst_25 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call0_cst : Ref sig .tc := ⟨.hbm, 145, rfl⟩
abbrev main_call0_v0 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_call1_cst : Ref sig .tc := ⟨.hbm, 152, rfl⟩
abbrev main_call1_v0 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call2_cst : Ref sig .tc := ⟨.hbm, 159, rfl⟩
abbrev main_call2_v0 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_26 : Ref sig .tc := ⟨.hbm, 174, rfl⟩
abbrev main_v116 : Ref sig .tc := ⟨.hbm, 175, rfl⟩
abbrev main_v117 : Ref sig .tc := ⟨.hbm, 176, rfl⟩
abbrev main_cst_27 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_28 : Ref sig .tc := ⟨.hbm, 186, rfl⟩
abbrev main_v126 : Ref sig .tc := ⟨.hbm, 187, rfl⟩
abbrev main_v127 : Ref sig .tc := ⟨.hbm, 188, rfl⟩
abbrev main_cst_29 : Ref sig .tc := ⟨.hbm, 189, rfl⟩
abbrev main_v128 : Ref sig .tc := ⟨.hbm, 190, rfl⟩
abbrev main_v129 : Ref sig .tc := ⟨.hbm, 191, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  shapeCasts_S16384x8x1_S16384x8 : S16384x8x1.ShapeCasts S16384x8
  reducesTo_S16384x8_S16384_d1 : S16384x8.ReducesTo [1] S16384
  h_S_ : 0 < S_.numel
  bcast_S16384_S16384x1_0 : S16384.BroadcastsInDim S16384x1 (![0] : Fin 1 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50x16_S16384x16_d1 : S16384x50x16.ReducesTo [1] S16384x16
  bcast_S_S16384x16 : S_.BroadcastsInDim S16384x16 (![] : Fin 0 → Fin S16384x16.rank)
  bcast_S16384x16_S16384x1x16_0_2 : S16384x16.BroadcastsInDim S16384x1x16 (![0, 2] : Fin 2 → Fin S16384x1x16.rank)
  concatenates_S16384x1x16_S16384x1x16_S16384x2x16_d1 : Shape.Concatenates [S16384x1x16, S16384x1x16] S16384x2x16 1
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  reducesTo_S16384x200x16_S16384x16_d1 : S16384x200x16.ReducesTo [1] S16384x16
  concatenates_S16384x8x16_S16384x2x16_S16384x2x16_S16384x12x16_d1 : Shape.Concatenates [S16384x8x16, S16384x2x16, S16384x2x16] S16384x12x16 1
  reducesTo_S16384x12x16_S16384x16_d1 : S16384x12x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x8x16_S16384x128 : S16384x8x16.ShapeCasts S16384x128
  shapeCasts_S16384x2x16_S16384x32 : S16384x2x16.ShapeCasts S16384x32
  concatenates_S16384x2_S16384x128_S16384x32_S16384x32_S16384x194_d1 : Shape.Concatenates [S16384x2, S16384x128, S16384x32, S16384x32] S16384x194 1
  bcast_S200_S1x200_1 : S200.BroadcastsInDim S1x200 (![1] : Fin 1 → Fin S1x200.rank)
  bcast_S1x200_S16384x200_0_1 : S1x200.BroadcastsInDim S16384x200 (![0, 1] : Fin 2 → Fin S16384x200.rank)
  gather_S3112004x1_S16384x8x1_S16384x8x1_2_0_n_n_0_2_11_wf : GatherDims.WF S3112004x1 S16384x8x1 S16384x8x1 [2] [0] [] [0] [] 2 ![1, 1]
  dot_S16384x2_S2x1_S16384x1_1_0_0_1_n_n_wf : DotDims.WF S16384x2 S2x1 S16384x1 [1] [0] [0] [1] [] []
  gather_S3112004x16_S16384x8x1_S16384x8x16_2_0_n_n_0_2_116_wf : GatherDims.WF S3112004x16 S16384x8x1 S16384x8x16 [2] [0] [] [0] [] 2 ![1, 16]
  gather_S50000x16_S16384x50x1_S16384x50x16_2_0_n_n_0_2_116_wf : GatherDims.WF S50000x16 S16384x50x1 S16384x50x16 [2] [0] [] [0] [] 2 ![1, 16]
  gather_S1000x16_S16384x50x1_S16384x50x16_2_0_n_n_0_2_116_wf : GatherDims.WF S1000x16 S16384x50x1 S16384x50x16 [2] [0] [] [0] [] 2 ![1, 16]
  gather_S3112004x16_S16384x200x1_S16384x200x16_2_0_n_n_0_2_116_wf : GatherDims.WF S3112004x16 S16384x200x1 S16384x200x16 [2] [0] [] [0] [] 2 ![1, 16]
  dot_S16384x194_S194x200_S16384x200_1_0_0_1_n_n_wf : DotDims.WF S16384x194 S194x200 S16384x200 [1] [0] [0] [1] [] []
  dot_S16384x200_S200x200_S16384x200_1_0_0_1_n_n_wf : DotDims.WF S16384x200 S200x200 S16384x200 [1] [0] [0] [1] [] []
  dot_S16384x200_S200x1_S16384x1_1_0_0_1_n_n_wf : DotDims.WF S16384x200 S200x1 S16384x1 [1] [0] [0] [1] [] []
  dot_S16384x1_S1x1_S16384x1_1_0_0_1_n_n_wf : DotDims.WF S16384x1 S1x1 S16384x1 [1] [0] [0] [1] [] []

variable [Facts₀]

def gather_S3112004x1_S16384x8x1_S16384x8x1_2_0_n_n_0_2_11 : GatherDims S3112004x1 S16384x8x1 S16384x8x1 where
  offsetDims := [2]
  collapsedSliceDims := [0]
  operandBatchingDims := []
  startIndicesBatchingDims := []
  startIndexMap := [0]
  indexVectorDim := 2
  sliceSizes := ![1, 1]
  wf := gather_S3112004x1_S16384x8x1_S16384x8x1_2_0_n_n_0_2_11_wf
def dot_S16384x2_S2x1_S16384x1_1_0_0_1_n_n : DotDims S16384x2 S2x1 S16384x1 where
  lhsContracting := [1]
  rhsContracting := [0]
  lhsNonContracting := [0]
  rhsNonContracting := [1]
  lhsBatch := []
  rhsBatch := []
  wf := dot_S16384x2_S2x1_S16384x1_1_0_0_1_n_n_wf
def gather_S3112004x16_S16384x8x1_S16384x8x16_2_0_n_n_0_2_116 : GatherDims S3112004x16 S16384x8x1 S16384x8x16 where
  offsetDims := [2]
  collapsedSliceDims := [0]
  operandBatchingDims := []
  startIndicesBatchingDims := []
  startIndexMap := [0]
  indexVectorDim := 2
  sliceSizes := ![1, 16]
  wf := gather_S3112004x16_S16384x8x1_S16384x8x16_2_0_n_n_0_2_116_wf
def gather_S50000x16_S16384x50x1_S16384x50x16_2_0_n_n_0_2_116 : GatherDims S50000x16 S16384x50x1 S16384x50x16 where
  offsetDims := [2]
  collapsedSliceDims := [0]
  operandBatchingDims := []
  startIndicesBatchingDims := []
  startIndexMap := [0]
  indexVectorDim := 2
  sliceSizes := ![1, 16]
  wf := gather_S50000x16_S16384x50x1_S16384x50x16_2_0_n_n_0_2_116_wf
def gather_S1000x16_S16384x50x1_S16384x50x16_2_0_n_n_0_2_116 : GatherDims S1000x16 S16384x50x1 S16384x50x16 where
  offsetDims := [2]
  collapsedSliceDims := [0]
  operandBatchingDims := []
  startIndicesBatchingDims := []
  startIndexMap := [0]
  indexVectorDim := 2
  sliceSizes := ![1, 16]
  wf := gather_S1000x16_S16384x50x1_S16384x50x16_2_0_n_n_0_2_116_wf
def gather_S3112004x16_S16384x200x1_S16384x200x16_2_0_n_n_0_2_116 : GatherDims S3112004x16 S16384x200x1 S16384x200x16 where
  offsetDims := [2]
  collapsedSliceDims := [0]
  operandBatchingDims := []
  startIndicesBatchingDims := []
  startIndexMap := [0]
  indexVectorDim := 2
  sliceSizes := ![1, 16]
  wf := gather_S3112004x16_S16384x200x1_S16384x200x16_2_0_n_n_0_2_116_wf
def dot_S16384x194_S194x200_S16384x200_1_0_0_1_n_n : DotDims S16384x194 S194x200 S16384x200 where
  lhsContracting := [1]
  rhsContracting := [0]
  lhsNonContracting := [0]
  rhsNonContracting := [1]
  lhsBatch := []
  rhsBatch := []
  wf := dot_S16384x194_S194x200_S16384x200_1_0_0_1_n_n_wf
def dot_S16384x200_S200x200_S16384x200_1_0_0_1_n_n : DotDims S16384x200 S200x200 S16384x200 where
  lhsContracting := [1]
  rhsContracting := [0]
  lhsNonContracting := [0]
  rhsNonContracting := [1]
  lhsBatch := []
  rhsBatch := []
  wf := dot_S16384x200_S200x200_S16384x200_1_0_0_1_n_n_wf
def dot_S16384x200_S200x1_S16384x1_1_0_0_1_n_n : DotDims S16384x200 S200x1 S16384x1 where
  lhsContracting := [1]
  rhsContracting := [0]
  lhsNonContracting := [0]
  rhsNonContracting := [1]
  lhsBatch := []
  rhsBatch := []
  wf := dot_S16384x200_S200x1_S16384x1_1_0_0_1_n_n_wf
def dot_S16384x1_S1x1_S16384x1_1_0_0_1_n_n : DotDims S16384x1 S1x1 S16384x1 where
  lhsContracting := [1]
  rhsContracting := [0]
  lhsNonContracting := [0]
  rhsNonContracting := [1]
  lhsBatch := []
  rhsBatch := []
  wf := dot_S16384x1_S1x1_S16384x1_1_0_0_1_n_n_wf

class Facts : Prop extends Facts₀ where

variable [Facts]
-- ==== Proof.KFrame.lean ====
import proofs.«160683_j87995289960919_1_alg».proof.Proof.Gen.Kernel.Launch
import proofs.«160683_j87995289960919_1_alg».proof.Proof.Gen.Kernel.Skeleton
import proofs.«160683_j87995289960919_1_alg».proof.Proof.Gen.Kernel.Points
import Idealize.ShloMosaic.Lib.Pipeline.FrameBody
import Idealize.ShloMosaic.Lib.Ring
import Idealize.ShloMosaic.Lib.Tactic

-- deciding membership in a rectangle with thousands of rows recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents run through the host
    operations that precede it (gathers, pooled sums, reshapes and the two joins), one after the other. -/
abbrev V (c : Dev nD) (b : Ref sig .tc) : Buf (Elt F) ((c : Thread nD τ).loc b) :=
  StableHlo.after (List.flatten [hostOps0]) (fun b => m (c, b)) b

set_option maxHeartbeats 4000000 in
/-- None of the host operations allocates: each writes a buffer the program already names. -/
theorem hostOps0_fresh : (hostOps0 : List (HloOp τ sig (Elt F))).Forall fun op => op.fresh = ∅ := by
  simp only [List.Forall]; repeat' constructor

/-- The program is its host operations followed by the region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 4000000 in
/-- Every host operation writes an intermediate, never the argument `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`: the rows of its array (as the region finds it) that the point stages. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input the body only reads: its staging buffer holds the point's block at every point, whether the
    block was fetched there or carried over from the previous point (its index then did not move). Window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 2. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 3. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 4. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 5. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 6. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 7. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 8. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 9. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 10. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 11. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 12. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 13. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 14. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 15. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 16. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

set_option maxHeartbeats 4000000 in
/-- `main_arg0` is no window's array: the region leaves it alone, and the region found it as launched. -/
theorem kept_arg0 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)
set_option maxHeartbeats 4000000 in
/-- `main_arg1` is no window's array: the region leaves it alone, and the region found it as launched. -/
theorem kept_arg1 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
set_option maxHeartbeats 4000000 in
/-- `main_arg2` is no window's array: the region leaves it alone, and the region found it as launched. -/
theorem kept_arg2 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
set_option maxHeartbeats 4000000 in
/-- `main_arg3` is no window's array: the region leaves it alone, and the region found it as launched. -/
theorem kept_arg3 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
set_option maxHeartbeats 4000000 in
/-- `main_arg4` is no window's array: the region leaves it alone, and the region found it as launched. -/
theorem kept_arg4 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
set_option maxHeartbeats 4000000 in
/-- `main_arg5` is no window's array: the region leaves it alone, and the region found it as launched. -/
theorem kept_arg5 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
set_option maxHeartbeats 4000000 in
/-- `main_arg6` is window 3's array, an input: the pipeline leaves it as the region found it, and the region found it as launched. -/
theorem kept_arg6 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg6) = m ((c.tc : Thread nD τ).loc main_arg6) :=
  ((h c).1 3).trans (((dats 0 c).arrAt_in 3 rfl _).trans ((hA c 3).trans (V_main_arg6 m c)))
set_option maxHeartbeats 4000000 in
/-- `main_arg7` is window 4's array, an input: the pipeline leaves it as the region found it, and the region found it as launched. -/
theorem kept_arg7 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg7) = m ((c.tc : Thread nD τ).loc main_arg7) :=
  ((h c).1 4).trans (((dats 0 c).arrAt_in 4 rfl _).trans ((hA c 4).trans (V_main_arg7 m c)))
set_option maxHeartbeats 4000000 in
/-- `main_arg8` is no window's array: the region leaves it alone, and the region found it as launched. -/
theorem kept_arg8 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
set_option maxHeartbeats 4000000 in
/-- `main_arg9` is no window's array: the region leaves it alone, and the region found it as launched. -/
theorem kept_arg9 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
set_option maxHeartbeats 4000000 in
/-- `main_arg10` is no window's array: the region leaves it alone, and the region found it as launched. -/
theorem kept_arg10 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
set_option maxHeartbeats 4000000 in
/-- `main_arg11` is no window's array: the region leaves it alone, and the region found it as launched. -/
theorem kept_arg11 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
set_option maxHeartbeats 4000000 in
/-- `main_arg12` is window 5's array, an input: the pipeline leaves it as the region found it, and the region found it as launched. -/
theorem kept_arg12 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg12) = m ((c.tc : Thread nD τ).loc main_arg12) :=
  ((h c).1 5).trans (((dats 0 c).arrAt_in 5 rfl _).trans ((hA c 5).trans (V_main_arg12 m c)))
set_option maxHeartbeats 4000000 in
/-- `main_arg13` is window 6's array, an input: the pipeline leaves it as the region found it, and the region found it as launched. -/
theorem kept_arg13 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg13) = m ((c.tc : Thread nD τ).loc main_arg13) :=
  ((h c).1 6).trans (((dats 0 c).arrAt_in 6 rfl _).trans ((hA c 6).trans (V_main_arg13 m c)))
set_option maxHeartbeats 4000000 in
/-- `main_arg14` is window 7's array, an input: the pipeline leaves it as the region found it, and the region found it as launched. -/
theorem kept_arg14 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg14) = m ((c.tc : Thread nD τ).loc main_arg14) :=
  ((h c).1 7).trans (((dats 0 c).arrAt_in 7 rfl _).trans ((hA c 7).trans (V_main_arg14 m c)))
set_option maxHeartbeats 4000000 in
/-- `main_arg15` is window 8's array, an input: the pipeline leaves it as the region found it, and the region found it as launched. -/
theorem kept_arg15 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg15) = m ((c.tc : Thread nD τ).loc main_arg15) :=
  ((h c).1 8).trans (((dats 0 c).arrAt_in 8 rfl _).trans ((hA c 8).trans (V_main_arg15 m c)))
set_option maxHeartbeats 4000000 in
/-- `main_arg16` is window 9's array, an input: the pipeline leaves it as the region found it, and the region found it as launched. -/
theorem kept_arg16 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg16) = m ((c.tc : Thread nD τ).loc main_arg16) :=
  ((h c).1 9).trans (((dats 0 c).arrAt_in 9 rfl _).trans ((hA c 9).trans (V_main_arg16 m c)))
set_option maxHeartbeats 4000000 in
/-- `main_arg17` is window 10's array, an input: the pipeline leaves it as the region found it, and the region found it as launched. -/
theorem kept_arg17 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg17) = m ((c.tc : Thread nD τ).loc main_arg17) :=
  ((h c).1 10).trans (((dats 0 c).arrAt_in 10 rfl _).trans ((hA c 10).trans (V_main_arg17 m c)))
set_option maxHeartbeats 4000000 in
/-- `main_arg18` is window 11's array, an input: the pipeline leaves it as the region found it, and the region found it as launched. -/
theorem kept_arg18 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg18) = m ((c.tc : Thread nD τ).loc main_arg18) :=
  ((h c).1 11).trans (((dats 0 c).arrAt_in 11 rfl _).trans ((hA c 11).trans (V_main_arg18 m c)))
set_option maxHeartbeats 4000000 in
/-- `main_arg19` is window 12's array, an input: the pipeline leaves it as the region found it, and the region found it as launched. -/
theorem kept_arg19 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg19) = m ((c.tc : Thread nD τ).loc main_arg19) :=
  ((h c).1 12).trans (((dats 0 c).arrAt_in 12 rfl _).trans ((hA c 12).trans (V_main_arg19 m c)))
set_option maxHeartbeats 4000000 in
/-- `main_arg20` is window 13's array, an input: the pipeline leaves it as the region found it, and the region found it as launched. -/
theorem kept_arg20 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg20) = m ((c.tc : Thread nD τ).loc main_arg20) :=
  ((h c).1 13).trans (((dats 0 c).arrAt_in 13 rfl _).trans ((hA c 13).trans (V_main_arg20 m c)))
set_option maxHeartbeats 4000000 in
/-- `main_arg21` is window 14's array, an input: the pipeline leaves it as the region found it, and the region found it as launched. -/
theorem kept_arg21 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg21) = m ((c.tc : Thread nD τ).loc main_arg21) :=
  ((h c).1 14).trans (((dats 0 c).arrAt_in 14 rfl _).trans ((hA c 14).trans (V_main_arg21 m c)))
set_option maxHeartbeats 4000000 in
/-- `main_arg22` is window 15's array, an input: the pipeline leaves it as the region found it, and the region found it as launched. -/
theorem kept_arg22 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg22) = m ((c.tc : Thread nD τ).loc main_arg22) :=
  ((h c).1 15).trans (((dats 0 c).arrAt_in 15 rfl _).trans ((hA c 15).trans (V_main_arg22 m c)))
set_option maxHeartbeats 4000000 in
/-- `main_arg23` is window 16's array, an input: the pipeline leaves it as the region found it, and the region found it as launched. -/
theorem kept_arg23 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg23) = m ((c.tc : Thread nD τ).loc main_arg23) :=
  ((h c).1 16).trans (((dats 0 c).arrAt_in 16 rfl _).trans ((hA c 16).trans (V_main_arg23 m c)))

/-- A final state in which every window's array is what the pipeline computes and every other buffer is as the
    region found it has all 24 argument arrays as launched. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨kept_arg0 m dats hA r h c, kept_arg1 m dats hA r h c, kept_arg2 m dats hA r h c, kept_arg3 m dats hA r h c, kept_arg4 m dats hA r h c, kept_arg5 m dats hA r h c, kept_arg6 m dats hA r h c, kept_arg7 m dats hA r h c, kept_arg8 m dats hA r h c, kept_arg9 m dats hA r h c, kept_arg10 m dats hA r h c, kept_arg11 m dats hA r h c, kept_arg12 m dats hA r h c, kept_arg13 m dats hA r h c, kept_arg14 m dats hA r h c, kept_arg15 m dats hA r h c, kept_arg16 m dats hA r h c, kept_arg17 m dats hA r h c, kept_arg18 m dats hA r h c, kept_arg19 m dats hA r h c, kept_arg20 m dats hA r h c, kept_arg21 m dats hA r h c, kept_arg22 m dats hA r h c, kept_arg23 m dats hA r h c⟩

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_of_post m dats hA r h c) h

/-! ## The body's accesses -/

/-- The rectangle that is the whole of a buffer of shape `S2048x194`: every load and store of the body goes through such a one. -/
abbrev rect_S2048x194 : Rect S2048x194 := Rect.unit (s := S2048x194) ![0, 0] S2048x194.size inb_S2048x194_S2048x194_0_0
/-- The rectangle that is the whole of a buffer of shape `S2048x12x16`: every load and store of the body goes through such a one. -/
abbrev rect_S2048x12x16 : Rect S2048x12x16 := Rect.unit (s := S2048x12x16) ![0, 0, 0] S2048x12x16.size inb_S2048x12x16_S2048x12x16_0_0_0
/-- The rectangle that is the whole of a buffer of shape `S2048x1`: every load and store of the body goes through such a one. -/
abbrev rect_S2048x1 : Rect S2048x1 := Rect.unit (s := S2048x1) ![0, 0] S2048x1.size inb_S2048x1_S2048x1_0_0
/-- The rectangle that is the whole of a buffer of shape `S2x1`: every load and store of the body goes through such a one. -/
abbrev rect_S2x1 : Rect S2x1 := Rect.unit (s := S2x1) ![0, 0] S2x1.size inb_S2x1_S2x1_0_0
/-- The rectangle that is the whole of a buffer of shape `S1`: every load and store of the body goes through such a one. -/
abbrev rect_S1 : Rect S1 := Rect.unit (s := S1) ![0] S1.size inb_S1_S1_0
/-- The rectangle that is the whole of a buffer of shape `S194x200`: every load and store of the body goes through such a one. -/
abbrev rect_S194x200 : Rect S194x200 := Rect.unit (s := S194x200) ![0, 0] S194x200.size inb_S194x200_S194x200_0_0
/-- The rectangle that is the whole of a buffer of shape `S200`: every load and store of the body goes through such a one. -/
abbrev rect_S200 : Rect S200 := Rect.unit (s := S200) ![0] S200.size inb_S200_S200_0
/-- The rectangle that is the whole of a buffer of shape `S200x200`: every load and store of the body goes through such a one. -/
abbrev rect_S200x200 : Rect S200x200 := Rect.unit (s := S200x200) ![0, 0] S200x200.size inb_S200x200_S200x200_0_0
/-- The rectangle that is the whole of a buffer of shape `S200x1`: every load and store of the body goes through such a one. -/
abbrev rect_S200x1 : Rect S200x1 := Rect.unit (s := S200x1) ![0, 0] S200x1.size inb_S200x1_S200x1_0_0
/-- The rectangle that is the whole of a buffer of shape `S1x1`: every load and store of the body goes through such a one. -/
abbrev rect_S1x1 : Rect S1x1 := Rect.unit (s := S1x1) ![0, 0] S1x1.size inb_S1x1_S1x1_0_0

/-! ## What the body leaves in the two output buffers -/

/-- The first head's buffer after the body, from the input blocks: one store of the whole buffer, whose value is the
    logistic of the scaled and shifted sum of the first-order term, the pairwise-interaction term and the three-hidden-layer
    network's output. -/
def out0_17 (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x13 : Vec F S1x1 .f32) (x14 : Vec F S1 .f32) : Vec F S2048x1 .f32 :=
  View.canon [⟨rect_S2048x1, k0_pay7 (k0_pay3 (View.ld x1 rect_S2048x12x16)) (k0_pay4 (View.ld x0 rect_S2048x194) (View.ld x3 rect_S2x1) (View.ld x4 rect_S1) (View.ld x2 rect_S2048x1)) (k0_pay5 (View.ld x0 rect_S2048x194) (View.ld x5 rect_S194x200) (View.ld x6 rect_S200)) (View.ld x7 rect_S200x200) (View.ld x8 rect_S200) (View.ld x9 rect_S200x200) (View.ld x10 rect_S200) (View.ld x11 rect_S200x1) (View.ld x12 rect_S1) (View.ld x13 rect_S1x1) (View.ld x14 rect_S1)⟩]

/-- The second head's buffer after the body: the same sum under the second head's scale and shift, then the logistic. -/
def out0_18 (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x15 : Vec F S1x1 .f32) (x16 : Vec F S1 .f32) : Vec F S2048x1 .f32 :=
  View.canon [⟨rect_S2048x1, k0_pay1 (k0_pay8 (k0_pay3 (View.ld x1 rect_S2048x12x16)) (k0_pay4 (View.ld x0 rect_S2048x194) (View.ld x3 rect_S2x1) (View.ld x4 rect_S1) (View.ld x2 rect_S2048x1)) (k0_pay5 (View.ld x0 rect_S2048x194) (View.ld x5 rect_S194x200) (View.ld x6 rect_S200)) (View.ld x7 rect_S200x200) (View.ld x8 rect_S200) (View.ld x9 rect_S200x200) (View.ld x10 rect_S200) (View.ld x11 rect_S200x1) (View.ld x12 rect_S1) (View.ld x15 rect_S1x1)) (k0_pay9 (View.ld x16 rect_S1))⟩]

/-- One store through the whole-buffer rectangle covers the buffer. -/
theorem cover0_out (p0 : Vec F S2048x1 .f32) (y : S2048x1.Idx) :
    ∃ pc ∈ ([⟨rect_S2048x1, p0⟩] : List (View.Piece (Elt F) S2048x1 .f32)), y ∈ pc.1.set :=
  View.cover_of_tiled [⟨rect_S2048x1, p0⟩] S2048x1.size (by rfl) y

/-! ## The body's triple -/

set_option maxHeartbeats 4000000 in
/-- The kernel function on whole staging buffers — the seventeen inputs holding `xW`, the two outputs anything — runs
    to its end leaving the inputs as they were and the outputs at `out0_17` and `out0_18` of the inputs: both
    printed parts only load, and the function's own tail reads each output buffer (the value is dropped) right before
    overwriting the whole of it. -/
theorem sound_kernel (c : Dev nD) (E : Set ℕ) (i : grid0.Coords) (arg0 : Memref sig .tc .vmem S2048x194 .f32) (harg0 : arg0.IsWhole) (arg1 : Memref sig .tc .vmem S2048x12x16 .f32) (harg1 : arg1.IsWhole) (arg2 : Memref sig .tc .vmem S2048x1 .f32) (harg2 : arg2.IsWhole) (arg3 : Memref sig .tc .vmem S2x1 .f32) (harg3 : arg3.IsWhole) (arg4 : Memref sig .tc .vmem S1 .f32) (harg4 : arg4.IsWhole) (arg5 : Memref sig .tc .vmem S194x200 .f32) (harg5 : arg5.IsWhole) (arg6 : Memref sig .tc .vmem S200 .f32) (harg6 : arg6.IsWhole) (arg7 : Memref sig .tc .vmem S200x200 .f32) (harg7 : arg7.IsWhole) (arg8 : Memref sig .tc .vmem S200 .f32) (harg8 : arg8.IsWhole) (arg9 : Memref sig .tc .vmem S200x200 .f32) (harg9 : arg9.IsWhole) (arg10 : Memref sig .tc .vmem S200 .f32) (harg10 : arg10.IsWhole) (arg11 : Memref sig .tc .vmem S200x1 .f32) (harg11 : arg11.IsWhole) (arg12 : Memref sig .tc .vmem S1 .f32) (harg12 : arg12.IsWhole) (arg13 : Memref sig .tc .vmem S1x1 .f32) (harg13 : arg13.IsWhole) (arg14 : Memref sig .tc .vmem S1 .f32) (harg14 : arg14.IsWhole) (arg15 : Memref sig .tc .vmem S1x1 .f32) (harg15 : arg15.IsWhole) (arg16 : Memref sig .tc .vmem S1 .f32) (harg16 : arg16.IsWhole) (arg17 : Memref sig .tc .vmem S2048x1 .f32) (harg17 : arg17.IsWhole) (arg18 : Memref sig .tc .vmem S2048x1 .f32) (harg18 : arg18.IsWhole)
    (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x13 : Vec F S1x1 .f32) (x14 : Vec F S1 .f32) (x15 : Vec F S1x1 .f32) (x16 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out0_17 x0 x1 x2 x3 x4 x5 x6 x7 x8 x9 x10 x11 x12 x13 x14) ∗ owns (c : Thread nD τ) arg18 fullShare (out0_18 x0 x1 x2 x3 x4 x5 x6 x7 x8 x9 x10 x11 x12 x15 x16)) -∗ K ⟨⟩))
      ⊢ wp frame (wpE (defs₀ (F := F)) Variants.none c none) E (cc0__dfm_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__dfm_kernel_eq_skeleton]; unfold cc0__dfm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_out _)
  iexists _; isplitr
  swap; · iexact H18
  ipureintro
  exact View.read_writes_eq_canon _ _ _ (cover0_out _)

/-! ## The pipeline's proof data -/

/-- The proof data of the one pipeline on core `c`: the arrays as the region finds them; after the body at point `t`
    every input's buffer still at its block, the two outputs' at `out0_17` and `out0_18` of the input blocks; the
    invariant that nothing else is touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents, by projection (the host fold is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 15 t) (iblk m c 16 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`: the invariant, what is owed, and every window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' buffers hold their blocks, so the kernel function's triple applies; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has each window's array at what the pipeline computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and leaves all 24 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.Kernel.Hand

end
-- ==== Proof.KIFrame.lean ====
import proofs.«160683_j87995289960919_1_alg».proof.Proof.Gen.KernelIdeal.Launch
import proofs.«160683_j87995289960919_1_alg».proof.Proof.Gen.KernelIdeal.Skeleton
import proofs.«160683_j87995289960919_1_alg».proof.Proof.Gen.KernelIdeal.Points
import Idealize.ShloMosaic.Lib.Pipeline.FrameBody
import Idealize.ShloMosaic.Lib.Ring
import Idealize.ShloMosaic.Lib.Tactic

-- deciding membership in a rectangle with thousands of rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents run through the host
    operations that precede it (gathers, pooled sums, reshapes and the two joins), one after the other. -/
abbrev V (c : Dev nD) (b : Ref sig .tc) : Buf (Elt F) ((c : Thread nD τ).loc b) :=
  StableHlo.after (List.flatten [hostOps0]) (fun b => m (c, b)) b

set_option maxHeartbeats 4000000 in
/-- None of the host operations allocates: each writes a buffer the program already names. -/
theorem hostOps0_fresh : (hostOps0 : List (HloOp τ sig (Elt F))).Forall fun op => op.fresh = ∅ := by
  simp only [List.Forall]; repeat' constructor

/-- The program is its host operations followed by the region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 4000000 in
/-- Every host operation writes an intermediate, never the argument `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Every host operation writes an intermediate, never the argument `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`: the rows of its array (as the region finds it) that the point stages. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input the body only reads: its staging buffer holds the point's block at every point, whether the
    block was fetched there or carried over from the previous point (its index then did not move). Window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 2. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 3. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 4. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 5. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 6. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 7. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 8. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 9. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 10. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 11. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 12. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 13. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 14. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 15. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- An input the body only reads: its staging buffer holds the point's block at every point, whether the
    block was fetched there or carried over from the previous point (its index then did not move). Window 16. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

set_option maxHeartbeats 4000000 in
/-- `main_arg0` is no window's array: the region leaves it alone, and the region found it as launched. -/
theorem kept_arg0 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)
set_option maxHeartbeats 4000000 in
/-- `main_arg1` is no window's array: the region leaves it alone, and the region found it as launched. -/
theorem kept_arg1 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
set_option maxHeartbeats 4000000 in
/-- `main_arg2` is no window's array: the region leaves it alone, and the region found it as launched. -/
theorem kept_arg2 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
set_option maxHeartbeats 4000000 in
/-- `main_arg3` is no window's array: the region leaves it alone, and the region found it as launched. -/
theorem kept_arg3 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
set_option maxHeartbeats 4000000 in
/-- `main_arg4` is no window's array: the region leaves it alone, and the region found it as launched. -/
theorem kept_arg4 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
set_option maxHeartbeats 4000000 in
/-- `main_arg5` is no window's array: the region leaves it alone, and the region found it as launched. -/
theorem kept_arg5 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
set_option maxHeartbeats 4000000 in
/-- `main_arg6` is window 3's array, an input: the pipeline leaves it as the region found it, and the region found it as launched. -/
theorem kept_arg6 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg6) = m ((c.tc : Thread nD τ).loc main_arg6) :=
  ((h c).1 3).trans (((dats 0 c).arrAt_in 3 rfl _).trans ((hA c 3).trans (V_main_arg6 m c)))
set_option maxHeartbeats 4000000 in
/-- `main_arg7` is window 4's array, an input: the pipeline leaves it as the region found it, and the region found it as launched. -/
theorem kept_arg7 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg7) = m ((c.tc : Thread nD τ).loc main_arg7) :=
  ((h c).1 4).trans (((dats 0 c).arrAt_in 4 rfl _).trans ((hA c 4).trans (V_main_arg7 m c)))
set_option maxHeartbeats 4000000 in
/-- `main_arg8` is no window's array: the region leaves it alone, and the region found it as launched. -/
theorem kept_arg8 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
set_option maxHeartbeats 4000000 in
/-- `main_arg9` is no window's array: the region leaves it alone, and the region found it as launched. -/
theorem kept_arg9 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
set_option maxHeartbeats 4000000 in
/-- `main_arg10` is no window's array: the region leaves it alone, and the region found it as launched. -/
theorem kept_arg10 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
set_option maxHeartbeats 4000000 in
/-- `main_arg11` is no window's array: the region leaves it alone, and the region found it as launched. -/
theorem kept_arg11 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
set_option maxHeartbeats 4000000 in
/-- `main_arg12` is window 5's array, an input: the pipeline leaves it as the region found it, and the region found it as launched. -/
theorem kept_arg12 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg12) = m ((c.tc : Thread nD τ).loc main_arg12) :=
  ((h c).1 5).trans (((dats 0 c).arrAt_in 5 rfl _).trans ((hA c 5).trans (V_main_arg12 m c)))
set_option maxHeartbeats 4000000 in
/-- `main_arg13` is window 6's array, an input: the pipeline leaves it as the region found it, and the region found it as launched. -/
theorem kept_arg13 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg13) = m ((c.tc : Thread nD τ).loc main_arg13) :=
  ((h c).1 6).trans (((dats 0 c).arrAt_in 6 rfl _).trans ((hA c 6).trans (V_main_arg13 m c)))
set_option maxHeartbeats 4000000 in
/-- `main_arg14` is window 7's array, an input: the pipeline leaves it as the region found it, and the region found it as launched. -/
theorem kept_arg14 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg14) = m ((c.tc : Thread nD τ).loc main_arg14) :=
  ((h c).1 7).trans (((dats 0 c).arrAt_in 7 rfl _).trans ((hA c 7).trans (V_main_arg14 m c)))
set_option maxHeartbeats 4000000 in
/-- `main_arg15` is window 8's array, an input: the pipeline leaves it as the region found it, and the region found it as launched. -/
theorem kept_arg15 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg15) = m ((c.tc : Thread nD τ).loc main_arg15) :=
  ((h c).1 8).trans (((dats 0 c).arrAt_in 8 rfl _).trans ((hA c 8).trans (V_main_arg15 m c)))
set_option maxHeartbeats 4000000 in
/-- `main_arg16` is window 9's array, an input: the pipeline leaves it as the region found it, and the region found it as launched. -/
theorem kept_arg16 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg16) = m ((c.tc : Thread nD τ).loc main_arg16) :=
  ((h c).1 9).trans (((dats 0 c).arrAt_in 9 rfl _).trans ((hA c 9).trans (V_main_arg16 m c)))
set_option maxHeartbeats 4000000 in
/-- `main_arg17` is window 10's array, an input: the pipeline leaves it as the region found it, and the region found it as launched. -/
theorem kept_arg17 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg17) = m ((c.tc : Thread nD τ).loc main_arg17) :=
  ((h c).1 10).trans (((dats 0 c).arrAt_in 10 rfl _).trans ((hA c 10).trans (V_main_arg17 m c)))
set_option maxHeartbeats 4000000 in
/-- `main_arg18` is window 11's array, an input: the pipeline leaves it as the region found it, and the region found it as launched. -/
theorem kept_arg18 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg18) = m ((c.tc : Thread nD τ).loc main_arg18) :=
  ((h c).1 11).trans (((dats 0 c).arrAt_in 11 rfl _).trans ((hA c 11).trans (V_main_arg18 m c)))
set_option maxHeartbeats 4000000 in
/-- `main_arg19` is window 12's array, an input: the pipeline leaves it as the region found it, and the region found it as launched. -/
theorem kept_arg19 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg19) = m ((c.tc : Thread nD τ).loc main_arg19) :=
  ((h c).1 12).trans (((dats 0 c).arrAt_in 12 rfl _).trans ((hA c 12).trans (V_main_arg19 m c)))
set_option maxHeartbeats 4000000 in
/-- `main_arg20` is window 13's array, an input: the pipeline leaves it as the region found it, and the region found it as launched. -/
theorem kept_arg20 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg20) = m ((c.tc : Thread nD τ).loc main_arg20) :=
  ((h c).1 13).trans (((dats 0 c).arrAt_in 13 rfl _).trans ((hA c 13).trans (V_main_arg20 m c)))
set_option maxHeartbeats 4000000 in
/-- `main_arg21` is window 14's array, an input: the pipeline leaves it as the region found it, and the region found it as launched. -/
theorem kept_arg21 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg21) = m ((c.tc : Thread nD τ).loc main_arg21) :=
  ((h c).1 14).trans (((dats 0 c).arrAt_in 14 rfl _).trans ((hA c 14).trans (V_main_arg21 m c)))
set_option maxHeartbeats 4000000 in
/-- `main_arg22` is window 15's array, an input: the pipeline leaves it as the region found it, and the region found it as launched. -/
theorem kept_arg22 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg22) = m ((c.tc : Thread nD τ).loc main_arg22) :=
  ((h c).1 15).trans (((dats 0 c).arrAt_in 15 rfl _).trans ((hA c 15).trans (V_main_arg22 m c)))
set_option maxHeartbeats 4000000 in
/-- `main_arg23` is window 16's array, an input: the pipeline leaves it as the region found it, and the region found it as launched. -/
theorem kept_arg23 (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg23) = m ((c.tc : Thread nD τ).loc main_arg23) :=
  ((h c).1 16).trans (((dats 0 c).arrAt_in 16 rfl _).trans ((hA c 16).trans (V_main_arg23 m c)))

/-- A final state in which every window's array is what the pipeline computes and every other buffer is as the
    region found it has all 24 argument arrays as launched. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨kept_arg0 m dats hA r h c, kept_arg1 m dats hA r h c, kept_arg2 m dats hA r h c, kept_arg3 m dats hA r h c, kept_arg4 m dats hA r h c, kept_arg5 m dats hA r h c, kept_arg6 m dats hA r h c, kept_arg7 m dats hA r h c, kept_arg8 m dats hA r h c, kept_arg9 m dats hA r h c, kept_arg10 m dats hA r h c, kept_arg11 m dats hA r h c, kept_arg12 m dats hA r h c, kept_arg13 m dats hA r h c, kept_arg14 m dats hA r h c, kept_arg15 m dats hA r h c, kept_arg16 m dats hA r h c, kept_arg17 m dats hA r h c, kept_arg18 m dats hA r h c, kept_arg19 m dats hA r h c, kept_arg20 m dats hA r h c, kept_arg21 m dats hA r h c, kept_arg22 m dats hA r h c, kept_arg23 m dats hA r h c⟩

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_of_post m dats hA r h c) h

/-! ## The body's accesses -/

/-- The rectangle that is the whole of a buffer of shape `S2048x194`: every load and store of the body goes through such a one. -/
abbrev rect_S2048x194 : Rect S2048x194 := Rect.unit (s := S2048x194) ![0, 0] S2048x194.size inb_S2048x194_S2048x194_0_0
/-- The rectangle that is the whole of a buffer of shape `S2048x12x16`: every load and store of the body goes through such a one. -/
abbrev rect_S2048x12x16 : Rect S2048x12x16 := Rect.unit (s := S2048x12x16) ![0, 0, 0] S2048x12x16.size inb_S2048x12x16_S2048x12x16_0_0_0
/-- The rectangle that is the whole of a buffer of shape `S2048x1`: every load and store of the body goes through such a one. -/
abbrev rect_S2048x1 : Rect S2048x1 := Rect.unit (s := S2048x1) ![0, 0] S2048x1.size inb_S2048x1_S2048x1_0_0
/-- The rectangle that is the whole of a buffer of shape `S2x1`: every load and store of the body goes through such a one. -/
abbrev rect_S2x1 : Rect S2x1 := Rect.unit (s := S2x1) ![0, 0] S2x1.size inb_S2x1_S2x1_0_0
/-- The rectangle that is the whole of a buffer of shape `S1`: every load and store of the body goes through such a one. -/
abbrev rect_S1 : Rect S1 := Rect.unit (s := S1) ![0] S1.size inb_S1_S1_0
/-- The rectangle that is the whole of a buffer of shape `S194x200`: every load and store of the body goes through such a one. -/
abbrev rect_S194x200 : Rect S194x200 := Rect.unit (s := S194x200) ![0, 0] S194x200.size inb_S194x200_S194x200_0_0
/-- The rectangle that is the whole of a buffer of shape `S200`: every load and store of the body goes through such a one. -/
abbrev rect_S200 : Rect S200 := Rect.unit (s := S200) ![0] S200.size inb_S200_S200_0
/-- The rectangle that is the whole of a buffer of shape `S200x200`: every load and store of the body goes through such a one. -/
abbrev rect_S200x200 : Rect S200x200 := Rect.unit (s := S200x200) ![0, 0] S200x200.size inb_S200x200_S200x200_0_0
/-- The rectangle that is the whole of a buffer of shape `S200x1`: every load and store of the body goes through such a one. -/
abbrev rect_S200x1 : Rect S200x1 := Rect.unit (s := S200x1) ![0, 0] S200x1.size inb_S200x1_S200x1_0_0
/-- The rectangle that is the whole of a buffer of shape `S1x1`: every load and store of the body goes through such a one. -/
abbrev rect_S1x1 : Rect S1x1 := Rect.unit (s := S1x1) ![0, 0] S1x1.size inb_S1x1_S1x1_0_0

/-! ## What the body leaves in the two output buffers -/

/-- The first head's buffer after the body, from the input blocks: one store of the whole buffer, whose value is the
    logistic of the scaled and shifted sum of the first-order term, the pairwise-interaction term and the three-hidden-layer
    network's output. -/
def out0_17 (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x13 : Vec F S1x1 .f32) (x14 : Vec F S1 .f32) : Vec F S2048x1 .f32 :=
  View.canon [⟨rect_S2048x1, k0_pay7 (k0_pay3 (View.ld x1 rect_S2048x12x16)) (k0_pay4 (View.ld x0 rect_S2048x194) (View.ld x3 rect_S2x1) (View.ld x4 rect_S1) (View.ld x2 rect_S2048x1)) (k0_pay5 (View.ld x0 rect_S2048x194) (View.ld x5 rect_S194x200) (View.ld x6 rect_S200)) (View.ld x7 rect_S200x200) (View.ld x8 rect_S200) (View.ld x9 rect_S200x200) (View.ld x10 rect_S200) (View.ld x11 rect_S200x1) (View.ld x12 rect_S1) (View.ld x13 rect_S1x1) (View.ld x14 rect_S1)⟩]

/-- The second head's buffer after the body: the same sum under the second head's scale and shift, then the logistic. -/
def out0_18 (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x15 : Vec F S1x1 .f32) (x16 : Vec F S1 .f32) : Vec F S2048x1 .f32 :=
  View.canon [⟨rect_S2048x1, k0_pay1 (k0_pay8 (k0_pay3 (View.ld x1 rect_S2048x12x16)) (k0_pay4 (View.ld x0 rect_S2048x194) (View.ld x3 rect_S2x1) (View.ld x4 rect_S1) (View.ld x2 rect_S2048x1)) (k0_pay5 (View.ld x0 rect_S2048x194) (View.ld x5 rect_S194x200) (View.ld x6 rect_S200)) (View.ld x7 rect_S200x200) (View.ld x8 rect_S200) (View.ld x9 rect_S200x200) (View.ld x10 rect_S200) (View.ld x11 rect_S200x1) (View.ld x12 rect_S1) (View.ld x15 rect_S1x1)) (k0_pay9 (View.ld x16 rect_S1))⟩]

/-- One store through the whole-buffer rectangle covers the buffer. -/
theorem cover0_out (p0 : Vec F S2048x1 .f32) (y : S2048x1.Idx) :
    ∃ pc ∈ ([⟨rect_S2048x1, p0⟩] : List (View.Piece (Elt F) S2048x1 .f32)), y ∈ pc.1.set :=
  View.cover_of_tiled [⟨rect_S2048x1, p0⟩] S2048x1.size (by rfl) y

/-! ## The body's triple -/

set_option maxHeartbeats 4000000 in
/-- The kernel function on whole staging buffers — the seventeen inputs holding `xW`, the two outputs anything — runs
    to its end leaving the inputs as they were and the outputs at `out0_17` and `out0_18` of the inputs: both
    printed parts only load, and the function's own tail reads each output buffer (the value is dropped) right before
    overwriting the whole of it. -/
theorem sound_kernel (c : Dev nD) (E : Set ℕ) (i : grid0.Coords) (arg0 : Memref sig .tc .vmem S2048x194 .f32) (harg0 : arg0.IsWhole) (arg1 : Memref sig .tc .vmem S2048x12x16 .f32) (harg1 : arg1.IsWhole) (arg2 : Memref sig .tc .vmem S2048x1 .f32) (harg2 : arg2.IsWhole) (arg3 : Memref sig .tc .vmem S2x1 .f32) (harg3 : arg3.IsWhole) (arg4 : Memref sig .tc .vmem S1 .f32) (harg4 : arg4.IsWhole) (arg5 : Memref sig .tc .vmem S194x200 .f32) (harg5 : arg5.IsWhole) (arg6 : Memref sig .tc .vmem S200 .f32) (harg6 : arg6.IsWhole) (arg7 : Memref sig .tc .vmem S200x200 .f32) (harg7 : arg7.IsWhole) (arg8 : Memref sig .tc .vmem S200 .f32) (harg8 : arg8.IsWhole) (arg9 : Memref sig .tc .vmem S200x200 .f32) (harg9 : arg9.IsWhole) (arg10 : Memref sig .tc .vmem S200 .f32) (harg10 : arg10.IsWhole) (arg11 : Memref sig .tc .vmem S200x1 .f32) (harg11 : arg11.IsWhole) (arg12 : Memref sig .tc .vmem S1 .f32) (harg12 : arg12.IsWhole) (arg13 : Memref sig .tc .vmem S1x1 .f32) (harg13 : arg13.IsWhole) (arg14 : Memref sig .tc .vmem S1 .f32) (harg14 : arg14.IsWhole) (arg15 : Memref sig .tc .vmem S1x1 .f32) (harg15 : arg15.IsWhole) (arg16 : Memref sig .tc .vmem S1 .f32) (harg16 : arg16.IsWhole) (arg17 : Memref sig .tc .vmem S2048x1 .f32) (harg17 : arg17.IsWhole) (arg18 : Memref sig .tc .vmem S2048x1 .f32) (harg18 : arg18.IsWhole)
    (x0 : Vec F S2048x194 .f32) (x1 : Vec F S2048x12x16 .f32) (x2 : Vec F S2048x1 .f32) (x3 : Vec F S2x1 .f32) (x4 : Vec F S1 .f32) (x5 : Vec F S194x200 .f32) (x6 : Vec F S200 .f32) (x7 : Vec F S200x200 .f32) (x8 : Vec F S200 .f32) (x9 : Vec F S200x200 .f32) (x10 : Vec F S200 .f32) (x11 : Vec F S200x1 .f32) (x12 : Vec F S1 .f32) (x13 : Vec F S1x1 .f32) (x14 : Vec F S1 .f32) (x15 : Vec F S1x1 .f32) (x16 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (out0_17 x0 x1 x2 x3 x4 x5 x6 x7 x8 x9 x10 x11 x12 x13 x14) ∗ owns (c : Thread nD τ) arg18 fullShare (out0_18 x0 x1 x2 x3 x4 x5 x6 x7 x8 x9 x10 x11 x12 x15 x16)) -∗ K ⟨⟩))
      ⊢ wp frame (wpE (defs₀ (F := F)) Variants.none c none) E (cc0__dfm_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__dfm_kernel_eq_skeleton]; unfold cc0__dfm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_out _)
  iexists _; isplitr
  swap; · iexact H18
  ipureintro
  exact View.read_writes_eq_canon _ _ _ (cover0_out _)

/-! ## The pipeline's proof data -/

/-- The proof data of the one pipeline on core `c`: the arrays as the region finds them; after the body at point `t`
    every input's buffer still at its block, the two outputs' at `out0_17` and `out0_18` of the input blocks; the
    invariant that nothing else is touched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents, by projection (the host fold is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 15 t) (iblk m c 16 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`: the invariant, what is owed, and every window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' buffers hold their blocks, so the kernel function's triple applies; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has each window's array at what the pipeline computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and leaves all 24 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.KernelIdeal.Hand

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefRun.lean ====
/-
  The reference program's run, read as one straight line of host operations.

  The reference's @main is a sequence of whole-buffer operations: every statement rewrites exactly one buffer
  (its result) from the contents of its operands and leaves every other buffer alone.  The three calls of the
  outlined cut-off-at-zero function are three operations each over the call's own buffers (the constant zero,
  its broadcast, the elementwise maximum), so the whole program is the list `ops` below, in program order.

  From a memory with zero counters every weakly fair execution of such a line terminates, and each buffer ends
  at the fold of the operations over the launch contents (`run_after`).  No operation writes an argument, so
  the arguments end as they began (`kept_main_argK`, `frame`): `wr` lists, operation by operation, the one
  buffer each operation writes, and no argument is in that list.
-/
import proofs.«160683_j87995289960919_1_alg».proof.Proof.Gen.ReferenceIdeal
import Idealize.ShloMosaic.Lib.StableHlo.Run
import Idealize.ShloMosaic.Lib.Pipeline.Regions
import proofs.«160683_j87995289960919_1_alg».proof.Proof.LibStretchRead

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 168 operations, in order; each call of the cut-off-at-zero function is its three operations
    over that call's buffers. -/
abbrev ops : List (HloOp τ sig (Elt F)) :=
  ( StableHlo.nullary main_c (fun i => lit0 (S8.rowMajor i))
  :: StableHlo.unary main_c main_v0 (broadcastInDim S1x8 ![1] bcast_S8_S1x8_1 : (⟨S8, .i32⟩ : BufTy).Contents (Elt F) → (⟨S1x8, .i32⟩ : BufTy).Contents (Elt F))
  :: StableHlo.unary main_v0 main_v1 (broadcastInDim S16384x8 ![0, 1] bcast_S1x8_S16384x8_0_1 : (⟨S1x8, .i32⟩ : BufTy).Contents (Elt F) → (⟨S16384x8, .i32⟩ : BufTy).Contents (Elt F))
  :: StableHlo.binary main_arg0 main_v1 main_v2 (addi : (⟨S16384x8, .i32⟩ : BufTy).Contents (Elt F) → (⟨S16384x8, .i32⟩ : BufTy).Contents (Elt F) → (⟨S16384x8, .i32⟩ : BufTy).Contents (Elt F))
  :: StableHlo.nullary main_c_0 (constantI S_ 32 0#32)
  :: StableHlo.unary main_c_0 main_v3 (broadcastInDim S16384x8 ![] bcast_S_S16384x8 : (⟨S_, .i32⟩ : BufTy).Contents (Elt F) → (⟨S16384x8, .i32⟩ : BufTy).Contents (Elt F))
  :: StableHlo.binary main_v2 main_v3 main_v4 (cmpi .slt : (⟨S16384x8, .i32⟩ : BufTy).Contents (Elt F) → (⟨S16384x8, .i32⟩ : BufTy).Contents (Elt F) → (⟨S16384x8, .i1⟩ : BufTy).Contents (Elt F))
  :: StableHlo.nullary main_c_1 (constantI S_ 32 3112004#32)
  :: StableHlo.unary main_c_1 main_v5 (broadcastInDim S16384x8 ![] bcast_S_S16384x8 : (⟨S_, .i32⟩ : BufTy).Contents (Elt F) → (⟨S16384x8, .i32⟩ : BufTy).Contents (Elt F))
  :: StableHlo.binary main_v2 main_v5 main_v6 (addi : (⟨S16384x8, .i32⟩ : BufTy).Contents (Elt F) → (⟨S16384x8, .i32⟩ : BufTy).Contents (Elt F) → (⟨S16384x8, .i32⟩ : BufTy).Contents (Elt F))
  :: StableHlo.ternary main_v4 main_v6 main_v2 main_v7 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F))
  :: StableHlo.unary main_v7 main_v8 (broadcastInDim S16384x8x1 ![0, 1] bcast_S16384x8_S16384x8x1_0_1 : (⟨S16384x8, .i32⟩ : BufTy).Contents (Elt F) → (⟨S16384x8x1, .i32⟩ : BufTy).Contents (Elt F))
  :: StableHlo.binary main_arg8 main_v8 main_v9 ((fun x i => Host.gather gather_S3112004x1_S16384x8x1_S16384x8x1_2_0_n_n_0_2_11 x i) : (⟨S3112004x1, .f32⟩ : BufTy).Contents (Elt F) → (⟨S16384x8x1, .i32⟩ : BufTy).Contents (Elt F) → (⟨S16384x8x1, .f32⟩ : BufTy).Contents (Elt F))
  :: StableHlo.reshape main_v9 main_v10 rfl shapeCasts_S16384x8x1_S16384x8
  :: StableHlo.nullary main_cst (constant S_ .f32 0x00000000#32)
  :: StableHlo.binary main_v10 main_cst main_v11 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F))
  :: StableHlo.unary main_v11 main_v12 (broadcastInDim S16384x1 ![0] bcast_S16384_S16384x1_0 : (⟨S16384, .f32⟩ : BufTy).Contents (Elt F) → (⟨S16384x1, .f32⟩ : BufTy).Contents (Elt F))
  :: StableHlo.binary main_arg1 main_arg6 main_v13 ((fun l r => Host.dotGeneral dot_S16384x2_S2x1_S16384x1_1_0_0_1_n_n none l r) : (⟨S16384x2, .f32⟩ : BufTy).Contents (Elt F) → (⟨S2x1, .f32⟩ : BufTy).Contents (Elt F) → (⟨S16384x1, .f32⟩ : BufTy).Contents (Elt F))
  :: StableHlo.unary main_arg7 main_v14 (broadcastInDim S1x1 ![1] bcast_S1_S1x1_1 : (⟨S1, .f32⟩ : BufTy).Contents (Elt F) → (⟨S1x1, .f32⟩ : BufTy).Contents (Elt F))
  :: StableHlo.unary main_v14 main_v15 (broadcastInDim S16384x1 ![0, 1] bcast_S1x1_S16384x1_0_1 : (⟨S1x1, .f32⟩ : BufTy).Contents (Elt F) → (⟨S16384x1, .f32⟩ : BufTy).Contents (Elt F))
  :: StableHlo.binary main_v13 main_v15 main_v16 (addf : (⟨S16384x1, .f32⟩ : BufTy).Contents (Elt F) → (⟨S16384x1, .f32⟩ : BufTy).Contents (Elt F) → (⟨S16384x1, .f32⟩ : BufTy).Contents (Elt F))
  :: StableHlo.binary main_v16 main_v12 main_v17 (addf : (⟨S16384x1, .f32⟩ : BufTy).Contents (Elt F) → (⟨S16384x1, .f32⟩ : BufTy).Contents (Elt F) → (⟨S16384x1, .f32⟩ : BufTy).Contents (Elt F))
  :: StableHlo.nullary main_c_2 (constantI S_ 32 0#32)
  :: StableHlo.unary main_c_2 main_v18 (broadcastInDim S16384x8 ![] bcast_S_S16384x8 : (⟨S_, .i32⟩ : BufTy).Contents (Elt F) → (⟨S16384x8, .i32⟩ : BufTy).Contents (Elt F))
  :: StableHlo.binary main_v2 main_v18 main_v19 (cmpi .slt : (⟨S16384x8, .i32⟩ : BufTy).Contents (Elt F) → (⟨S16384x8, .i32⟩ : BufTy).Contents (Elt F) → (⟨S16384x8, .i1⟩ : BufTy).Contents (Elt F))
  :: StableHlo.nullary main_c_3 (constantI S_ 32 3112004#32)
  :: StableHlo.unary main_c_3 main_v20 (broadcastInDim S16384x8 ![] bcast_S_S16384x8 : (⟨S_, .i32⟩ : BufTy).Contents (Elt F) → (⟨S16384x8, .i32⟩ : BufTy).Contents (Elt F))
  :: StableHlo.binary main_v2 main_v20 main_v21 (addi : (⟨S16384x8, .i32⟩ : BufTy).Contents (Elt F) → (⟨S16384x8, .i32⟩ : BufTy).Contents (Elt F) → (⟨S16384x8, .i32⟩ : BufTy).Contents (Elt F))
  :: StableHlo.ternary main_v19 main_v21 main_v2 main_v22 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F))
  :: StableHlo.unary main_v22 main_v23 (broadcastInDim S16384x8x1 ![0, 1] bcast_S16384x8_S16384x8x1_0_1 : (⟨S16384x8, .i32⟩ : BufTy).Contents (Elt F) → (⟨S16384x8x1, .i32⟩ : BufTy).Contents (Elt F))
  :: StableHlo.binary main_arg9 main_v23 main_v24 ((fun x i => Host.gather gather_S3112004x16_S16384x8x1_S16384x8x16_2_0_n_n_0_2_116 x i) : (⟨S3112004x16, .f32⟩ : BufTy).Contents (Elt F) → (⟨S16384x8x1, .i32⟩ : BufTy).Contents (Elt F) → (⟨S16384x8x16, .f32⟩ : BufTy).Contents (Elt F))
  :: StableHlo.nullary main_c_4 (constantI S_ 32 0#32)
  :: StableHlo.unary main_c_4 main_v25 (broadcastInDim S16384x50 ![] bcast_S_S16384x50 : (⟨S_, .i32⟩ : BufTy).Contents (Elt F) → (⟨S16384x50, .i32⟩ : BufTy).Contents (Elt F))
  :: StableHlo.binary main_arg2 main_v25 main_v26 (cmpi .slt : (⟨S16384x50, .i32⟩ : BufTy).Contents (Elt F) → (⟨S16384x50, .i32⟩ : BufTy).Contents (Elt F) → (⟨S16384x50, .i1⟩ : BufTy).Contents (Elt F))
  :: StableHlo.nullary main_c_5 (constantI S_ 32 50000#32)
  :: StableHlo.unary main_c_5 main_v27 (broadcastInDim S16384x50 ![] bcast_S_S16384x50 : (⟨S_, .i32⟩ : BufTy).Contents (Elt F) → (⟨S16384x50, .i32⟩ : BufTy).Contents (Elt F))
  :: StableHlo.binary main_arg2 main_v27 main_v28 (addi : (⟨S16384x50, .i32⟩ : BufTy).Contents (Elt F) → (⟨S16384x50, .i32⟩ : BufTy).Contents (Elt F) → (⟨S16384x50, .i32⟩ : BufTy).Contents (Elt F))
  :: StableHlo.ternary main_v26 main_v28 main_arg2 main_v29 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F))
  :: StableHlo.unary main_v29 main_v30 (broadcastInDim S16384x50x1 ![0, 1] bcast_S16384x50_S16384x50x1_0_1 : (⟨S16384x50, .i32⟩ : BufTy).Contents (Elt F) → (⟨S16384x50x1, .i32⟩ : BufTy).Contents (Elt F))
  :: StableHlo.binary main_arg10 main_v30 main_v31 ((fun x i => Host.gather gather_S50000x16_S16384x50x1_S16384x50x16_2_0_n_n_0_2_116 x i) : (⟨S50000x16, .f32⟩ : BufTy).Contents (Elt F) → (⟨S16384x50x1, .i32⟩ : BufTy).Contents (Elt F) → (⟨S16384x50x16, .f32⟩ : BufTy).Contents (Elt F))
  :: StableHlo.nullary main_cst_6 (constant S_ .f32 0x00000000#32)
  :: StableHlo.binary main_v31 main_cst_6 main_v32 ((fun x v => Host.reduceAdd x v reducesTo_S16384x50x16_S16384x16_d1 h_S_) : (⟨S16384x50x16, .f32⟩ : BufTy).Contents (Elt F) → (⟨S_, .f32⟩ : BufTy).Contents (Elt F) → (⟨S16384x16, .f32⟩ : BufTy).Contents (Elt F))
  :: StableHlo.nullary main_cst_7 (constant S_ .f32 0x42480000#32)
  :: StableHlo.unary main_cst_7 main_v33 (broadcastInDim S16384x16 ![] bcast_S_S16384x16 : (⟨S_, .f32⟩ : BufTy).Contents (Elt F) → (⟨S16384x16, .f32⟩ : BufTy).Contents (Elt F))
  :: StableHlo.binary main_v32 main_v33 main_v34 (Host.divf : (⟨S16384x16, .f32⟩ : BufTy).Contents (Elt F) → (⟨S16384x16, .f32⟩ : BufTy).Contents (Elt F) → (⟨S16384x16, .f32⟩ : BufTy).Contents (Elt F))
  :: StableHlo.nullary main_c_8 (constantI S_ 32 0#32)
  :: StableHlo.unary main_c_8 main_v35 (broadcastInDim S16384x50 ![] bcast_S_S16384x50 : (⟨S_, .i32⟩ : BufTy).Contents (Elt F) → (⟨S16384x50, .i32⟩ : BufTy).Contents (Elt F))
  :: StableHlo.binary main_arg3 main_v35 main_v36 (cmpi .slt : (⟨S16384x50, .i32⟩ : BufTy).Contents (Elt F) → (⟨S16384x50, .i32⟩ : BufTy).Contents (Elt F) → (⟨S16384x50, .i1⟩ : BufTy).Contents (Elt F))
  :: StableHlo.nullary main_c_9 (constantI S_ 32 1000#32)
  :: StableHlo.unary main_c_9 main_v37 (broadcastInDim S16384x50 ![] bcast_S_S16384x50 : (⟨S_, .i32⟩ : BufTy).Contents (Elt F) → (⟨S16384x50, .i32⟩ : BufTy).Contents (Elt F))
  :: StableHlo.binary main_arg3 main_v37 main_v38 (addi : (⟨S16384x50, .i32⟩ : BufTy).Contents (Elt F) → (⟨S16384x50, .i32⟩ : BufTy).Contents (Elt F) → (⟨S16384x50, .i32⟩ : BufTy).Contents (Elt F))
  :: StableHlo.ternary main_v36 main_v38 main_arg3 main_v39 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F))
  :: StableHlo.unary main_v39 main_v40 (broadcastInDim S16384x50x1 ![0, 1] bcast_S16384x50_S16384x50x1_0_1 : (⟨S16384x50, .i32⟩ : BufTy).Contents (Elt F) → (⟨S16384x50x1, .i32⟩ : BufTy).Contents (Elt F))
  :: StableHlo.binary main_arg11 main_v40 main_v41 ((fun x i => Host.gather gather_S1000x16_S16384x50x1_S16384x50x16_2_0_n_n_0_2_116 x i) : (⟨S1000x16, .f32⟩ : BufTy).Contents (Elt F) → (⟨S16384x50x1, .i32⟩ : BufTy).Contents (Elt F) → (⟨S16384x50x16, .f32⟩ : BufTy).Contents (Elt F))
  :: StableHlo.nullary main_cst_10 (constant S_ .f32 0x00000000#32)
  :: StableHlo.binary main_v41 main_cst_10 main_v42 ((fun x v => Host.reduceAdd x v reducesTo_S16384x50x16_S16384x16_d1 h_S_) : (⟨S16384x50x16, .f32⟩ : BufTy).Contents (Elt F) → (⟨S_, .f32⟩ : BufTy).Contents (Elt F) → (⟨S16384x16, .f32⟩ : BufTy).Contents (Elt F))
  :: StableHlo.nullary main_cst_11 (constant S_ .f32 0x42480000#32)
  :: StableHlo.unary main_cst_11 main_v43 (broadcastInDim S16384x16 ![] bcast_S_S16384x16 : (⟨S_, .f32⟩ : BufTy).Contents (Elt F) → (⟨S16384x16, .f32⟩ : BufTy).Contents (Elt F))
  :: StableHlo.binary main_v42 main_v43 main_v44 (Host.divf : (⟨S16384x16, .f32⟩ : BufTy).Contents (Elt F) → (⟨S16384x16, .f32⟩ : BufTy).Contents (Elt F) → (⟨S16384x16, .f32⟩ : BufTy).Contents (Elt F))
  :: StableHlo.unary main_v34 main_v45 (broadcastInDim S16384x1x16 ![0, 2] bcast_S16384x16_S16384x1x16_0_2 : (⟨S16384x16, .f32⟩ : BufTy).Contents (Elt F) → (⟨S16384x1x16, .f32⟩ : BufTy).Contents (Elt F))
  :: StableHlo.unary main_v44 main_v46 (broadcastInDim S16384x1x16 ![0, 2] bcast_S16384x16_S16384x1x16_0_2 : (⟨S16384x16, .f32⟩ : BufTy).Contents (Elt F) → (⟨S16384x1x16, .f32⟩ : BufTy).Contents (Elt F))
  :: StableHlo.binary main_v45 main_v46 main_v47 ((fun a b => concatenate S16384x2x16 1 [⟨S16384x1x16, a⟩, ⟨S16384x1x16, b⟩] concatenates_S16384x1x16_S16384x1x16_S16384x2x16_d1) : (⟨S16384x1x16, .f32⟩ : BufTy).Contents (Elt F) → (⟨S16384x1x16, .f32⟩ : BufTy).Contents (Elt F) → (⟨S16384x2x16, .f32⟩ : BufTy).Contents (Elt F))
  :: StableHlo.nullary main_c_12 (constantI S_ 32 1001000#32)
  :: StableHlo.unary main_c_12 main_v48 (broadcastInDim S16384x200 ![] bcast_S_S16384x200 : (⟨S_, .i32⟩ : BufTy).Contents (Elt F) → (⟨S16384x200, .i32⟩ : BufTy).Contents (Elt F))
  :: StableHlo.binary main_arg4 main_v48 main_v49 (addi : (⟨S16384x200, .i32⟩ : BufTy).Contents (Elt F) → (⟨S16384x200, .i32⟩ : BufTy).Contents (Elt F) → (⟨S16384x200, .i32⟩ : BufTy).Contents (Elt F))
  :: StableHlo.nullary main_c_13 (constantI S_ 32 0#32)
  :: StableHlo.unary main_c_13 main_v50 (broadcastInDim S16384x200 ![] bcast_S_S16384x200 : (⟨S_, .i32⟩ : BufTy).Contents (Elt F) → (⟨S16384x200, .i32⟩ : BufTy).Contents (Elt F))
  :: StableHlo.binary main_v49 main_v50 main_v51 (cmpi .slt : (⟨S16384x200, .i32⟩ : BufTy).Contents (Elt F) → (⟨S16384x200, .i32⟩ : BufTy).Contents (Elt F) → (⟨S16384x200, .i1⟩ : BufTy).Contents (Elt F))
  :: StableHlo.nullary main_c_14 (constantI S_ 32 3112004#32)
  :: StableHlo.unary main_c_14 main_v52 (broadcastInDim S16384x200 ![] bcast_S_S16384x200 : (⟨S_, .i32⟩ : BufTy).Contents (Elt F) → (⟨S16384x200, .i32⟩ : BufTy).Contents (Elt F))
  :: StableHlo.binary main_v49 main_v52 main_v53 (addi : (⟨S16384x200, .i32⟩ : BufTy).Contents (Elt F) → (⟨S16384x200, .i32⟩ : BufTy).Contents (Elt F) → (⟨S16384x200, .i32⟩ : BufTy).Contents (Elt F))
  :: StableHlo.ternary main_v51 main_v53 main_v49 main_v54 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F))
  :: StableHlo.unary main_v54 main_v55 (broadcastInDim S16384x200x1 ![0, 1] bcast_S16384x200_S16384x200x1_0_1 : (⟨S16384x200, .i32⟩ : BufTy).Contents (Elt F) → (⟨S16384x200x1, .i32⟩ : BufTy).Contents (Elt F))
  :: StableHlo.binary main_arg9 main_v55 main_v56 ((fun x i => Host.gather gather_S3112004x16_S16384x200x1_S16384x200x16_2_0_n_n_0_2_116 x i) : (⟨S3112004x16, .f32⟩ : BufTy).Contents (Elt F) → (⟨S16384x200x1, .i32⟩ : BufTy).Contents (Elt F) → (⟨S16384x200x16, .f32⟩ : BufTy).Contents (Elt F))
  :: StableHlo.nullary main_cst_15 (constant S_ .f32 0x00000000#32)
  :: StableHlo.binary main_v56 main_cst_15 main_v57 ((fun x v => Host.reduceAdd x v reducesTo_S16384x200x16_S16384x16_d1 h_S_) : (⟨S16384x200x16, .f32⟩ : BufTy).Contents (Elt F) → (⟨S_, .f32⟩ : BufTy).Contents (Elt F) → (⟨S16384x16, .f32⟩ : BufTy).Contents (Elt F))
  :: StableHlo.nullary main_cst_16 (constant S_ .f32 0x43480000#32)
  :: StableHlo.unary main_cst_16 main_v58 (broadcastInDim S16384x16 ![] bcast_S_S16384x16 : (⟨S_, .f32⟩ : BufTy).Contents (Elt F) → (⟨S16384x16, .f32⟩ : BufTy).Contents (Elt F))
  :: StableHlo.binary main_v57 main_v58 main_v59 (Host.divf : (⟨S16384x16, .f32⟩ : BufTy).Contents (Elt F) → (⟨S16384x16, .f32⟩ : BufTy).Contents (Elt F) → (⟨S16384x16, .f32⟩ : BufTy).Contents (Elt F))
  :: StableHlo.nullary main_c_17 (constantI S_ 32 3001000#32)
  :: StableHlo.unary main_c_17 main_v60 (broadcastInDim S16384x200 ![] bcast_S_S16384x200 : (⟨S_, .i32⟩ : BufTy).Contents (Elt F) → (⟨S16384x200, .i32⟩ : BufTy).Contents (Elt F))
  :: StableHlo.binary main_arg5 main_v60 main_v61 (addi : (⟨S16384x200, .i32⟩ : BufTy).Contents (Elt F) → (⟨S16384x200, .i32⟩ : BufTy).Contents (Elt F) → (⟨S16384x200, .i32⟩ : BufTy).Contents (Elt F))
  :: StableHlo.nullary main_c_18 (constantI S_ 32 0#32)
  :: StableHlo.unary main_c_18 main_v62 (broadcastInDim S16384x200 ![] bcast_S_S16384x200 : (⟨S_, .i32⟩ : BufTy).Contents (Elt F) → (⟨S16384x200, .i32⟩ : BufTy).Contents (Elt F))
  :: StableHlo.binary main_v61 main_v62 main_v63 (cmpi .slt : (⟨S16384x200, .i32⟩ : BufTy).Contents (Elt F) → (⟨S16384x200, .i32⟩ : BufTy).Contents (Elt F) → (⟨S16384x200, .i1⟩ : BufTy).Contents (Elt F))
  :: StableHlo.nullary main_c_19 (constantI S_ 32 3112004#32)
  :: StableHlo.unary main_c_19 main_v64 (broadcastInDim S16384x200 ![] bcast_S_S16384x200 : (⟨S_, .i32⟩ : BufTy).Contents (Elt F) → (⟨S16384x200, .i32⟩ : BufTy).Contents (Elt F))
  :: StableHlo.binary main_v61 main_v64 main_v65 (addi : (⟨S16384x200, .i32⟩ : BufTy).Contents (Elt F) → (⟨S16384x200, .i32⟩ : BufTy).Contents (Elt F) → (⟨S16384x200, .i32⟩ : BufTy).Contents (Elt F))
  :: StableHlo.ternary main_v63 main_v65 main_v61 main_v66 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F))
  :: StableHlo.unary main_v66 main_v67 (broadcastInDim S16384x200x1 ![0, 1] bcast_S16384x200_S16384x200x1_0_1 : (⟨S16384x200, .i32⟩ : BufTy).Contents (Elt F) → (⟨S16384x200x1, .i32⟩ : BufTy).Contents (Elt F))
  :: StableHlo.binary main_arg9 main_v67 main_v68 ((fun x i => Host.gather gather_S3112004x16_S16384x200x1_S16384x200x16_2_0_n_n_0_2_116 x i) : (⟨S3112004x16, .f32⟩ : BufTy).Contents (Elt F) → (⟨S16384x200x1, .i32⟩ : BufTy).Contents (Elt F) → (⟨S16384x200x16, .f32⟩ : BufTy).Contents (Elt F))
  :: StableHlo.nullary main_cst_20 (constant S_ .f32 0x00000000#32)
  :: StableHlo.binary main_v68 main_cst_20 main_v69 ((fun x v => Host.reduceAdd x v reducesTo_S16384x200x16_S16384x16_d1 h_S_) : (⟨S16384x200x16, .f32⟩ : BufTy).Contents (Elt F) → (⟨S_, .f32⟩ : BufTy).Contents (Elt F) → (⟨S16384x16, .f32⟩ : BufTy).Contents (Elt F))
  :: StableHlo.nullary main_cst_21 (constant S_ .f32 0x43480000#32)
  :: StableHlo.unary main_cst_21 main_v70 (broadcastInDim S16384x16 ![] bcast_S_S16384x16 : (⟨S_, .f32⟩ : BufTy).Contents (Elt F) → (⟨S16384x16, .f32⟩ : BufTy).Contents (Elt F))
  :: StableHlo.binary main_v69 main_v70 main_v71 (Host.divf : (⟨S16384x16, .f32⟩ : BufTy).Contents (Elt F) → (⟨S16384x16, .f32⟩ : BufTy).Contents (Elt F) → (⟨S16384x16, .f32⟩ : BufTy).Contents (Elt F))
  :: StableHlo.unary main_v59 main_v72 (broadcastInDim S16384x1x16 ![0, 2] bcast_S16384x16_S16384x1x16_0_2 : (⟨S16384x16, .f32⟩ : BufTy).Contents (Elt F) → (⟨S16384x1x16, .f32⟩ : BufTy).Contents (Elt F))
  :: StableHlo.unary main_v71 main_v73 (broadcastInDim S16384x1x16 ![0, 2] bcast_S16384x16_S16384x1x16_0_2 : (⟨S16384x16, .f32⟩ : BufTy).Contents (Elt F) → (⟨S16384x1x16, .f32⟩ : BufTy).Contents (Elt F))
  :: StableHlo.binary main_v72 main_v73 main_v74 ((fun a b => concatenate S16384x2x16 1 [⟨S16384x1x16, a⟩, ⟨S16384x1x16, b⟩] concatenates_S16384x1x16_S16384x1x16_S16384x2x16_d1) : (⟨S16384x1x16, .f32⟩ : BufTy).Contents (Elt F) → (⟨S16384x1x16, .f32⟩ : BufTy).Contents (Elt F) → (⟨S16384x2x16, .f32⟩ : BufTy).Contents (Elt F))
  :: StableHlo.nary ![main_v24, main_v47, main_v74] main_v75 (fun u => concatenate S16384x12x16 1 [⟨S16384x8x16, u 0⟩, ⟨S16384x2x16, u 1⟩, ⟨S16384x2x16, u 2⟩] concatenates_S16384x8x16_S16384x2x16_S16384x2x16_S16384x12x16_d1)
  :: StableHlo.nullary main_cst_22 (constant S_ .f32 0x00000000#32)
  :: StableHlo.binary main_v75 main_cst_22 main_v76 ((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
  :: StableHlo.binary main_v76 main_v76 main_v77 (mulf : (⟨S16384x16, .f32⟩ : BufTy).Contents (Elt F) → (⟨S16384x16, .f32⟩ : BufTy).Contents (Elt F) → (⟨S16384x16, .f32⟩ : BufTy).Contents (Elt F))
  :: StableHlo.binary main_v75 main_v75 main_v78 (mulf : (⟨S16384x12x16, .f32⟩ : BufTy).Contents (Elt F) → (⟨S16384x12x16, .f32⟩ : BufTy).Contents (Elt F) → (⟨S16384x12x16, .f32⟩ : BufTy).Contents (Elt F))
  :: StableHlo.nullary main_cst_23 (constant S_ .f32 0x00000000#32)
  :: StableHlo.binary main_v78 main_cst_23 main_v79 ((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
  :: StableHlo.binary main_v77 main_v79 main_v80 (subf : (⟨S16384x16, .f32⟩ : BufTy).Contents (Elt F) → (⟨S16384x16, .f32⟩ : BufTy).Contents (Elt F) → (⟨S16384x16, .f32⟩ : BufTy).Contents (Elt F))
  :: StableHlo.nullary main_cst_24 (constant S_ .f32 0x00000000#32)
  :: StableHlo.binary main_v80 main_cst_24 main_v81 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F))
  :: StableHlo.unary main_v81 main_v82 (broadcastInDim S16384x1 ![0] bcast_S16384_S16384x1_0 : (⟨S16384, .f32⟩ : BufTy).Contents (Elt F) → (⟨S16384x1, .f32⟩ : BufTy).Contents (Elt F))
  :: StableHlo.nullary main_cst_25 (constant S_ .f32 0x3F000000#32)
  :: StableHlo.unary main_cst_25 main_v83 (broadcastInDim S16384x1 ![] bcast_S_S16384x1 : (⟨S_, .f32⟩ : BufTy).Contents (Elt F) → (⟨S16384x1, .f32⟩ : BufTy).Contents (Elt F))
  :: StableHlo.binary main_v83 main_v82 main_v84 (mulf : (⟨S16384x1, .f32⟩ : BufTy).Contents (Elt F) → (⟨S16384x1, .f32⟩ : BufTy).Contents (Elt F) → (⟨S16384x1, .f32⟩ : BufTy).Contents (Elt F))
  :: StableHlo.reshape main_v24 main_v85 rfl shapeCasts_S16384x8x16_S16384x128
  :: StableHlo.reshape main_v47 main_v86 rfl shapeCasts_S16384x2x16_S16384x32
  :: StableHlo.reshape main_v74 main_v87 rfl shapeCasts_S16384x2x16_S16384x32
  :: StableHlo.nary ![main_arg1, main_v85, main_v86, main_v87] main_v88 (fun u => concatenate S16384x194 1 [⟨S16384x2, u 0⟩, ⟨S16384x128, u 1⟩, ⟨S16384x32, u 2⟩, ⟨S16384x32, u 3⟩] concatenates_S16384x2_S16384x128_S16384x32_S16384x32_S16384x194_d1)
  :: StableHlo.binary main_v88 main_arg12 main_v89 ((fun l r => Host.dotGeneral dot_S16384x194_S194x200_S16384x200_1_0_0_1_n_n none l r) : (⟨S16384x194, .f32⟩ : BufTy).Contents (Elt F) → (⟨S194x200, .f32⟩ : BufTy).Contents (Elt F) → (⟨S16384x200, .f32⟩ : BufTy).Contents (Elt F))
  :: StableHlo.unary main_arg13 main_v90 (broadcastInDim S1x200 ![1] bcast_S200_S1x200_1 : (⟨S200, .f32⟩ : BufTy).Contents (Elt F) → (⟨S1x200, .f32⟩ : BufTy).Contents (Elt F))
  :: StableHlo.unary main_v90 main_v91 (broadcastInDim S16384x200 ![0, 1] bcast_S1x200_S16384x200_0_1 : (⟨S1x200, .f32⟩ : BufTy).Contents (Elt F) → (⟨S16384x200, .f32⟩ : BufTy).Contents (Elt F))
  :: StableHlo.binary main_v89 main_v91 main_v92 (addf : (⟨S16384x200, .f32⟩ : BufTy).Contents (Elt F) → (⟨S16384x200, .f32⟩ : BufTy).Contents (Elt F) → (⟨S16384x200, .f32⟩ : BufTy).Contents (Elt F))
  :: StableHlo.TRef.nullary main_call0.cst (constant S_ .f32 0x00000000#32)
  :: StableHlo.TRef.unary main_call0.cst main_call0.v0 (broadcastInDim S16384x200 ![] bcast_S_S16384x200)
  :: StableHlo.TRef.binary (StableHlo.TRef.of main_v92 : StableHlo.TRef sig ⟨S16384x200, .f32⟩) main_call0.v0 main_call0.v1 maximumf
  :: StableHlo.binary main_v93 main_arg14 main_v94 ((fun l r => Host.dotGeneral dot_S16384x200_S200x200_S16384x200_1_0_0_1_n_n none l r) : (⟨S16384x200, .f32⟩ : BufTy).Contents (Elt F) → (⟨S200x200, .f32⟩ : BufTy).Contents (Elt F) → (⟨S16384x200, .f32⟩ : BufTy).Contents (Elt F))
  :: StableHlo.unary main_arg15 main_v95 (broadcastInDim S1x200 ![1] bcast_S200_S1x200_1 : (⟨S200, .f32⟩ : BufTy).Contents (Elt F) → (⟨S1x200, .f32⟩ : BufTy).Contents (Elt F))
  :: StableHlo.unary main_v95 main_v96 (broadcastInDim S16384x200 ![0, 1] bcast_S1x200_S16384x200_0_1 : (⟨S1x200, .f32⟩ : BufTy).Contents (Elt F) → (⟨S16384x200, .f32⟩ : BufTy).Contents (Elt F))
  :: StableHlo.binary main_v94 main_v96 main_v97 (addf : (⟨S16384x200, .f32⟩ : BufTy).Contents (Elt F) → (⟨S16384x200, .f32⟩ : BufTy).Contents (Elt F) → (⟨S16384x200, .f32⟩ : BufTy).Contents (Elt F))
  :: StableHlo.TRef.nullary main_call1.cst (constant S_ .f32 0x00000000#32)
  :: StableHlo.TRef.unary main_call1.cst main_call1.v0 (broadcastInDim S16384x200 ![] bcast_S_S16384x200)
  :: StableHlo.TRef.binary (StableHlo.TRef.of main_v97 : StableHlo.TRef sig ⟨S16384x200, .f32⟩) main_call1.v0 main_call1.v1 maximumf
  :: StableHlo.binary main_v98 main_arg16 main_v99 ((fun l r => Host.dotGeneral dot_S16384x200_S200x200_S16384x200_1_0_0_1_n_n none l r) : (⟨S16384x200, .f32⟩ : BufTy).Contents (Elt F) → (⟨S200x200, .f32⟩ : BufTy).Contents (Elt F) → (⟨S16384x200, .f32⟩ : BufTy).Contents (Elt F))
  :: StableHlo.unary main_arg17 main_v100 (broadcastInDim S1x200 ![1] bcast_S200_S1x200_1 : (⟨S200, .f32⟩ : BufTy).Contents (Elt F) → (⟨S1x200, .f32⟩ : BufTy).Contents (Elt F))
  :: StableHlo.unary main_v100 main_v101 (broadcastInDim S16384x200 ![0, 1] bcast_S1x200_S16384x200_0_1 : (⟨S1x200, .f32⟩ : BufTy).Contents (Elt F) → (⟨S16384x200, .f32⟩ : BufTy).Contents (Elt F))
  :: StableHlo.binary main_v99 main_v101 main_v102 (addf : (⟨S16384x200, .f32⟩ : BufTy).Contents (Elt F) → (⟨S16384x200, .f32⟩ : BufTy).Contents (Elt F) → (⟨S16384x200, .f32⟩ : BufTy).Contents (Elt F))
  :: StableHlo.TRef.nullary main_call2.cst (constant S_ .f32 0x00000000#32)
  :: StableHlo.TRef.unary main_call2.cst main_call2.v0 (broadcastInDim S16384x200 ![] bcast_S_S16384x200)
  :: StableHlo.TRef.binary (StableHlo.TRef.of main_v102 : StableHlo.TRef sig ⟨S16384x200, .f32⟩) main_call2.v0 main_call2.v1 maximumf
  :: StableHlo.binary main_v103 main_arg18 main_v104 ((fun l r => Host.dotGeneral dot_S16384x200_S200x1_S16384x1_1_0_0_1_n_n none l r) : (⟨S16384x200, .f32⟩ : BufTy).Contents (Elt F) → (⟨S200x1, .f32⟩ : BufTy).Contents (Elt F) → (⟨S16384x1, .f32⟩ : BufTy).Contents (Elt F))
  :: StableHlo.unary main_arg19 main_v105 (broadcastInDim S1x1 ![1] bcast_S1_S1x1_1 : (⟨S1, .f32⟩ : BufTy).Contents (Elt F) → (⟨S1x1, .f32⟩ : BufTy).Contents (Elt F))
  :: StableHlo.unary main_v105 main_v106 (broadcastInDim S16384x1 ![0, 1] bcast_S1x1_S16384x1_0_1 : (⟨S1x1, .f32⟩ : BufTy).Contents (Elt F) → (⟨S16384x1, .f32⟩ : BufTy).Contents (Elt F))
  :: StableHlo.binary main_v104 main_v106 main_v107 (addf : (⟨S16384x1, .f32⟩ : BufTy).Contents (Elt F) → (⟨S16384x1, .f32⟩ : BufTy).Contents (Elt F) → (⟨S16384x1, .f32⟩ : BufTy).Contents (Elt F))
  :: StableHlo.binary main_v17 main_v84 main_v108 (addf : (⟨S16384x1, .f32⟩ : BufTy).Contents (Elt F) → (⟨S16384x1, .f32⟩ : BufTy).Contents (Elt F) → (⟨S16384x1, .f32⟩ : BufTy).Contents (Elt F))
  :: StableHlo.binary main_v108 main_v107 main_v109 (addf : (⟨S16384x1, .f32⟩ : BufTy).Contents (Elt F) → (⟨S16384x1, .f32⟩ : BufTy).Contents (Elt F) → (⟨S16384x1, .f32⟩ : BufTy).Contents (Elt F))
  :: StableHlo.binary main_v109 main_arg20 main_v110 ((fun l r => Host.dotGeneral dot_S16384x1_S1x1_S16384x1_1_0_0_1_n_n none l r) : (⟨S16384x1, .f32⟩ : BufTy).Contents (Elt F) → (⟨S1x1, .f32⟩ : BufTy).Contents (Elt F) → (⟨S16384x1, .f32⟩ : BufTy).Contents (Elt F))
  :: StableHlo.unary main_arg21 main_v111 (broadcastInDim S1x1 ![1] bcast_S1_S1x1_1 : (⟨S1, .f32⟩ : BufTy).Contents (Elt F) → (⟨S1x1, .f32⟩ : BufTy).Contents (Elt F))
  :: StableHlo.unary main_v111 main_v112 (broadcastInDim S16384x1 ![0, 1] bcast_S1x1_S16384x1_0_1 : (⟨S1x1, .f32⟩ : BufTy).Contents (Elt F) → (⟨S16384x1, .f32⟩ : BufTy).Contents (Elt F))
  :: StableHlo.binary main_v110 main_v112 main_v113 (addf : (⟨S16384x1, .f32⟩ : BufTy).Contents (Elt F) → (⟨S16384x1, .f32⟩ : BufTy).Contents (Elt F) → (⟨S16384x1, .f32⟩ : BufTy).Contents (Elt F))
  :: StableHlo.unary main_v113 main_v114 (Host.negf : (⟨S16384x1, .f32⟩ : BufTy).Contents (Elt F) → (⟨S16384x1, .f32⟩ : BufTy).Contents (Elt F))
  :: StableHlo.unary main_v114 main_v115 (Host.exp : (⟨S16384x1, .f32⟩ : BufTy).Contents (Elt F) → (⟨S16384x1, .f32⟩ : BufTy).Contents (Elt F))
  :: StableHlo.nullary main_cst_26 (constant S_ .f32 0x3F800000#32)
  :: StableHlo.unary main_cst_26 main_v116 (broadcastInDim S16384x1 ![] bcast_S_S16384x1 : (⟨S_, .f32⟩ : BufTy).Contents (Elt F) → (⟨S16384x1, .f32⟩ : BufTy).Contents (Elt F))
  :: StableHlo.binary main_v116 main_v115 main_v117 (addf : (⟨S16384x1, .f32⟩ : BufTy).Contents (Elt F) → (⟨S16384x1, .f32⟩ : BufTy).Contents (Elt F) → (⟨S16384x1, .f32⟩ : BufTy).Contents (Elt F))
  :: StableHlo.nullary main_cst_27 (constant S_ .f32 0x3F800000#32)
  :: StableHlo.unary main_cst_27 main_v118 (broadcastInDim S16384x1 ![] bcast_S_S16384x1 : (⟨S_, .f32⟩ : BufTy).Contents (Elt F) → (⟨S16384x1, .f32⟩ : BufTy).Contents (Elt F))
  :: StableHlo.binary main_v118 main_v117 main_v119 (Host.divf : (⟨S16384x1, .f32⟩ : BufTy).Contents (Elt F) → (⟨S16384x1, .f32⟩ : BufTy).Contents (Elt F) → (⟨S16384x1, .f32⟩ : BufTy).Contents (Elt F))
  :: StableHlo.binary main_v109 main_arg22 main_v120 ((fun l r => Host.dotGeneral dot_S16384x1_S1x1_S16384x1_1_0_0_1_n_n none l r) : (⟨S16384x1, .f32⟩ : BufTy).Contents (Elt F) → (⟨S1x1, .f32⟩ : BufTy).Contents (Elt F) → (⟨S16384x1, .f32⟩ : BufTy).Contents (Elt F))
  :: StableHlo.unary main_arg23 main_v121 (broadcastInDim S1x1 ![1] bcast_S1_S1x1_1 : (⟨S1, .f32⟩ : BufTy).Contents (Elt F) → (⟨S1x1, .f32⟩ : BufTy).Contents (Elt F))
  :: StableHlo.unary main_v121 main_v122 (broadcastInDim S16384x1 ![0, 1] bcast_S1x1_S16384x1_0_1 : (⟨S1x1, .f32⟩ : BufTy).Contents (Elt F) → (⟨S16384x1, .f32⟩ : BufTy).Contents (Elt F))
  :: StableHlo.binary main_v120 main_v122 main_v123 (addf : (⟨S16384x1, .f32⟩ : BufTy).Contents (Elt F) → (⟨S16384x1, .f32⟩ : BufTy).Contents (Elt F) → (⟨S16384x1, .f32⟩ : BufTy).Contents (Elt F))
  :: StableHlo.unary main_v123 main_v124 (Host.negf : (⟨S16384x1, .f32⟩ : BufTy).Contents (Elt F) → (⟨S16384x1, .f32⟩ : BufTy).Contents (Elt F))
  :: StableHlo.unary main_v124 main_v125 (Host.exp : (⟨S16384x1, .f32⟩ : BufTy).Contents (Elt F) → (⟨S16384x1, .f32⟩ : BufTy).Contents (Elt F))
  :: StableHlo.nullary main_cst_28 (constant S_ .f32 0x3F800000#32)
  :: StableHlo.unary main_cst_28 main_v126 (broadcastInDim S16384x1 ![] bcast_S_S16384x1 : (⟨S_, .f32⟩ : BufTy).Contents (Elt F) → (⟨S16384x1, .f32⟩ : BufTy).Contents (Elt F))
  :: StableHlo.binary main_v126 main_v125 main_v127 (addf : (⟨S16384x1, .f32⟩ : BufTy).Contents (Elt F) → (⟨S16384x1, .f32⟩ : BufTy).Contents (Elt F) → (⟨S16384x1, .f32⟩ : BufTy).Contents (Elt F))
  :: StableHlo.nullary main_cst_29 (constant S_ .f32 0x3F800000#32)
  :: StableHlo.unary main_cst_29 main_v128 (broadcastInDim S16384x1 ![] bcast_S_S16384x1 : (⟨S_, .f32⟩ : BufTy).Contents (Elt F) → (⟨S16384x1, .f32⟩ : BufTy).Contents (Elt F))
  :: StableHlo.binary main_v128 main_v127 main_v129 (Host.divf : (⟨S16384x1, .f32⟩ : BufTy).Contents (Elt F) → (⟨S16384x1, .f32⟩ : BufTy).Contents (Elt F) → (⟨S16384x1, .f32⟩ : BufTy).Contents (Elt F))
  :: [] )

/-- The buffer each operation writes, in the same order. -/
abbrev wr : List (Ref sig .tc) :=
  [main_c, main_v0, main_v1, main_v2, main_c_0, main_v3, main_v4, main_c_1, main_v5, main_v6, main_v7, main_v8, main_v9, main_v10, main_cst, main_v11, main_v12, main_v13, main_v14, main_v15, main_v16, main_v17, main_c_2, main_v18, main_v19, main_c_3, main_v20, main_v21, main_v22, main_v23, main_v24, main_c_4, main_v25, main_v26, main_c_5, main_v27, main_v28, main_v29, main_v30, main_v31, main_cst_6, main_v32, main_cst_7, main_v33, main_v34, main_c_8, main_v35, main_v36, main_c_9, main_v37, main_v38, main_v39, main_v40, main_v41, main_cst_10, main_v42, main_cst_11, main_v43, main_v44, main_v45, main_v46, main_v47, main_c_12, main_v48, main_v49, main_c_13, main_v50, main_v51, main_c_14, main_v52, main_v53, main_v54, main_v55, main_v56, main_cst_15, main_v57, main_cst_16, main_v58, main_v59, main_c_17, main_v60, main_v61, main_c_18, main_v62, main_v63, main_c_19, main_v64, main_v65, main_v66, main_v67, main_v68, main_cst_20, main_v69, main_cst_21, main_v70, main_v71, main_v72, main_v73, main_v74, main_v75, main_cst_22, main_v76, main_v77, main_v78, main_cst_23, main_v79, main_v80, main_cst_24, main_v81, main_v82, main_cst_25, main_v83, main_v84, main_v85, main_v86, main_v87, main_v88, main_v89, main_v90, main_v91, main_v92, main_call0_cst, main_call0_v0, main_v93, main_v94, main_v95, main_v96, main_v97, main_call1_cst, main_call1_v0, main_v98, main_v99, main_v100, main_v101, main_v102, main_call2_cst, main_call2_v0, main_v103, main_v104, main_v105, main_v106, main_v107, main_v108, main_v109, main_v110, main_v111, main_v112, main_v113, main_v114, main_v115, main_cst_26, main_v116, main_v117, main_cst_27, main_v118, main_v119, main_v120, main_v121, main_v122, main_v123, main_v124, main_v125, main_cst_28, main_v126, main_v127, main_cst_29, main_v128, main_v129]

/-- @main is that straight line: the three windows in order, the function's definition unfolded at its calls. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
/-- Every operation touches buffers of the TensorCore only. -/
theorem ops_sub : (ops : List (HloOp τ sig (Elt F))).Forall fun op => op.bufs ⊆ tcRefs τ sig :=
  ⟨StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.reshape_bufs_sub .., StableHlo.reshape_bufs_sub .., StableHlo.reshape_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- Every operation determines what it writes. -/
theorem ops_fresh : (ops : List (HloOp τ sig (Elt F))).Forall fun op => op.fresh = ∅ := by
  simp only [List.Forall]; repeat' constructor

/-- From any memory with zero counters, every weakly fair execution of @main terminates, and each buffer of each
    device ends at the fold of the operations over that device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (launchContents m c) (Proc.devRef .tc b) :=
  run_seq scopedRefs_eq scopedSems_eq defs main (fun _ => ops) main_eq (fun _ => ops_sub) m ρ
    (fun _ => List.forall_iff_forall_mem.mp ops_fresh)

set_option maxHeartbeats 40000000 in
/-- Operation by operation, the one buffer written is the one `wr` names. -/
theorem ops_writesOnly : StableHlo.WritesOnly (ops : List (HloOp τ sig (Elt F))) wr := by
  unfold StableHlo.WritesOnly
  repeat (first | exact List.Forall₂.nil | refine List.Forall₂.cons (Finset.Subset.refl _) ?_)

/-! No operation writes an argument: each argument's buffer holds after the line what it held before. -/

theorem kept_main_arg0 (V : Valuation τ sig (Elt F)) :
    StableHlo.after ops V (main_arg0 : DevRef τ sig) = V (main_arg0 : DevRef τ sig) :=
  StableHlo.after_of_not_mem_writesOnly ops_writesOnly V main_arg0 (by decide)
theorem kept_main_arg1 (V : Valuation τ sig (Elt F)) :
    StableHlo.after ops V (main_arg1 : DevRef τ sig) = V (main_arg1 : DevRef τ sig) :=
  StableHlo.after_of_not_mem_writesOnly ops_writesOnly V main_arg1 (by decide)
theorem kept_main_arg2 (V : Valuation τ sig (Elt F)) :
    StableHlo.after ops V (main_arg2 : DevRef τ sig) = V (main_arg2 : DevRef τ sig) :=
  StableHlo.after_of_not_mem_writesOnly ops_writesOnly V main_arg2 (by decide)
theorem kept_main_arg3 (V : Valuation τ sig (Elt F)) :
    StableHlo.after ops V (main_arg3 : DevRef τ sig) = V (main_arg3 : DevRef τ sig) :=
  StableHlo.after_of_not_mem_writesOnly ops_writesOnly V main_arg3 (by decide)
theorem kept_main_arg4 (V : Valuation τ sig (Elt F)) :
    StableHlo.after ops V (main_arg4 : DevRef τ sig) = V (main_arg4 : DevRef τ sig) :=
  StableHlo.after_of_not_mem_writesOnly ops_writesOnly V main_arg4 (by decide)
theorem kept_main_arg5 (V : Valuation τ sig (Elt F)) :
    StableHlo.after ops V (main_arg5 : DevRef τ sig) = V (main_arg5 : DevRef τ sig) :=
  StableHlo.after_of_not_mem_writesOnly ops_writesOnly V main_arg5 (by decide)
theorem kept_main_arg6 (V : Valuation τ sig (Elt F)) :
    StableHlo.after ops V (main_arg6 : DevRef τ sig) = V (main_arg6 : DevRef τ sig) :=
  StableHlo.after_of_not_mem_writesOnly ops_writesOnly V main_arg6 (by decide)
theorem kept_main_arg7 (V : Valuation τ sig (Elt F)) :
    StableHlo.after ops V (main_arg7 : DevRef τ sig) = V (main_arg7 : DevRef τ sig) :=
  StableHlo.after_of_not_mem_writesOnly ops_writesOnly V main_arg7 (by decide)
theorem kept_main_arg8 (V : Valuation τ sig (Elt F)) :
    StableHlo.after ops V (main_arg8 : DevRef τ sig) = V (main_arg8 : DevRef τ sig) :=
  StableHlo.after_of_not_mem_writesOnly ops_writesOnly V main_arg8 (by decide)
theorem kept_main_arg9 (V : Valuation τ sig (Elt F)) :
    StableHlo.after ops V (main_arg9 : DevRef τ sig) = V (main_arg9 : DevRef τ sig) :=
  StableHlo.after_of_not_mem_writesOnly ops_writesOnly V main_arg9 (by decide)
theorem kept_main_arg10 (V : Valuation τ sig (Elt F)) :
    StableHlo.after ops V (main_arg10 : DevRef τ sig) = V (main_arg10 : DevRef τ sig) :=
  StableHlo.after_of_not_mem_writesOnly ops_writesOnly V main_arg10 (by decide)
theorem kept_main_arg11 (V : Valuation τ sig (Elt F)) :
    StableHlo.after ops V (main_arg11 : DevRef τ sig) = V (main_arg11 : DevRef τ sig) :=
  StableHlo.after_of_not_mem_writesOnly ops_writesOnly V main_arg11 (by decide)
theorem kept_main_arg12 (V : Valuation τ sig (Elt F)) :
    StableHlo.after ops V (main_arg12 : DevRef τ sig) = V (main_arg12 : DevRef τ sig) :=
  StableHlo.after_of_not_mem_writesOnly ops_writesOnly V main_arg12 (by decide)
theorem kept_main_arg13 (V : Valuation τ sig (Elt F)) :
    StableHlo.after ops V (main_arg13 : DevRef τ sig) = V (main_arg13 : DevRef τ sig) :=
  StableHlo.after_of_not_mem_writesOnly ops_writesOnly V main_arg13 (by decide)
theorem kept_main_arg14 (V : Valuation τ sig (Elt F)) :
    StableHlo.after ops V (main_arg14 : DevRef τ sig) = V (main_arg14 : DevRef τ sig) :=
  StableHlo.after_of_not_mem_writesOnly ops_writesOnly V main_arg14 (by decide)
theorem kept_main_arg15 (V : Valuation τ sig (Elt F)) :
    StableHlo.after ops V (main_arg15 : DevRef τ sig) = V (main_arg15 : DevRef τ sig) :=
  StableHlo.after_of_not_mem_writesOnly ops_writesOnly V main_arg15 (by decide)
theorem kept_main_arg16 (V : Valuation τ sig (Elt F)) :
    StableHlo.after ops V (main_arg16 : DevRef τ sig) = V (main_arg16 : DevRef τ sig) :=
  StableHlo.after_of_not_mem_writesOnly ops_writesOnly V main_arg16 (by decide)
theorem kept_main_arg17 (V : Valuation τ sig (Elt F)) :
    StableHlo.after ops V (main_arg17 : DevRef τ sig) = V (main_arg17 : DevRef τ sig) :=
  StableHlo.after_of_not_mem_writesOnly ops_writesOnly V main_arg17 (by decide)
theorem kept_main_arg18 (V : Valuation τ sig (Elt F)) :
    StableHlo.after ops V (main_arg18 : DevRef τ sig) = V (main_arg18 : DevRef τ sig) :=
  StableHlo.after_of_not_mem_writesOnly ops_writesOnly V main_arg18 (by decide)
theorem kept_main_arg19 (V : Valuation τ sig (Elt F)) :
    StableHlo.after ops V (main_arg19 : DevRef τ sig) = V (main_arg19 : DevRef τ sig) :=
  StableHlo.after_of_not_mem_writesOnly ops_writesOnly V main_arg19 (by decide)
theorem kept_main_arg20 (V : Valuation τ sig (Elt F)) :
    StableHlo.after ops V (main_arg20 : DevRef τ sig) = V (main_arg20 : DevRef τ sig) :=
  StableHlo.after_of_not_mem_writesOnly ops_writesOnly V main_arg20 (by decide)
theorem kept_main_arg21 (V : Valuation τ sig (Elt F)) :
    StableHlo.after ops V (main_arg21 : DevRef τ sig) = V (main_arg21 : DevRef τ sig) :=
  StableHlo.after_of_not_mem_writesOnly ops_writesOnly V main_arg21 (by decide)
theorem kept_main_arg22 (V : Valuation τ sig (Elt F)) :
    StableHlo.after ops V (main_arg22 : DevRef τ sig) = V (main_arg22 : DevRef τ sig) :=
  StableHlo.after_of_not_mem_writesOnly ops_writesOnly V main_arg22 (by decide)
theorem kept_main_arg23 (V : Valuation τ sig (Elt F)) :
    StableHlo.after ops V (main_arg23 : DevRef τ sig) = V (main_arg23 : DevRef τ sig) :=
  StableHlo.after_of_not_mem_writesOnly ops_writesOnly V main_arg23 (by decide)

/-- The arguments end as they were launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c =>
    ⟨(h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _),
      (h c main_arg21).trans (kept_main_arg21 _),
      (h c main_arg22).trans (kept_main_arg22 _),
      (h c main_arg23).trans (kept_main_arg23 _)⟩)
    (run_after m ρ)

end Cert.ReferenceIdeal.Hand

end
-- ==== Proof.Spec.lean ====
/-
  The function both programs compute, one batch row at a time, over the extended reals.

  A row carries two dense features, a 194-wide input of the deep part (the dense features followed by the twelve
  embedded fields, flattened), the twelve embedded fields as 12 vectors of length 16, and the sum of the row's eight
  first-order embedding weights.  Its logit is the sum of three terms:

  * the first-order term: the dense features against a 2-vector of weights, plus a bias, plus the first-order
    embedding sum;
  * the second-order (factorisation-machine) term: one half of the sum over the 16 embedding coordinates of
    (the square of the sum over the fields) minus (the sum over the fields of the squares);
  * the deep term: three hidden layers of 200 units, each a weighted sum plus bias cut off below at zero, then one
    linear unit.

  Each of the two outputs is the logistic function of the logit times a weight plus a bias.
-/
import Idealize.ShloMosaic.PureOps.Ideal

noncomputable section

namespace Cert.Dfm

open Idealize.ShloMosaic

/-- One half, as the single-precision word both programs spell it with. -/
abbrev half : EReal := Ideal.ofBits .f32 0x3F000000#32

/-- One linear unit: the inputs against the unit's weights, plus its bias. -/
def unit {K : ℕ} (x : Fin K → EReal) (w : Fin K → EReal) (b : EReal) : EReal := (∑ k, x k * w k) + b

/-- One hidden unit: a linear unit cut off below at zero. -/
def hidden {K : ℕ} (x : Fin K → EReal) (w : Fin K → EReal) (b : EReal) : EReal := max (unit x w b) 0

/-- The weights every row shares. -/
structure Params where
  linW : Fin 2 → EReal
  linb : EReal
  W1 : Fin 194 → Fin 200 → EReal
  b1 : Fin 200 → EReal
  W2 : Fin 200 → Fin 200 → EReal
  b2 : Fin 200 → EReal
  W3 : Fin 200 → Fin 200 → EReal
  b3 : Fin 200 → EReal
  W4 : Fin 200 → EReal
  b4 : EReal

/-- The first-order term of a row. -/
def first (θ : Params) (dense : Fin 2 → EReal) (ls : EReal) : EReal := unit dense θ.linW θ.linb + ls

/-- The second-order term of a row: half the sum over the coordinates of (sum over fields)² − sum over fields of squares. -/
def second (fm : Fin 12 → Fin 16 → EReal) : EReal :=
  half * ∑ e, ((∑ f, fm f e) * (∑ f, fm f e) - ∑ f, fm f e * fm f e)

/-- The three hidden layers of a row, innermost first. -/
def h1 (θ : Params) (x : Fin 194 → EReal) (q : Fin 200) : EReal := hidden x (fun k => θ.W1 k q) (θ.b1 q)
def h2 (θ : Params) (x : Fin 194 → EReal) (q : Fin 200) : EReal := hidden (h1 θ x) (fun k => θ.W2 k q) (θ.b2 q)
def h3 (θ : Params) (x : Fin 194 → EReal) (q : Fin 200) : EReal := hidden (h2 θ x) (fun k => θ.W3 k q) (θ.b3 q)

/-- The deep term of a row. -/
def deep (θ : Params) (x : Fin 194 → EReal) : EReal := unit (h3 θ x) θ.W4 θ.b4

/-- The logit of a row. -/
def logit (θ : Params) (dense : Fin 2 → EReal) (x : Fin 194 → EReal) (fm : Fin 12 → Fin 16 → EReal) (ls : EReal) : EReal :=
  (first θ dense ls + second fm) + deep θ x

/-- One output head: the logistic function of the logit times the head's weight plus its bias. -/
def head (l w b : EReal) : EReal := Ideal.logistic (l * w + b)

end Cert.Dfm

end
-- ==== Proof.SpecArr.lean ====
/-
  The weights of the row function read off the weight arrays: a [2,1] and a [1] array for the first-order term, the
  three hidden layers' [K,200] matrices and [200] biases, the last unit's [200,1] column and [1] bias.
-/
import proofs.«160683_j87995289960919_1_alg».proof.Proof.Spec
import Idealize.ShloMosaic.Lib.ValueIdx

noncomputable section

namespace Cert.Dfm

open Idealize.ShloMosaic Idealize.ShloMosaic.ValueIdx

/-- The shared weights as the row function takes them, entry by entry of the weight arrays. -/
def paramsOf (linW : (⟨2, ![2, 1]⟩ : Shape).Idx → EReal) (linb : (⟨1, ![1]⟩ : Shape).Idx → EReal)
    (W1 : (⟨2, ![194, 200]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![200, 200]⟩ : Shape).Idx → EReal) (b3 : (⟨1, ![200]⟩ : Shape).Idx → EReal)
    (W4 : (⟨2, ![200, 1]⟩ : Shape).Idx → EReal) (b4 : (⟨1, ![1]⟩ : Shape).Idx → EReal) : Params where
  linW k := linW (ix2 k (0 : Fin 1))
  linb := linb (ix1 (0 : Fin 1))
  W1 k q := W1 (ix2 k q)
  b1 q := b1 (ix1 q)
  W2 k q := W2 (ix2 k q)
  b2 q := b2 (ix1 q)
  W3 k q := W3 (ix2 k q)
  b3 q := b3 (ix1 q)
  W4 k := W4 (ix2 k (0 : Fin 1))
  b4 := b4 (ix1 (0 : Fin 1))

end Cert.Dfm

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibHostRank3.lean ====
/-
  The host's reductions and keep-dimension spreads of a rank-3 array read at an index, and division by 4096.

  General lemmas at the ideal values (a float an extended real); no program's terms appear. They rest on the
  library alone (its single-axis reading of a host reduce as a fold or a sum, its `broadcast_in_dim` read at an
  index, its division at a real divisor that is not zero) and on Mathlib.

  REDUCTIONS. A reduction of an `[a, b, c]` array over its middle axis leaves one value per pair `(p, e)`; the source
  indices that reduce to it are `(p, k, e)` for `k : Fin b` (`lift_mid`). Over its last axis it leaves one value per
  pair `(p, k)`, from the source indices `(p, k, e)` for `e : Fin c` (`lift_last`). So, read at an index,

    * the host's `reduce` with a minimum body over the middle axis is the fold of `min` from the initial value over
      `k ↦ x (p, k, e)` (`hostReduce_minimumf_mid`), and with a maximum body the fold of `max`
      (`hostReduce_maximumf_mid`);
    * the host's float sum over the middle axis is the initial value plus `∑ k, x (p, k, e)` (`hostReduceAdd_mid`),
      and over the last axis the initial value plus `∑ e, x (p, k, e)` (`hostReduceAdd_last`).

  SPREADS. An `[a, c]` array spread in dimensions (0, 2) to `[a, 1, c]` reads at `(p, z, e)` the array at `(p, e)`
  (`broadcastInDim_ac_a1c_apply`); an `[a, 1, c]` array spread in dimensions (0, 1, 2) over `[a, b, c]` reads at
  `(p, k, e)` the array at `(p, 0, e)` (`broadcastInDim_a1c_abc_apply`). Together they are what a sum that keeps its
  reduced middle axis, spread back over that axis, reads at an index.

  THE DIVISOR 4096. The f32 word `0x45800000` denotes the real 4096 (sign 0, exponent 139 = 127 + 12, significand 0:
  `ofBits_4096`), so a quotient by it is the product with the real 1/4096 for EVERY extended real dividend, the
  infinities included (`div_4096`). The count a variance routine divides by, "4096 less the integer 0 read as a
  float", is 4096 (`count_eq`), and the comparison "4096 is above the float word zero" is the bit 1
  (`count_pos_bit`), so a select on that bit keeps its first branch.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.HostRank3

open Idealize.ShloMosaic Idealize.ShloMosaic.ValueIdx

/-! ## The source index over a reduced index -/

/-- Over `(p, e)`, with coordinate `k` on the reduced middle axis, the source index is `(p, k, e)`. -/
theorem lift_mid {a b c : ℕ} (h : (⟨3, ![a, b, c]⟩ : Shape).Reduces [1] ⟨2, ![a, c]⟩) (p : Fin a) (e : Fin c)
    (k : Fin b) : h.lift (ix2 p e) k = ix3 p k e := by
  funext d
  apply Fin.ext
  refine (h.lift_val (ix2 p e) k d).trans ?_
  match d with
  | ⟨0, _⟩ => rfl
  | ⟨1, _⟩ => rfl
  | ⟨2, _⟩ => rfl

/-- Over `(p, k)`, with coordinate `e` on the reduced last axis, the source index is `(p, k, e)`. -/
theorem lift_last {a b c : ℕ} (h : (⟨3, ![a, b, c]⟩ : Shape).Reduces [2] ⟨2, ![a, b]⟩) (p : Fin a) (k : Fin b)
    (e : Fin c) : h.lift (ix2 p k) e = ix3 p k e := by
  funext d
  apply Fin.ext
  refine (h.lift_val (ix2 p k) e d).trans ?_
  match d with
  | ⟨0, _⟩ => rfl
  | ⟨1, _⟩ => rfl
  | ⟨2, _⟩ => rfl

/-! ## The host's reductions over the middle and the last axis -/

/-- The host's `reduce` with a minimum body over the middle axis, at `(p, e)`. -/
theorem hostReduce_minimumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.minimumf (F := Ideal) (φ := φ)) x init h' hu (ix2 p e)
      = (Finset.univ : Finset (Fin b)).fold min (init (Shape.Idx.first hu)) (fun k => x (ix3 p k e)) := by
  refine (Host.reduce_eq_fold_single (FloatOps.minimumf (F := Ideal) (φ := φ)) x init h' h hu (ix2 p e)).trans ?_
  exact congrArg (fun f => (Finset.univ : Finset (Fin b)).fold min (init (Shape.Idx.first hu)) f)
    (funext fun k => congrArg x (lift_mid h p e k))

/-- The host's `reduce` with a maximum body over the middle axis, at `(p, e)`. -/
theorem hostReduce_maximumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.maximumf (F := Ideal) (φ := φ)) x init h' hu (ix2 p e)
      = (Finset.univ : Finset (Fin b)).fold max (init (Shape.Idx.first hu)) (fun k => x (ix3 p k e)) := by
  refine (Host.reduce_eq_fold_single (FloatOps.maximumf (F := Ideal) (φ := φ)) x init h' h hu (ix2 p e)).trans ?_
  exact congrArg (fun f => (Finset.univ : Finset (Fin b)).fold max (init (Shape.Idx.first hu)) f)
    (funext fun k => congrArg x (lift_mid h p e k))

/-- The host's float sum over the middle axis, at `(p, e)`. -/
theorem hostReduceAdd_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduceAdd x init h' hu (ix2 p e) = init (Shape.Idx.first hu) + ∑ k : Fin b, x (ix3 p k e) := by
  rw [hostReduceAdd_apply]
  refine (Ideal.hostReduceAdd_single h' h x (init (Shape.Idx.first hu)) (ix2 p e)).trans ?_
  exact congrArg _ (Finset.sum_congr rfl fun k _ => congrArg x (lift_mid h p e k))

/-- The host's float sum over the last axis, at `(p, k)`. -/
theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (k : Fin b) :
    Host.reduceAdd x init h' hu (ix2 p k) = init (Shape.Idx.first hu) + ∑ e : Fin c, x (ix3 p k e) := by
  rw [hostReduceAdd_apply]
  refine (Ideal.hostReduceAdd_single h' h x (init (Shape.Idx.first hu)) (ix2 p k)).trans ?_
  exact congrArg _ (Finset.sum_congr rfl fun e _ => congrArg x (lift_last h p k e))

/-! ## Spreads that keep the reduced axis as a unit axis -/

section Layout
variable {α : Type}

/-- An `[a, c]` array spread in dimensions (0, 2) to `[a, 1, c]` reads, at `(p, z, e)`, the array at `(p, e)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (p : Fin a) (z : Fin 1) (e : Fin c) :
    broadcastInDim ⟨3, ![a, 1, c]⟩ ![0, 2] h x (ix3 p z e) = x (ix2 p e) :=
  broadcastInDim_apply ![0, 2] h x (ix3 p z e) (ix2 p e) fun ax => by
    match ax with
    | ⟨0, _⟩ =>
      show p.val = if a = 1 then 0 else p.val
      split
      · have := p.isLt; omega
      · rfl
    | ⟨1, _⟩ =>
      show e.val = if c = 1 then 0 else e.val
      split
      · have := e.isLt; omega
      · rfl

/-- An `[a, 1, c]` array spread in dimensions (0, 1, 2) over `[a, b, c]` reads, at `(p, k, e)`, the array at
    `(p, 0, e)`. -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (p : Fin a) (k : Fin b) (e : Fin c) :
    broadcastInDim ⟨3, ![a, b, c]⟩ ![0, 1, 2] h x (ix3 p k e) = x (ix3 p (0 : Fin 1) e) :=
  broadcastInDim_apply ![0, 1, 2] h x (ix3 p k e) (ix3 p (0 : Fin 1) e) fun ax => by
    match ax with
    | ⟨0, _⟩ =>
      show p.val = if a = 1 then 0 else p.val
      split
      · have := p.isLt; omega
      · rfl
    | ⟨1, _⟩ => rfl
    | ⟨2, _⟩ =>
      show e.val = if c = 1 then 0 else e.val
      split
      · have := e.isLt; omega
      · rfl

end Layout

/-! ## The divisor -/

/-- The word `0x45800000` denotes the real 4096. -/
theorem ofBits_4096 : Ideal.ofBits .f32 0x45800000#32 = ((4096 : ℝ) : EReal) := by
  simp [Ideal.ofBits, Ideal.ieee, -EReal.coe_mul]; norm_num

/-- A quotient by 4096 is the product with the real 1/4096, for every extended real. -/
theorem div_4096 (s : EReal) : Ideal.div s (Ideal.ofBits .f32 0x45800000#32) = s * ((1 / 4096 : ℝ) : EReal) := by
  rw [ofBits_4096]
  exact Ideal.div_coe (by norm_num : (4096 : ℝ) ≠ 0) s

/-- 4096 less the integer word 0 read as a float is 4096. -/
theorem count_eq : Ideal.ofBits .f32 0x45800000#32 - (((0#32 : BitVec 32).toInt : ℝ) : EReal) = ((4096 : ℝ) : EReal) := by
  rw [ofBits_4096]
  simp

/-- 4096 is above the float word zero, so the comparison's bit is 1. -/
theorem count_pos_bit : Ideal.cmp .ogt ((4096 : ℝ) : EReal) (Ideal.ofBits .f32 0x00000000#32) = 1#1 := by
  rw [Ideal.ofBits_zero_f32]
  unfold Ideal.cmp
  have h : (0 : EReal) < ((4096 : ℝ) : EReal) := by exact_mod_cast (by norm_num : (0 : ℝ) < 4096)
  simp [h]

end Idealize.ShloMosaic.HostRank3

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibElu.lean ====
/-
  The exponential linear unit, in two spellings, over the extended reals.

  `elu y` is `y` above zero and `e^y - 1` otherwise (so `-1` at minus infinity and plus infinity at plus infinity).
  A kernel writes it as  select (y > 0) y (exp (min y 0) - 1):  the exponential is taken of `min y 0`, which is `y`
  itself wherever the second branch is chosen.  The host writes it as
  select (y > 0) y (1 * expm1 (select (y > 0) 0 y)):  `expm1 z` is `e^z - 1`, the inner select returns `y` wherever
  the outer one reads its second branch, and `1 * z = z` on every extended real.  Neither equation needs a finite `y`.
  The comparison arrays, the zeros and the ones are taken as arbitrary arrays that read `0` and `1` at every index, so
  that the lemmas apply however a program spells its constants.
-/
import Idealize.ShloMosaic.PureOps.Ideal
import Idealize.ShloMosaic.PureOps.Ideal.Laws
import Idealize.ShloMosaic.Lib.ValueIdx

noncomputable section

namespace Idealize.ShloMosaic.EluForms

open Idealize.ShloMosaic Idealize.ShloMosaic.ValueIdx

/-- The float word of `1.0` denotes one. -/
theorem ofBits_one_f32 : Ideal.ofBits .f32 0x3F800000#32 = 1 := by
  simp [Ideal.ofBits, Ideal.ieee, -EReal.coe_mul]; norm_num

/-- The exponential linear unit on the extended reals. -/
def elu (y : EReal) : EReal := if 0 < y then y else Ideal.exp y - 1

/-- The kernel's spelling at one element. -/
theorem kernel_scalar (y : EReal) :
    Scalar.select (Ideal.cmp .ogt y 0) y (Ideal.exp (min y 0) - 1) = elu y := by
  unfold elu Scalar.select Ideal.cmp
  by_cases h : 0 < y
  · simp [h]
  · simp [h, min_eq_left (not_lt.mp h)]

/-- The host's spelling at one element. -/
theorem host_scalar (y : EReal) :
    Scalar.select (Ideal.cmp .ogt y 0) y (1 * (Ideal.exp (Scalar.select (Ideal.cmp .ogt y 0) 0 y) - 1)) = elu y := by
  unfold elu Scalar.select Ideal.cmp
  by_cases h : 0 < y
  · simp [h]
  · simp [h]

variable {s : Shape}

/-- A kernel's exponential linear unit read at an index: the comparison and the minimum against arrays of zeros, the
    subtraction of an array of ones. -/
theorem kernel_apply (x z z' o : FVec Ideal s .f32) (hz : ∀ i, z i = 0) (hz' : ∀ i, z' i = 0) (ho : ∀ i, o i = 1)
    (i : s.Idx) :
    select (cmpf .ogt x z) x (subf (exp (minimumf x z')) o) i = elu (x i) := by
  show Scalar.select (Ideal.cmp .ogt (x i) (z i)) (x i) (Ideal.exp (min (x i) (z' i)) - o i) = _
  rw [hz, hz', ho]
  exact kernel_scalar (x i)

/-- The same with the comparison and the exponential handed over as separate arrays, as a kernel cut into parts
    passes them on. -/
theorem kernel_split_apply (x z z' o : FVec Ideal s .f32) (c : IVec s 1) (e : FVec Ideal s .f32)
    (hc : c = cmpf .ogt x z) (he : e = exp (minimumf x z'))
    (hz : ∀ i, z i = 0) (hz' : ∀ i, z' i = 0) (ho : ∀ i, o i = 1) (i : s.Idx) :
    select c x (subf e o) i = elu (x i) := by
  subst hc he
  exact kernel_apply x z z' o hz hz' ho i

/-- The host's exponential linear unit read at an index. -/
theorem host_apply (x z z' z'' o : FVec Ideal s .f32) (hz : ∀ i, z i = 0) (hz' : ∀ i, z' i = 0) (hz'' : ∀ i, z'' i = 0)
    (ho : ∀ i, o i = 1) (i : s.Idx) :
    select (cmpf .ogt x z) x (mulf o (Host.expm1 (select (cmpf .ogt x z') z'' x))) i = elu (x i) := by
  show Scalar.select (Ideal.cmp .ogt (x i) (z i)) (x i)
      (o i * (Ideal.exp (Scalar.select (Ideal.cmp .ogt (x i) (z' i)) (z'' i) (x i)) - 1)) = _
  rw [hz, hz', hz'', ho]
  exact host_scalar (x i)

/-- A scalar constant spread over a shape by the host reads the constant's word at every index. -/
theorem bcast_constant_apply (h : (⟨0, ![]⟩ : Shape).BroadcastsInDim s ![]) (b : BitVec 32) (i : s.Idx) :
    broadcastInDim s ![] h (constant (F := Ideal) ⟨0, ![]⟩ .f32 b) i = Ideal.ofBits .f32 b := rfl

end Idealize.ShloMosaic.EluForms

end
-- ==== Proof.RefTail.lean ====
/-
  The last operations of the plain program, composed into two functions of the arrays they read, and those
  functions read at one entry.

  The logit array is the sum of three [16384,1] arrays.  The first-order array is the dense features against a
  [2,1] weight, plus a bias spread over the rows, plus the row's first-order embedding sum.  The second-order array
  takes the [16384,12,16] field array, sums it over the twelve fields and squares the sum, squares it and sums the
  squares over the fields, subtracts, sums the difference over the sixteen coordinates and halves the result.  The
  deep array is three layers (a matrix product, a bias spread over the rows, a cut-off below at zero) and one last
  matrix product with a bias.  Each output is one more [1,1] product and bias followed by negate, exponential,
  one plus, one over.

  Every function below is the composition of the operations' functions exactly as the program spells them, in the
  program's operand order, so that a buffer's value after the program's operations is one of these functions of
  earlier buffers' values by unfolding alone.  Read at entry (p, 0) over the extended reals, the logit array is
  the row function `Dfm.logit` of row p of its operands, and an output array is `Dfm.head` of the logit.
-/
import proofs.«160683_j87995289960919_1_alg».proof.Proof.Gen.ReferenceIdeal
import proofs.«160683_j87995289960919_1_alg».proof.Proof.SpecArr
import proofs.«160683_j87995289960919_1_alg».proof.Proof.LibPlainDot
import proofs.«160683_j87995289960919_1_alg».proof.Proof.LibDense
import proofs.«160683_j87995289960919_1_alg».proof.Proof.LibRegionBlockSpread
import proofs.«160683_j87995289960919_1_alg».proof.Proof.LibHostRank3
import proofs.«160683_j87995289960919_1_alg».proof.Proof.LibRowReduce
import proofs.«160683_j87995289960919_1_alg».proof.Proof.LibElu
import Idealize.ShloMosaic.Lib.ValueIdx
import Idealize.ShloMosaic.PureOps.Ideal.Laws

noncomputable section

namespace Cert.ReferenceIdeal.Tail

open Cert.ReferenceIdeal Cert.ReferenceIdeal.Gen Idealize.ShloMosaic Idealize.ShloMosaic.ValueIdx

variable {F : FTy → Type} [FloatOps F]

/-- Buffer %17 from %arg1, %arg6, %arg7 and %12: the product, plus the bias spread over the rows, plus %12. -/
def refFirst (a1 : FVec F S16384x2 .f32) (a6 : FVec F S2x1 .f32) (a7 : FVec F S1 .f32) (ls : FVec F S16384x1 .f32) :
    FVec F S16384x1 .f32 :=
  (addf : (⟨S16384x1, .f32⟩ : BufTy).Contents (Elt F) → (⟨S16384x1, .f32⟩ : BufTy).Contents (Elt F) → (⟨S16384x1, .f32⟩ : BufTy).Contents (Elt F))
    ((addf : (⟨S16384x1, .f32⟩ : BufTy).Contents (Elt F) → (⟨S16384x1, .f32⟩ : BufTy).Contents (Elt F) → (⟨S16384x1, .f32⟩ : BufTy).Contents (Elt F))
      (((fun l r => Host.dotGeneral dot_S16384x2_S2x1_S16384x1_1_0_0_1_n_n none l r) : (⟨S16384x2, .f32⟩ : BufTy).Contents (Elt F) → (⟨S2x1, .f32⟩ : BufTy).Contents (Elt F) → (⟨S16384x1, .f32⟩ : BufTy).Contents (Elt F))
        a1
        a6)
      ((broadcastInDim S16384x1 ![0, 1] bcast_S1x1_S16384x1_0_1 : (⟨S1x1, .f32⟩ : BufTy).Contents (Elt F) → (⟨S16384x1, .f32⟩ : BufTy).Contents (Elt F))
        ((broadcastInDim S1x1 ![1] bcast_S1_S1x1_1 : (⟨S1, .f32⟩ : BufTy).Contents (Elt F) → (⟨S1x1, .f32⟩ : BufTy).Contents (Elt F))
          a7)))
    ls

/-- Buffer %84 from %75: half the sum over the last axis of (sum over the middle axis)² minus the sum over the middle axis of the squares. -/
def refSecond (fm : FVec F S16384x12x16 .f32) : FVec F S16384x1 .f32 :=
  (mulf : (⟨S16384x1, .f32⟩ : BufTy).Contents (Elt F) → (⟨S16384x1, .f32⟩ : BufTy).Contents (Elt F) → (⟨S16384x1, .f32⟩ : BufTy).Contents (Elt F))
    ((broadcastInDim S16384x1 ![] bcast_S_S16384x1 : (⟨S_, .f32⟩ : BufTy).Contents (Elt F) → (⟨S16384x1, .f32⟩ : BufTy).Contents (Elt F))
      (constant S_ .f32 0x3F000000#32 : (⟨S_, .f32⟩ : BufTy).Contents (Elt F)))
    ((broadcastInDim S16384x1 ![0] bcast_S16384_S16384x1_0 : (⟨S16384, .f32⟩ : BufTy).Contents (Elt F) → (⟨S16384x1, .f32⟩ : BufTy).Contents (Elt F))
      (((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F))
        ((subf : (⟨S16384x16, .f32⟩ : BufTy).Contents (Elt F) → (⟨S16384x16, .f32⟩ : BufTy).Contents (Elt F) → (⟨S16384x16, .f32⟩ : BufTy).Contents (Elt F))
          ((mulf : (⟨S16384x16, .f32⟩ : BufTy).Contents (Elt F) → (⟨S16384x16, .f32⟩ : BufTy).Contents (Elt F) → (⟨S16384x16, .f32⟩ : BufTy).Contents (Elt F))
            (((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
              fm
              (constant S_ .f32 0x00000000#32 : (⟨S_, .f32⟩ : BufTy).Contents (Elt F)))
            (((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
              fm
              (constant S_ .f32 0x00000000#32 : (⟨S_, .f32⟩ : BufTy).Contents (Elt F))))
          (((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
            ((mulf : (⟨S16384x12x16, .f32⟩ : BufTy).Contents (Elt F) → (⟨S16384x12x16, .f32⟩ : BufTy).Contents (Elt F) → (⟨S16384x12x16, .f32⟩ : BufTy).Contents (Elt F))
              fm
              fm)
            (constant S_ .f32 0x00000000#32 : (⟨S_, .f32⟩ : BufTy).Contents (Elt F))))
        (constant S_ .f32 0x00000000#32 : (⟨S_, .f32⟩ : BufTy).Contents (Elt F))))

/-- The outlined cut-off below at zero: its result buffer from its argument's (%93 from %92, %98 from %97, %103 from %102). -/
def refRelu (x : FVec F S16384x200 .f32) : FVec F S16384x200 .f32 :=
  (maximumf : (⟨S16384x200, .f32⟩ : BufTy).Contents (Elt F) → (⟨S16384x200, .f32⟩ : BufTy).Contents (Elt F) → (⟨S16384x200, .f32⟩ : BufTy).Contents (Elt F))
    x
    ((broadcastInDim S16384x200 ![] bcast_S_S16384x200 : (⟨S_, .f32⟩ : BufTy).Contents (Elt F) → (⟨S16384x200, .f32⟩ : BufTy).Contents (Elt F))
      (constant S_ .f32 0x00000000#32 : (⟨S_, .f32⟩ : BufTy).Contents (Elt F)))

/-- Buffer %93 from %88, %arg12 and %arg13: the first hidden layer. -/
def refLayer1 (dnn : FVec F S16384x194 .f32) (W : FVec F S194x200 .f32) (b : FVec F S200 .f32) : FVec F S16384x200 .f32 :=
  refRelu
    ((addf : (⟨S16384x200, .f32⟩ : BufTy).Contents (Elt F) → (⟨S16384x200, .f32⟩ : BufTy).Contents (Elt F) → (⟨S16384x200, .f32⟩ : BufTy).Contents (Elt F))
      (((fun l r => Host.dotGeneral dot_S16384x194_S194x200_S16384x200_1_0_0_1_n_n none l r) : (⟨S16384x194, .f32⟩ : BufTy).Contents (Elt F) → (⟨S194x200, .f32⟩ : BufTy).Contents (Elt F) → (⟨S16384x200, .f32⟩ : BufTy).Contents (Elt F))
        dnn
        W)
      ((broadcastInDim S16384x200 ![0, 1] bcast_S1x200_S16384x200_0_1 : (⟨S1x200, .f32⟩ : BufTy).Contents (Elt F) → (⟨S16384x200, .f32⟩ : BufTy).Contents (Elt F))
        ((broadcastInDim S1x200 ![1] bcast_S200_S1x200_1 : (⟨S200, .f32⟩ : BufTy).Contents (Elt F) → (⟨S1x200, .f32⟩ : BufTy).Contents (Elt F))
          b)))

/-- Buffer %98 from %93, %arg14 and %arg15, and buffer %103 from %98, %arg16 and %arg17: a later hidden layer. -/
def refLayer (x : FVec F S16384x200 .f32) (W : FVec F S200x200 .f32) (b : FVec F S200 .f32) : FVec F S16384x200 .f32 :=
  refRelu
    ((addf : (⟨S16384x200, .f32⟩ : BufTy).Contents (Elt F) → (⟨S16384x200, .f32⟩ : BufTy).Contents (Elt F) → (⟨S16384x200, .f32⟩ : BufTy).Contents (Elt F))
      (((fun l r => Host.dotGeneral dot_S16384x200_S200x200_S16384x200_1_0_0_1_n_n none l r) : (⟨S16384x200, .f32⟩ : BufTy).Contents (Elt F) → (⟨S200x200, .f32⟩ : BufTy).Contents (Elt F) → (⟨S16384x200, .f32⟩ : BufTy).Contents (Elt F))
        x
        W)
      ((broadcastInDim S16384x200 ![0, 1] bcast_S1x200_S16384x200_0_1 : (⟨S1x200, .f32⟩ : BufTy).Contents (Elt F) → (⟨S16384x200, .f32⟩ : BufTy).Contents (Elt F))
        ((broadcastInDim S1x200 ![1] bcast_S200_S1x200_1 : (⟨S200, .f32⟩ : BufTy).Contents (Elt F) → (⟨S1x200, .f32⟩ : BufTy).Contents (Elt F))
          b)))

/-- Buffer %107 from %103, %arg18 and %arg19: the last linear unit. -/
def refOut (x : FVec F S16384x200 .f32) (W : FVec F S200x1 .f32) (b : FVec F S1 .f32) : FVec F S16384x1 .f32 :=
  (addf : (⟨S16384x1, .f32⟩ : BufTy).Contents (Elt F) → (⟨S16384x1, .f32⟩ : BufTy).Contents (Elt F) → (⟨S16384x1, .f32⟩ : BufTy).Contents (Elt F))
    (((fun l r => Host.dotGeneral dot_S16384x200_S200x1_S16384x1_1_0_0_1_n_n none l r) : (⟨S16384x200, .f32⟩ : BufTy).Contents (Elt F) → (⟨S200x1, .f32⟩ : BufTy).Contents (Elt F) → (⟨S16384x1, .f32⟩ : BufTy).Contents (Elt F))
      x
      W)
    ((broadcastInDim S16384x1 ![0, 1] bcast_S1x1_S16384x1_0_1 : (⟨S1x1, .f32⟩ : BufTy).Contents (Elt F) → (⟨S16384x1, .f32⟩ : BufTy).Contents (Elt F))
      ((broadcastInDim S1x1 ![1] bcast_S1_S1x1_1 : (⟨S1, .f32⟩ : BufTy).Contents (Elt F) → (⟨S1x1, .f32⟩ : BufTy).Contents (Elt F))
        b))

/-- Buffer %107 from %88 and %arg12 … %arg19: the three hidden layers and the last unit. -/
def refDeep (dnn : FVec F S16384x194 .f32) (a12 : FVec F S194x200 .f32) (a13 : FVec F S200 .f32)
    (a14 : FVec F S200x200 .f32) (a15 : FVec F S200 .f32) (a16 : FVec F S200x200 .f32) (a17 : FVec F S200 .f32)
    (a18 : FVec F S200x1 .f32) (a19 : FVec F S1 .f32) : FVec F S16384x1 .f32 :=
  refOut (refLayer (refLayer (refLayer1 dnn a12 a13) a14 a15) a16 a17) a18 a19

/-- Buffer %109 from %arg1, %88 (dnn), %75 (fm), %12 (ls), %arg6, %arg7 and %arg12 … %arg19: (%17 + %84) + %107. -/
def refLogit (a1 : FVec F S16384x2 .f32) (dnn : FVec F S16384x194 .f32) (fm : FVec F S16384x12x16 .f32)
    (ls : FVec F S16384x1 .f32) (a6 : FVec F S2x1 .f32) (a7 : FVec F S1 .f32) (a12 : FVec F S194x200 .f32)
    (a13 : FVec F S200 .f32) (a14 : FVec F S200x200 .f32) (a15 : FVec F S200 .f32) (a16 : FVec F S200x200 .f32)
    (a17 : FVec F S200 .f32) (a18 : FVec F S200x1 .f32) (a19 : FVec F S1 .f32) : FVec F S16384x1 .f32 :=
  (addf : (⟨S16384x1, .f32⟩ : BufTy).Contents (Elt F) → (⟨S16384x1, .f32⟩ : BufTy).Contents (Elt F) → (⟨S16384x1, .f32⟩ : BufTy).Contents (Elt F))
    ((addf : (⟨S16384x1, .f32⟩ : BufTy).Contents (Elt F) → (⟨S16384x1, .f32⟩ : BufTy).Contents (Elt F) → (⟨S16384x1, .f32⟩ : BufTy).Contents (Elt F))
      (refFirst a1 a6 a7 ls)
      (refSecond fm))
    (refDeep dnn a12 a13 a14 a15 a16 a17 a18 a19)

/-- Buffer %119 from %109 (lg), %arg20 (W) and %arg21 (b); buffer %129 from %109, %arg22 and %arg23. -/
def refHead (lg : FVec F S16384x1 .f32) (W : FVec F S1x1 .f32) (b : FVec F S1 .f32) : FVec F S16384x1 .f32 :=
  (Host.divf : (⟨S16384x1, .f32⟩ : BufTy).Contents (Elt F) → (⟨S16384x1, .f32⟩ : BufTy).Contents (Elt F) → (⟨S16384x1, .f32⟩ : BufTy).Contents (Elt F))
    ((broadcastInDim S16384x1 ![] bcast_S_S16384x1 : (⟨S_, .f32⟩ : BufTy).Contents (Elt F) → (⟨S16384x1, .f32⟩ : BufTy).Contents (Elt F))
      (constant S_ .f32 0x3F800000#32 : (⟨S_, .f32⟩ : BufTy).Contents (Elt F)))
    ((addf : (⟨S16384x1, .f32⟩ : BufTy).Contents (Elt F) → (⟨S16384x1, .f32⟩ : BufTy).Contents (Elt F) → (⟨S16384x1, .f32⟩ : BufTy).Contents (Elt F))
      ((broadcastInDim S16384x1 ![] bcast_S_S16384x1 : (⟨S_, .f32⟩ : BufTy).Contents (Elt F) → (⟨S16384x1, .f32⟩ : BufTy).Contents (Elt F))
        (constant S_ .f32 0x3F800000#32 : (⟨S_, .f32⟩ : BufTy).Contents (Elt F)))
      ((Host.exp : (⟨S16384x1, .f32⟩ : BufTy).Contents (Elt F) → (⟨S16384x1, .f32⟩ : BufTy).Contents (Elt F))
        ((Host.negf : (⟨S16384x1, .f32⟩ : BufTy).Contents (Elt F) → (⟨S16384x1, .f32⟩ : BufTy).Contents (Elt F))
          ((addf : (⟨S16384x1, .f32⟩ : BufTy).Contents (Elt F) → (⟨S16384x1, .f32⟩ : BufTy).Contents (Elt F) → (⟨S16384x1, .f32⟩ : BufTy).Contents (Elt F))
            (((fun l r => Host.dotGeneral dot_S16384x1_S1x1_S16384x1_1_0_0_1_n_n none l r) : (⟨S16384x1, .f32⟩ : BufTy).Contents (Elt F) → (⟨S1x1, .f32⟩ : BufTy).Contents (Elt F) → (⟨S16384x1, .f32⟩ : BufTy).Contents (Elt F))
              lg
              W)
            ((broadcastInDim S16384x1 ![0, 1] bcast_S1x1_S16384x1_0_1 : (⟨S1x1, .f32⟩ : BufTy).Contents (Elt F) → (⟨S16384x1, .f32⟩ : BufTy).Contents (Elt F))
              ((broadcastInDim S1x1 ![1] bcast_S1_S1x1_1 : (⟨S1, .f32⟩ : BufTy).Contents (Elt F) → (⟨S1x1, .f32⟩ : BufTy).Contents (Elt F))
                b))))))

/-! ## The operations read at an entry, over the extended reals -/

section Apply

/-- The zero word the sums start from and the layers cut off at is the extended real zero. -/
theorem zeroConst_apply (i : S_.Idx) : constant (F := Ideal) S_ .f32 0x00000000#32 i = 0 :=
  Ideal.ofBits_zero_f32

/-- The [16384,2] by [2,1] product at (p, q). -/
theorem dot2_apply (l : FVec Ideal S16384x2 .f32) (r : FVec Ideal S2x1 .f32) (p : Fin 16384) (q : Fin 1) :
    Host.dotGeneral dot_S16384x2_S2x1_S16384x1_1_0_0_1_n_n none l r (ix2 p q) = ∑ k : Fin 2, l (ix2 p k) * r (ix2 k q) :=
  PlainDot.dotGeneral_apply _ rfl none .single l r p q

/-- The [16384,194] by [194,200] product at (p, q). -/
theorem dot194_apply (l : FVec Ideal S16384x194 .f32) (r : FVec Ideal S194x200 .f32) (p : Fin 16384) (q : Fin 200) :
    Host.dotGeneral dot_S16384x194_S194x200_S16384x200_1_0_0_1_n_n none l r (ix2 p q)
      = ∑ k : Fin 194, l (ix2 p k) * r (ix2 k q) :=
  PlainDot.dotGeneral_apply _ rfl none .single l r p q

/-- The [16384,200] by [200,200] product at (p, q). -/
theorem dot200_apply (l : FVec Ideal S16384x200 .f32) (r : FVec Ideal S200x200 .f32) (p : Fin 16384) (q : Fin 200) :
    Host.dotGeneral dot_S16384x200_S200x200_S16384x200_1_0_0_1_n_n none l r (ix2 p q)
      = ∑ k : Fin 200, l (ix2 p k) * r (ix2 k q) :=
  PlainDot.dotGeneral_apply _ rfl none .single l r p q

/-- The [16384,200] by [200,1] product at (p, q). -/
theorem dot200x1_apply (l : FVec Ideal S16384x200 .f32) (r : FVec Ideal S200x1 .f32) (p : Fin 16384) (q : Fin 1) :
    Host.dotGeneral dot_S16384x200_S200x1_S16384x1_1_0_0_1_n_n none l r (ix2 p q)
      = ∑ k : Fin 200, l (ix2 p k) * r (ix2 k q) :=
  PlainDot.dotGeneral_apply _ rfl none .single l r p q

/-- The [16384,1] by [1,1] product at (p, q): one term. -/
theorem dot1_apply (l : FVec Ideal S16384x1 .f32) (r : FVec Ideal S1x1 .f32) (p : Fin 16384) (q : Fin 1) :
    Host.dotGeneral dot_S16384x1_S1x1_S16384x1_1_0_0_1_n_n none l r (ix2 p q)
      = l (ix2 p (0 : Fin 1)) * r (ix2 (0 : Fin 1) q) := by
  refine (PlainDot.dotGeneral_apply _ rfl none .single l r p q).trans ?_
  exact Fin.sum_univ_one _

/-- The sum of a [16384,12,16] array over its middle axis, from the zero word, at (p, e). -/
theorem sumMid_apply (x : FVec Ideal S16384x12x16 .f32) (p : Fin 16384) (e : Fin 16) :
    Host.reduceAdd x (constant (F := Ideal) S_ .f32 0x00000000#32) reducesTo_S16384x12x16_S16384x16_d1 h_S_ (ix2 p e)
      = ∑ f : Fin 12, x (ix3 p f e) := by
  refine (HostRank3.hostReduceAdd_mid x _ reducesTo_S16384x12x16_S16384x16_d1 (by decide) h_S_ p e).trans ?_
  rw [zeroConst_apply, zero_add]

/-- The sum of a [16384,16] array over its last axis, from the zero word, at p. -/
theorem sumRow_apply (x : FVec Ideal S16384x16 .f32) (p : Fin 16384) :
    Host.reduceAdd x (constant (F := Ideal) S_ .f32 0x00000000#32) reducesTo_S16384x16_S16384_d1 h_S_ (ix1 p)
      = ∑ e : Fin 16, x (ix2 p e) := by
  refine (RowReduce.hostReduceAdd_row x _ reducesTo_S16384x16_S16384_d1 (by decide) h_S_ p).trans ?_
  rw [zeroConst_apply, zero_add]

end Apply

section Terms

/-- The first-order array at (p, 0). -/
theorem refFirst_apply (a1 : FVec Ideal S16384x2 .f32) (a6 : FVec Ideal S2x1 .f32) (a7 : FVec Ideal S1 .f32)
    (ls : FVec Ideal S16384x1 .f32) (p : Fin 16384) :
    refFirst a1 a6 a7 ls (ix2 p (0 : Fin 1))
      = ((∑ k : Fin 2, a1 (ix2 p k) * a6 (ix2 k (0 : Fin 1))) + a7 (ix1 (0 : Fin 1))) + ls (ix2 p (0 : Fin 1)) := by
  unfold refFirst
  beta_reduce
  rw [addf_apply, addf_apply, dot2_apply, DenseLayer.inDimRow_apply]

/-- The second-order array at (p, 0). -/
theorem refSecond_apply (fm : FVec Ideal S16384x12x16 .f32) (p : Fin 16384) :
    refSecond fm (ix2 p (0 : Fin 1)) = Dfm.second (fun f e => fm (ix3 p f e)) := by
  unfold refSecond Dfm.second
  beta_reduce
  rw [mulf_apply, EluForms.bcast_constant_apply, KeepDims.broadcastInDim_a_a1_apply, sumRow_apply]
  refine congrArg _ (Finset.sum_congr rfl fun e _ => ?_)
  rw [subf_apply, mulf_apply, sumMid_apply, sumMid_apply]
  refine congrArg _ (Finset.sum_congr rfl fun f _ => ?_)
  rw [mulf_apply]

/-- The cut-off below at zero at (p, q). -/
theorem refRelu_apply (x : FVec Ideal S16384x200 .f32) (p : Fin 16384) (q : Fin 200) :
    refRelu x (ix2 p q) = max (x (ix2 p q)) 0 := by
  unfold refRelu
  rw [maximumf_apply, EluForms.bcast_constant_apply, Ideal.ofBits_zero_f32]

/-- The first hidden layer at (p, q). -/
theorem refLayer1_apply (dnn : FVec Ideal S16384x194 .f32) (W : FVec Ideal S194x200 .f32) (b : FVec Ideal S200 .f32)
    (p : Fin 16384) (q : Fin 200) :
    refLayer1 dnn W b (ix2 p q) = Dfm.hidden (fun k => dnn (ix2 p k)) (fun k => W (ix2 k q)) (b (ix1 q)) := by
  unfold refLayer1 Dfm.hidden Dfm.unit
  beta_reduce
  rw [refRelu_apply, addf_apply, dot194_apply, DenseLayer.inDimRow_apply]

/-- A later hidden layer at (p, q). -/
theorem refLayer_apply (x : FVec Ideal S16384x200 .f32) (W : FVec Ideal S200x200 .f32) (b : FVec Ideal S200 .f32)
    (p : Fin 16384) (q : Fin 200) :
    refLayer x W b (ix2 p q) = Dfm.hidden (fun k => x (ix2 p k)) (fun k => W (ix2 k q)) (b (ix1 q)) := by
  unfold refLayer Dfm.hidden Dfm.unit
  beta_reduce
  rw [refRelu_apply, addf_apply, dot200_apply, DenseLayer.inDimRow_apply]

/-- The last linear unit at (p, 0). -/
theorem refOut_apply (x : FVec Ideal S16384x200 .f32) (W : FVec Ideal S200x1 .f32) (b : FVec Ideal S1 .f32)
    (p : Fin 16384) :
    refOut x W b (ix2 p (0 : Fin 1))
      = Dfm.unit (fun k => x (ix2 p k)) (fun k => W (ix2 k (0 : Fin 1))) (b (ix1 (0 : Fin 1))) := by
  unfold refOut Dfm.unit
  beta_reduce
  rw [addf_apply, dot200x1_apply, DenseLayer.inDimRow_apply]

end Terms

section Deep

variable (a6 : FVec Ideal S2x1 .f32) (a7 : FVec Ideal S1 .f32) (a12 : FVec Ideal S194x200 .f32)
  (a13 : FVec Ideal S200 .f32) (a14 : FVec Ideal S200x200 .f32) (a15 : FVec Ideal S200 .f32)
  (a16 : FVec Ideal S200x200 .f32) (a17 : FVec Ideal S200 .f32) (a18 : FVec Ideal S200x1 .f32) (a19 : FVec Ideal S1 .f32)
  (dnn : FVec Ideal S16384x194 .f32) (p : Fin 16384)

/-- Row p of the first hidden layer's array is the row function's first hidden layer. -/
theorem refLayer1_row :
    (fun q : Fin 200 => refLayer1 dnn a12 a13 (ix2 p q))
      = Dfm.h1 (Dfm.paramsOf a6 a7 a12 a13 a14 a15 a16 a17 a18 a19) (fun k => dnn (ix2 p k)) :=
  funext fun q => refLayer1_apply dnn a12 a13 p q

/-- Row p of the second hidden layer's array is the row function's second hidden layer. -/
theorem refLayer2_row :
    (fun q : Fin 200 => refLayer (refLayer1 dnn a12 a13) a14 a15 (ix2 p q))
      = Dfm.h2 (Dfm.paramsOf a6 a7 a12 a13 a14 a15 a16 a17 a18 a19) (fun k => dnn (ix2 p k)) :=
  funext fun q => by
    rw [refLayer_apply, refLayer1_row a6 a7 a12 a13 a14 a15 a16 a17 a18 a19 dnn p]
    rfl

/-- Row p of the third hidden layer's array is the row function's third hidden layer. -/
theorem refLayer3_row :
    (fun q : Fin 200 => refLayer (refLayer (refLayer1 dnn a12 a13) a14 a15) a16 a17 (ix2 p q))
      = Dfm.h3 (Dfm.paramsOf a6 a7 a12 a13 a14 a15 a16 a17 a18 a19) (fun k => dnn (ix2 p k)) :=
  funext fun q => by
    rw [refLayer_apply, refLayer2_row a6 a7 a12 a13 a14 a15 a16 a17 a18 a19 dnn p]
    rfl

/-- The deep array at (p, 0) is the row function's deep term of row p. -/
theorem refDeep_apply :
    refDeep dnn a12 a13 a14 a15 a16 a17 a18 a19 (ix2 p (0 : Fin 1))
      = Dfm.deep (Dfm.paramsOf a6 a7 a12 a13 a14 a15 a16 a17 a18 a19) (fun k => dnn (ix2 p k)) := by
  unfold refDeep
  rw [refOut_apply, refLayer3_row a6 a7 a12 a13 a14 a15 a16 a17 a18 a19 dnn p]
  rfl

end Deep

/-- The logit array at (p, 0) is the row function's logit of row p of its operands. -/
theorem refLogit_apply (a1 : FVec Ideal S16384x2 .f32) (dnn : FVec Ideal S16384x194 .f32)
    (fm : FVec Ideal S16384x12x16 .f32) (ls : FVec Ideal S16384x1 .f32) (a6 : FVec Ideal S2x1 .f32)
    (a7 : FVec Ideal S1 .f32) (a12 : FVec Ideal S194x200 .f32) (a13 : FVec Ideal S200 .f32)
    (a14 : FVec Ideal S200x200 .f32) (a15 : FVec Ideal S200 .f32) (a16 : FVec Ideal S200x200 .f32)
    (a17 : FVec Ideal S200 .f32) (a18 : FVec Ideal S200x1 .f32) (a19 : FVec Ideal S1 .f32) (p : Fin 16384) :
    refLogit a1 dnn fm ls a6 a7 a12 a13 a14 a15 a16 a17 a18 a19 (ix2 p (0 : Fin 1))
      = Dfm.logit (Dfm.paramsOf a6 a7 a12 a13 a14 a15 a16 a17 a18 a19) (fun k => a1 (ix2 p k))
          (fun k => dnn (ix2 p k)) (fun f e => fm (ix3 p f e)) (ls (ix2 p (0 : Fin 1))) := by
  unfold refLogit
  rw [addf_apply, addf_apply, refFirst_apply, refSecond_apply,
    refDeep_apply a6 a7 a12 a13 a14 a15 a16 a17 a18 a19 dnn p]
  rfl

/-- An output array at (p, 0) is the logistic head of the logit at (p, 0). -/
theorem refHead_apply (lg : FVec Ideal S16384x1 .f32) (W : FVec Ideal S1x1 .f32) (b : FVec Ideal S1 .f32)
    (p : Fin 16384) :
    refHead lg W b (ix2 p (0 : Fin 1))
      = Dfm.head (lg (ix2 p (0 : Fin 1))) (W (ix2 (0 : Fin 1) (0 : Fin 1))) (b (ix1 (0 : Fin 1))) := by
  unfold refHead Dfm.head Ideal.logistic
  beta_reduce
  show Ideal.div (Ideal.ofBits .f32 0x3F800000#32)
      (Ideal.ofBits .f32 0x3F800000#32
        + Ideal.exp (-(Host.dotGeneral dot_S16384x1_S1x1_S16384x1_1_0_0_1_n_n none lg W (ix2 p (0 : Fin 1))
            + broadcastInDim S16384x1 ![0, 1] bcast_S1x1_S16384x1_0_1 (broadcastInDim S1x1 ![1] bcast_S1_S1x1_1 b)
                (ix2 p (0 : Fin 1))))) = _
  rw [EluForms.ofBits_one_f32, dot1_apply, DenseLayer.inDimRow_apply]

end Cert.ReferenceIdeal.Tail

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.RefLink.lean ====
/-
  The reference's two results, read through its run as functions of three joined arrays and the weights.

  After the whole line of operations, a buffer written once holds its operation's function of what its operands
  hold after the whole line: nothing later writes the operands or the result.  So each of the last buffers is read
  off the short stretch of operations that computes it, started from the contents the earlier operations leave:
  the first-order array from the dense features and the first-order embedding sum, the second-order array from the
  joined field array, the deep array from the joined input of the deep part, the logit array as their sum, and each
  output from the logit array.  Composed, the two results are the output function of the logit function of those
  arrays and the weights.
-/
import proofs.«160683_j87995289960919_1_alg».proof.Proof.RefRun
import proofs.«160683_j87995289960919_1_alg».proof.Proof.RefTail
import proofs.«160683_j87995289960919_1_alg».proof.Proof.LibJoinedPair
import proofs.«160683_j87995289960919_1_alg».proof.Proof.LibTypedTransport

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 17 … 21 of the line. -/
theorem first_eq_ops : ((ops : List (HloOp τ sig (Elt F))).drop 17).take 5 =
  ( StableHlo.binary main_arg1 main_arg6 main_v13 ((fun l r => Host.dotGeneral dot_S16384x2_S2x1_S16384x1_1_0_0_1_n_n none l r) : (⟨S16384x2, .f32⟩ : BufTy).Contents (Elt F) → (⟨S2x1, .f32⟩ : BufTy).Contents (Elt F) → (⟨S16384x1, .f32⟩ : BufTy).Contents (Elt F))
  :: StableHlo.unary main_arg7 main_v14 (broadcastInDim S1x1 ![1] bcast_S1_S1x1_1 : (⟨S1, .f32⟩ : BufTy).Contents (Elt F) → (⟨S1x1, .f32⟩ : BufTy).Contents (Elt F))
  :: StableHlo.unary main_v14 main_v15 (broadcastInDim S16384x1 ![0, 1] bcast_S1x1_S16384x1_0_1 : (⟨S1x1, .f32⟩ : BufTy).Contents (Elt F) → (⟨S16384x1, .f32⟩ : BufTy).Contents (Elt F))
  :: StableHlo.binary main_v13 main_v15 main_v16 (addf : (⟨S16384x1, .f32⟩ : BufTy).Contents (Elt F) → (⟨S16384x1, .f32⟩ : BufTy).Contents (Elt F) → (⟨S16384x1, .f32⟩ : BufTy).Contents (Elt F))
  :: StableHlo.binary main_v16 main_v12 main_v17 (addf : (⟨S16384x1, .f32⟩ : BufTy).Contents (Elt F) → (⟨S16384x1, .f32⟩ : BufTy).Contents (Elt F) → (⟨S16384x1, .f32⟩ : BufTy).Contents (Elt F))
  :: [] ) := rfl

/-- The first-order array: the dense features against their weights, plus the bias, plus the first-order embedding sum. -/
theorem first_eq (V : Valuation τ sig (Elt F)) :
    StableHlo.after ops V (Proc.devRef .tc main_v17 : DevRef τ sig) = Tail.refFirst (V (Proc.devRef .tc main_arg1 : DevRef τ sig)) (V (Proc.devRef .tc main_arg6 : DevRef τ sig)) (V (Proc.devRef .tc main_arg7 : DevRef τ sig)) (StableHlo.after ops V (Proc.devRef .tc main_v12 : DevRef τ sig)) := by
  have k0 := StableHlo.after_take_of_not_mem ops_writesOnly 17 V main_arg1 (by decide)
  have k1 := StableHlo.after_take_of_not_mem ops_writesOnly 17 V main_arg6 (by decide)
  have k2 := StableHlo.after_take_of_not_mem ops_writesOnly 17 V main_arg7 (by decide)
  have e0 := StableHlo.after_take_eq ops_writesOnly 17 V main_v12 (by decide)
  rw [StableHlo.after_read_stretch ops_writesOnly 17 5 V main_v17 (by decide), first_eq_ops, ← k0, ← k1, ← k2, ← e0]
  generalize StableHlo.after (List.take 17 ops) V = W
  read_fold
  unfold Tail.refFirst
  rfl

/-- Operations 100 … 112 of the line. -/
theorem second_eq_ops : ((ops : List (HloOp τ sig (Elt F))).drop 100).take 13 =
  ( StableHlo.nullary main_cst_22 (constant S_ .f32 0x00000000#32)
  :: StableHlo.binary main_v75 main_cst_22 main_v76 ((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
  :: StableHlo.binary main_v76 main_v76 main_v77 (mulf : (⟨S16384x16, .f32⟩ : BufTy).Contents (Elt F) → (⟨S16384x16, .f32⟩ : BufTy).Contents (Elt F) → (⟨S16384x16, .f32⟩ : BufTy).Contents (Elt F))
  :: StableHlo.binary main_v75 main_v75 main_v78 (mulf : (⟨S16384x12x16, .f32⟩ : BufTy).Contents (Elt F) → (⟨S16384x12x16, .f32⟩ : BufTy).Contents (Elt F) → (⟨S16384x12x16, .f32⟩ : BufTy).Contents (Elt F))
  :: StableHlo.nullary main_cst_23 (constant S_ .f32 0x00000000#32)
  :: StableHlo.binary main_v78 main_cst_23 main_v79 ((fun x v => Host.reduceAdd x v reducesTo_S16384x12x16_S16384x16_d1 h_S_) : (⟨S16384x12x16, .f32⟩ : BufTy).Contents (Elt F) → (⟨S_, .f32⟩ : BufTy).Contents (Elt F) → (⟨S16384x16, .f32⟩ : BufTy).Contents (Elt F))
  :: StableHlo.binary main_v77 main_v79 main_v80 (subf : (⟨S16384x16, .f32⟩ : BufTy).Contents (Elt F) → (⟨S16384x16, .f32⟩ : BufTy).Contents (Elt F) → (⟨S16384x16, .f32⟩ : BufTy).Contents (Elt F))
  :: StableHlo.nullary main_cst_24 (constant S_ .f32 0x00000000#32)
  :: StableHlo.binary main_v80 main_cst_24 main_v81 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F))
  :: StableHlo.unary main_v81 main_v82 (broadcastInDim S16384x1 ![0] bcast_S16384_S16384x1_0 : (⟨S16384, .f32⟩ : BufTy).Contents (Elt F) → (⟨S16384x1, .f32⟩ : BufTy).Contents (Elt F))
  :: StableHlo.nullary main_cst_25 (constant S_ .f32 0x3F000000#32)
  :: StableHlo.unary main_cst_25 main_v83 (broadcastInDim S16384x1 ![] bcast_S_S16384x1 : (⟨S_, .f32⟩ : BufTy).Contents (Elt F) → (⟨S16384x1, .f32⟩ : BufTy).Contents (Elt F))
  :: StableHlo.binary main_v83 main_v82 main_v84 (mulf : (⟨S16384x1, .f32⟩ : BufTy).Contents (Elt F) → (⟨S16384x1, .f32⟩ : BufTy).Contents (Elt F) → (⟨S16384x1, .f32⟩ : BufTy).Contents (Elt F))
  :: [] ) := rfl

/-- The second-order array, from the joined field array. -/
theorem second_eq (V : Valuation τ sig (Elt F)) :
    StableHlo.after ops V (Proc.devRef .tc main_v84 : DevRef τ sig) = Tail.refSecond (StableHlo.after ops V (Proc.devRef .tc main_v75 : DevRef τ sig)) := by
  have e0 := StableHlo.after_take_eq ops_writesOnly 100 V main_v75 (by decide)
  rw [StableHlo.after_read_stretch ops_writesOnly 100 13 V main_v84 (by decide), second_eq_ops, ← e0]
  generalize StableHlo.after (List.take 100 ops) V = W
  read_fold
  unfold Tail.refSecond
  rfl

/-- Operations 117 … 141 of the line. -/
theorem deep_eq_ops : ((ops : List (HloOp τ sig (Elt F))).drop 117).take 25 =
  ( StableHlo.binary main_v88 main_arg12 main_v89 ((fun l r => Host.dotGeneral dot_S16384x194_S194x200_S16384x200_1_0_0_1_n_n none l r) : (⟨S16384x194, .f32⟩ : BufTy).Contents (Elt F) → (⟨S194x200, .f32⟩ : BufTy).Contents (Elt F) → (⟨S16384x200, .f32⟩ : BufTy).Contents (Elt F))
  :: StableHlo.unary main_arg13 main_v90 (broadcastInDim S1x200 ![1] bcast_S200_S1x200_1 : (⟨S200, .f32⟩ : BufTy).Contents (Elt F) → (⟨S1x200, .f32⟩ : BufTy).Contents (Elt F))
  :: StableHlo.unary main_v90 main_v91 (broadcastInDim S16384x200 ![0, 1] bcast_S1x200_S16384x200_0_1 : (⟨S1x200, .f32⟩ : BufTy).Contents (Elt F) → (⟨S16384x200, .f32⟩ : BufTy).Contents (Elt F))
  :: StableHlo.binary main_v89 main_v91 main_v92 (addf : (⟨S16384x200, .f32⟩ : BufTy).Contents (Elt F) → (⟨S16384x200, .f32⟩ : BufTy).Contents (Elt F) → (⟨S16384x200, .f32⟩ : BufTy).Contents (Elt F))
  :: StableHlo.TRef.nullary main_call0.cst (constant S_ .f32 0x00000000#32)
  :: StableHlo.TRef.unary main_call0.cst main_call0.v0 (broadcastInDim S16384x200 ![] bcast_S_S16384x200)
  :: StableHlo.TRef.binary (StableHlo.TRef.of main_v92 : StableHlo.TRef sig ⟨S16384x200, .f32⟩) main_call0.v0 main_call0.v1 maximumf
  :: StableHlo.binary main_v93 main_arg14 main_v94 ((fun l r => Host.dotGeneral dot_S16384x200_S200x200_S16384x200_1_0_0_1_n_n none l r) : (⟨S16384x200, .f32⟩ : BufTy).Contents (Elt F) → (⟨S200x200, .f32⟩ : BufTy).Contents (Elt F) → (⟨S16384x200, .f32⟩ : BufTy).Contents (Elt F))
  :: StableHlo.unary main_arg15 main_v95 (broadcastInDim S1x200 ![1] bcast_S200_S1x200_1 : (⟨S200, .f32⟩ : BufTy).Contents (Elt F) → (⟨S1x200, .f32⟩ : BufTy).Contents (Elt F))
  :: StableHlo.unary main_v95 main_v96 (broadcastInDim S16384x200 ![0, 1] bcast_S1x200_S16384x200_0_1 : (⟨S1x200, .f32⟩ : BufTy).Contents (Elt F) → (⟨S16384x200, .f32⟩ : BufTy).Contents (Elt F))
  :: StableHlo.binary main_v94 main_v96 main_v97 (addf : (⟨S16384x200, .f32⟩ : BufTy).Contents (Elt F) → (⟨S16384x200, .f32⟩ : BufTy).Contents (Elt F) → (⟨S16384x200, .f32⟩ : BufTy).Contents (Elt F))
  :: StableHlo.TRef.nullary main_call1.cst (constant S_ .f32 0x00000000#32)
  :: StableHlo.TRef.unary main_call1.cst main_call1.v0 (broadcastInDim S16384x200 ![] bcast_S_S16384x200)
  :: StableHlo.TRef.binary (StableHlo.TRef.of main_v97 : StableHlo.TRef sig ⟨S16384x200, .f32⟩) main_call1.v0 main_call1.v1 maximumf
  :: StableHlo.binary main_v98 main_arg16 main_v99 ((fun l r => Host.dotGeneral dot_S16384x200_S200x200_S16384x200_1_0_0_1_n_n none l r) : (⟨S16384x200, .f32⟩ : BufTy).Contents (Elt F) → (⟨S200x200, .f32⟩ : BufTy).Contents (Elt F) → (⟨S16384x200, .f32⟩ : BufTy).Contents (Elt F))
  :: StableHlo.unary main_arg17 main_v100 (broadcastInDim S1x200 ![1] bcast_S200_S1x200_1 : (⟨S200, .f32⟩ : BufTy).Contents (Elt F) → (⟨S1x200, .f32⟩ : BufTy).Contents (Elt F))
  :: StableHlo.unary main_v100 main_v101 (broadcastInDim S16384x200 ![0, 1] bcast_S1x200_S16384x200_0_1 : (⟨S1x200, .f32⟩ : BufTy).Contents (Elt F) → (⟨S16384x200, .f32⟩ : BufTy).Contents (Elt F))
  :: StableHlo.binary main_v99 main_v101 main_v102 (addf : (⟨S16384x200, .f32⟩ : BufTy).Contents (Elt F) → (⟨S16384x200, .f32⟩ : BufTy).Contents (Elt F) → (⟨S16384x200, .f32⟩ : BufTy).Contents (Elt F))
  :: StableHlo.TRef.nullary main_call2.cst (constant S_ .f32 0x00000000#32)
  :: StableHlo.TRef.unary main_call2.cst main_call2.v0 (broadcastInDim S16384x200 ![] bcast_S_S16384x200)
  :: StableHlo.TRef.binary (StableHlo.TRef.of main_v102 : StableHlo.TRef sig ⟨S16384x200, .f32⟩) main_call2.v0 main_call2.v1 maximumf
  :: StableHlo.binary main_v103 main_arg18 main_v104 ((fun l r => Host.dotGeneral dot_S16384x200_S200x1_S16384x1_1_0_0_1_n_n none l r) : (⟨S16384x200, .f32⟩ : BufTy).Contents (Elt F) → (⟨S200x1, .f32⟩ : BufTy).Contents (Elt F) → (⟨S16384x1, .f32⟩ : BufTy).Contents (Elt F))
  :: StableHlo.unary main_arg19 main_v105 (broadcastInDim S1x1 ![1] bcast_S1_S1x1_1 : (⟨S1, .f32⟩ : BufTy).Contents (Elt F) → (⟨S1x1, .f32⟩ : BufTy).Contents (Elt F))
  :: StableHlo.unary main_v105 main_v106 (broadcastInDim S16384x1 ![0, 1] bcast_S1x1_S16384x1_0_1 : (⟨S1x1, .f32⟩ : BufTy).Contents (Elt F) → (⟨S16384x1, .f32⟩ : BufTy).Contents (Elt F))
  :: StableHlo.binary main_v104 main_v106 main_v107 (addf : (⟨S16384x1, .f32⟩ : BufTy).Contents (Elt F) → (⟨S16384x1, .f32⟩ : BufTy).Contents (Elt F) → (⟨S16384x1, .f32⟩ : BufTy).Contents (Elt F))
  :: [] ) := rfl

/-- The deep array: three hidden layers and the last unit, from the joined input of the deep part. -/
theorem deep_eq (V : Valuation τ sig (Elt F)) :
    StableHlo.after ops V (Proc.devRef .tc main_v107 : DevRef τ sig) = Tail.refDeep (StableHlo.after ops V (Proc.devRef .tc main_v88 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)) := by
  have k0 := StableHlo.after_take_of_not_mem ops_writesOnly 117 V main_arg12 (by decide)
  have k1 := StableHlo.after_take_of_not_mem ops_writesOnly 117 V main_arg13 (by decide)
  have k2 := StableHlo.after_take_of_not_mem ops_writesOnly 117 V main_arg14 (by decide)
  have k3 := StableHlo.after_take_of_not_mem ops_writesOnly 117 V main_arg15 (by decide)
  have k4 := StableHlo.after_take_of_not_mem ops_writesOnly 117 V main_arg16 (by decide)
  have k5 := StableHlo.after_take_of_not_mem ops_writesOnly 117 V main_arg17 (by decide)
  have k6 := StableHlo.after_take_of_not_mem ops_writesOnly 117 V main_arg18 (by decide)
  have k7 := StableHlo.after_take_of_not_mem ops_writesOnly 117 V main_arg19 (by decide)
  have e0 := StableHlo.after_take_eq ops_writesOnly 117 V main_v88 (by decide)
  rw [StableHlo.after_read_stretch ops_writesOnly 117 25 V main_v107 (by decide), deep_eq_ops, ← k0, ← k1, ← k2, ← k3, ← k4, ← k5, ← k6, ← k7, ← e0]
  generalize StableHlo.after (List.take 117 ops) V = W
  read_fold_casts [↓ StableHlo.TRef.ofBuf_toBuf]
  unfold Tail.refDeep Tail.refOut Tail.refLayer Tail.refLayer1 Tail.refRelu
  rfl

/-- Operations 142 … 143 of the line. -/
theorem logit_sum_eq_ops : ((ops : List (HloOp τ sig (Elt F))).drop 142).take 2 =
  ( StableHlo.binary main_v17 main_v84 main_v108 (addf : (⟨S16384x1, .f32⟩ : BufTy).Contents (Elt F) → (⟨S16384x1, .f32⟩ : BufTy).Contents (Elt F) → (⟨S16384x1, .f32⟩ : BufTy).Contents (Elt F))
  :: StableHlo.binary main_v108 main_v107 main_v109 (addf : (⟨S16384x1, .f32⟩ : BufTy).Contents (Elt F) → (⟨S16384x1, .f32⟩ : BufTy).Contents (Elt F) → (⟨S16384x1, .f32⟩ : BufTy).Contents (Elt F))
  :: [] ) := rfl

/-- The logit array is (first-order + second-order) + deep. -/
theorem logit_sum_eq (V : Valuation τ sig (Elt F)) :
    StableHlo.after ops V (Proc.devRef .tc main_v109 : DevRef τ sig) = (addf : (⟨S16384x1, .f32⟩ : BufTy).Contents (Elt F) → (⟨S16384x1, .f32⟩ : BufTy).Contents (Elt F) → (⟨S16384x1, .f32⟩ : BufTy).Contents (Elt F))
        ((addf : (⟨S16384x1, .f32⟩ : BufTy).Contents (Elt F) → (⟨S16384x1, .f32⟩ : BufTy).Contents (Elt F) → (⟨S16384x1, .f32⟩ : BufTy).Contents (Elt F)) (StableHlo.after ops V (Proc.devRef .tc main_v17 : DevRef τ sig)) (StableHlo.after ops V (Proc.devRef .tc main_v84 : DevRef τ sig))) (StableHlo.after ops V (Proc.devRef .tc main_v107 : DevRef τ sig)) := by
  have e0 := StableHlo.after_take_eq ops_writesOnly 142 V main_v17 (by decide)
  have e1 := StableHlo.after_take_eq ops_writesOnly 142 V main_v84 (by decide)
  have e2 := StableHlo.after_take_eq ops_writesOnly 142 V main_v107 (by decide)
  rw [StableHlo.after_read_stretch ops_writesOnly 142 2 V main_v109 (by decide), logit_sum_eq_ops, ← e0, ← e1, ← e2]
  generalize StableHlo.after (List.take 142 ops) V = W
  read_fold

/-- Operations 144 … 155 of the line. -/
theorem head0_eq_ops : ((ops : List (HloOp τ sig (Elt F))).drop 144).take 12 =
  ( StableHlo.binary main_v109 main_arg20 main_v110 ((fun l r => Host.dotGeneral dot_S16384x1_S1x1_S16384x1_1_0_0_1_n_n none l r) : (⟨S16384x1, .f32⟩ : BufTy).Contents (Elt F) → (⟨S1x1, .f32⟩ : BufTy).Contents (Elt F) → (⟨S16384x1, .f32⟩ : BufTy).Contents (Elt F))
  :: StableHlo.unary main_arg21 main_v111 (broadcastInDim S1x1 ![1] bcast_S1_S1x1_1 : (⟨S1, .f32⟩ : BufTy).Contents (Elt F) → (⟨S1x1, .f32⟩ : BufTy).Contents (Elt F))
  :: StableHlo.unary main_v111 main_v112 (broadcastInDim S16384x1 ![0, 1] bcast_S1x1_S16384x1_0_1 : (⟨S1x1, .f32⟩ : BufTy).Contents (Elt F) → (⟨S16384x1, .f32⟩ : BufTy).Contents (Elt F))
  :: StableHlo.binary main_v110 main_v112 main_v113 (addf : (⟨S16384x1, .f32⟩ : BufTy).Contents (Elt F) → (⟨S16384x1, .f32⟩ : BufTy).Contents (Elt F) → (⟨S16384x1, .f32⟩ : BufTy).Contents (Elt F))
  :: StableHlo.unary main_v113 main_v114 (Host.negf : (⟨S16384x1, .f32⟩ : BufTy).Contents (Elt F) → (⟨S16384x1, .f32⟩ : BufTy).Contents (Elt F))
  :: StableHlo.unary main_v114 main_v115 (Host.exp : (⟨S16384x1, .f32⟩ : BufTy).Contents (Elt F) → (⟨S16384x1, .f32⟩ : BufTy).Contents (Elt F))
  :: StableHlo.nullary main_cst_26 (constant S_ .f32 0x3F800000#32)
  :: StableHlo.unary main_cst_26 main_v116 (broadcastInDim S16384x1 ![] bcast_S_S16384x1 : (⟨S_, .f32⟩ : BufTy).Contents (Elt F) → (⟨S16384x1, .f32⟩ : BufTy).Contents (Elt F))
  :: StableHlo.binary main_v116 main_v115 main_v117 (addf : (⟨S16384x1, .f32⟩ : BufTy).Contents (Elt F) → (⟨S16384x1, .f32⟩ : BufTy).Contents (Elt F) → (⟨S16384x1, .f32⟩ : BufTy).Contents (Elt F))
  :: StableHlo.nullary main_cst_27 (constant S_ .f32 0x3F800000#32)
  :: StableHlo.unary main_cst_27 main_v118 (broadcastInDim S16384x1 ![] bcast_S_S16384x1 : (⟨S_, .f32⟩ : BufTy).Contents (Elt F) → (⟨S16384x1, .f32⟩ : BufTy).Contents (Elt F))
  :: StableHlo.binary main_v118 main_v117 main_v119 (Host.divf : (⟨S16384x1, .f32⟩ : BufTy).Contents (Elt F) → (⟨S16384x1, .f32⟩ : BufTy).Contents (Elt F) → (⟨S16384x1, .f32⟩ : BufTy).Contents (Elt F))
  :: [] ) := rfl

/-- The first output, from the logit array. -/
theorem head0_eq (V : Valuation τ sig (Elt F)) :
    StableHlo.after ops V (Proc.devRef .tc main_v119 : DevRef τ sig) = Tail.refHead (StableHlo.after ops V (Proc.devRef .tc main_v109 : DevRef τ sig)) (V (Proc.devRef .tc main_arg20 : DevRef τ sig)) (V (Proc.devRef .tc main_arg21 : DevRef τ sig)) := by
  have k0 := StableHlo.after_take_of_not_mem ops_writesOnly 144 V main_arg20 (by decide)
  have k1 := StableHlo.after_take_of_not_mem ops_writesOnly 144 V main_arg21 (by decide)
  have e0 := StableHlo.after_take_eq ops_writesOnly 144 V main_v109 (by decide)
  rw [StableHlo.after_read_stretch ops_writesOnly 144 12 V main_v119 (by decide), head0_eq_ops, ← k0, ← k1, ← e0]
  generalize StableHlo.after (List.take 144 ops) V = W
  read_fold
  unfold Tail.refHead
  rfl

/-- Operations 156 … 167 of the line. -/
theorem head1_eq_ops : ((ops : List (HloOp τ sig (Elt F))).drop 156).take 12 =
  ( StableHlo.binary main_v109 main_arg22 main_v120 ((fun l r => Host.dotGeneral dot_S16384x1_S1x1_S16384x1_1_0_0_1_n_n none l r) : (⟨S16384x1, .f32⟩ : BufTy).Contents (Elt F) → (⟨S1x1, .f32⟩ : BufTy).Contents (Elt F) → (⟨S16384x1, .f32⟩ : BufTy).Contents (Elt F))
  :: StableHlo.unary main_arg23 main_v121 (broadcastInDim S1x1 ![1] bcast_S1_S1x1_1 : (⟨S1, .f32⟩ : BufTy).Contents (Elt F) → (⟨S1x1, .f32⟩ : BufTy).Contents (Elt F))
  :: StableHlo.unary main_v121 main_v122 (broadcastInDim S16384x1 ![0, 1] bcast_S1x1_S16384x1_0_1 : (⟨S1x1, .f32⟩ : BufTy).Contents (Elt F) → (⟨S16384x1, .f32⟩ : BufTy).Contents (Elt F))
  :: StableHlo.binary main_v120 main_v122 main_v123 (addf : (⟨S16384x1, .f32⟩ : BufTy).Contents (Elt F) → (⟨S16384x1, .f32⟩ : BufTy).Contents (Elt F) → (⟨S16384x1, .f32⟩ : BufTy).Contents (Elt F))
  :: StableHlo.unary main_v123 main_v124 (Host.negf : (⟨S16384x1, .f32⟩ : BufTy).Contents (Elt F) → (⟨S16384x1, .f32⟩ : BufTy).Contents (Elt F))
  :: StableHlo.unary main_v124 main_v125 (Host.exp : (⟨S16384x1, .f32⟩ : BufTy).Contents (Elt F) → (⟨S16384x1, .f32⟩ : BufTy).Contents (Elt F))
  :: StableHlo.nullary main_cst_28 (constant S_ .f32 0x3F800000#32)
  :: StableHlo.unary main_cst_28 main_v126 (broadcastInDim S16384x1 ![] bcast_S_S16384x1 : (⟨S_, .f32⟩ : BufTy).Contents (Elt F) → (⟨S16384x1, .f32⟩ : BufTy).Contents (Elt F))
  :: StableHlo.binary main_v126 main_v125 main_v127 (addf : (⟨S16384x1, .f32⟩ : BufTy).Contents (Elt F) → (⟨S16384x1, .f32⟩ : BufTy).Contents (Elt F) → (⟨S16384x1, .f32⟩ : BufTy).Contents (Elt F))
  :: StableHlo.nullary main_cst_29 (constant S_ .f32 0x3F800000#32)
  :: StableHlo.unary main_cst_29 main_v128 (broadcastInDim S16384x1 ![] bcast_S_S16384x1 : (⟨S_, .f32⟩ : BufTy).Contents (Elt F) → (⟨S16384x1, .f32⟩ : BufTy).Contents (Elt F))
  :: StableHlo.binary main_v128 main_v127 main_v129 (Host.divf : (⟨S16384x1, .f32⟩ : BufTy).Contents (Elt F) → (⟨S16384x1, .f32⟩ : BufTy).Contents (Elt F) → (⟨S16384x1, .f32⟩ : BufTy).Contents (Elt F))
  :: [] ) := rfl

/-- The second output, from the logit array. -/
theorem head1_eq (V : Valuation τ sig (Elt F)) :
    StableHlo.after ops V (Proc.devRef .tc main_v129 : DevRef τ sig) = Tail.refHead (StableHlo.after ops V (Proc.devRef .tc main_v109 : DevRef τ sig)) (V (Proc.devRef .tc main_arg22 : DevRef τ sig)) (V (Proc.devRef .tc main_arg23 : DevRef τ sig)) := by
  have k0 := StableHlo.after_take_of_not_mem ops_writesOnly 156 V main_arg22 (by decide)
  have k1 := StableHlo.after_take_of_not_mem ops_writesOnly 156 V main_arg23 (by decide)
  have e0 := StableHlo.after_take_eq ops_writesOnly 156 V main_v109 (by decide)
  rw [StableHlo.after_read_stretch ops_writesOnly 156 12 V main_v129 (by decide), head1_eq_ops, ← k0, ← k1, ← e0]
  generalize StableHlo.after (List.take 156 ops) V = W
  read_fold
  unfold Tail.refHead
  rfl

/-- The logit array after the line, as the logit function of the arrays it is computed from. -/
theorem logit_eq (V : Valuation τ sig (Elt F)) :
    StableHlo.after ops V (Proc.devRef .tc main_v109 : DevRef τ sig) = Tail.refLogit (V (Proc.devRef .tc main_arg1 : DevRef τ sig)) (StableHlo.after ops V (Proc.devRef .tc main_v88 : DevRef τ sig)) (StableHlo.after ops V (Proc.devRef .tc main_v75 : DevRef τ sig)) (StableHlo.after ops V (Proc.devRef .tc main_v12 : DevRef τ sig)) (V (Proc.devRef .tc main_arg6 : DevRef τ sig)) (V (Proc.devRef .tc main_arg7 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)) := by
  rw [logit_sum_eq V, first_eq V, second_eq V, deep_eq V]
  rfl

/-- The first result after the line. -/
theorem v119_eq (V : Valuation τ sig (Elt F)) :
    StableHlo.after ops V (Proc.devRef .tc main_v119 : DevRef τ sig)
      = Tail.refHead (Tail.refLogit (V (Proc.devRef .tc main_arg1 : DevRef τ sig)) (StableHlo.after ops V (Proc.devRef .tc main_v88 : DevRef τ sig)) (StableHlo.after ops V (Proc.devRef .tc main_v75 : DevRef τ sig)) (StableHlo.after ops V (Proc.devRef .tc main_v12 : DevRef τ sig)) (V (Proc.devRef .tc main_arg6 : DevRef τ sig)) (V (Proc.devRef .tc main_arg7 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig))) (V (Proc.devRef .tc main_arg20 : DevRef τ sig)) (V (Proc.devRef .tc main_arg21 : DevRef τ sig)) := by
  rw [head0_eq V, logit_eq V]

/-- The second result after the line. -/
theorem v129_eq (V : Valuation τ sig (Elt F)) :
    StableHlo.after ops V (Proc.devRef .tc main_v129 : DevRef τ sig)
      = Tail.refHead (Tail.refLogit (V (Proc.devRef .tc main_arg1 : DevRef τ sig)) (StableHlo.after ops V (Proc.devRef .tc main_v88 : DevRef τ sig)) (StableHlo.after ops V (Proc.devRef .tc main_v75 : DevRef τ sig)) (StableHlo.after ops V (Proc.devRef .tc main_v12 : DevRef τ sig)) (V (Proc.devRef .tc main_arg6 : DevRef τ sig)) (V (Proc.devRef .tc main_arg7 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig))) (V (Proc.devRef .tc main_arg22 : DevRef τ sig)) (V (Proc.devRef .tc main_arg23 : DevRef τ sig)) := by
  rw [head1_eq V, logit_eq V]

end Cert.ReferenceIdeal.Hand

end
-- ==== Proof.SpecOut.lean ====
/-
  One output of the model as a whole [16384, 1] array: entry (p, 0) is the head applied to the logit of row p.

  The dense features enter only through the rows' two entries, so two dense arrays that agree entry by entry give the
  same output.
-/
import proofs.«160683_j87995289960919_1_alg».proof.Proof.SpecArr

noncomputable section

namespace Cert.Dfm

open Idealize.ShloMosaic Idealize.ShloMosaic.ValueIdx

/-- The output array of one head from the dense features, the deep part's input, the embedded fields, the first-order
    sums, the shared weights and the head's own weight and bias. -/
def out (dense : (⟨2, ![16384, 2]⟩ : Shape).Idx → EReal) (dnn : (⟨2, ![16384, 194]⟩ : Shape).Idx → EReal)
    (fm : (⟨3, ![16384, 12, 16]⟩ : Shape).Idx → EReal) (ls : (⟨2, ![16384, 1]⟩ : Shape).Idx → EReal) (θ : Params)
    (W : (⟨2, ![1, 1]⟩ : Shape).Idx → EReal) (b : (⟨1, ![1]⟩ : Shape).Idx → EReal) :
    (⟨2, ![16384, 1]⟩ : Shape).Idx → EReal :=
  fun i =>
    let p : Fin 16384 := i 0
    head (logit θ (fun k => dense (ix2 p k)) (fun k => dnn (ix2 p k)) (fun f e => fm (ix3 p f e)) (ls (ix2 p (0 : Fin 1))))
      (W (ix2 (0 : Fin 1) (0 : Fin 1))) (b (ix1 (0 : Fin 1)))

/-- The output read at row `p`. -/
theorem out_apply (dense : (⟨2, ![16384, 2]⟩ : Shape).Idx → EReal) (dnn : (⟨2, ![16384, 194]⟩ : Shape).Idx → EReal)
    (fm : (⟨3, ![16384, 12, 16]⟩ : Shape).Idx → EReal) (ls : (⟨2, ![16384, 1]⟩ : Shape).Idx → EReal) (θ : Params)
    (W : (⟨2, ![1, 1]⟩ : Shape).Idx → EReal) (b : (⟨1, ![1]⟩ : Shape).Idx → EReal) (p : Fin 16384) :
    out dense dnn fm ls θ W b (ix2 p (0 : Fin 1))
      = head (logit θ (fun k => dense (ix2 p k)) (fun k => dnn (ix2 p k)) (fun f e => fm (ix3 p f e)) (ls (ix2 p (0 : Fin 1))))
          (W (ix2 (0 : Fin 1) (0 : Fin 1))) (b (ix1 (0 : Fin 1))) := rfl

/-- Every index of a [16384, 1] array is (p, 0). -/
theorem idx_col (i : (⟨2, ![16384, 1]⟩ : Shape).Idx) : i = ix2 (i 0 : Fin 16384) (0 : Fin 1) := by
  funext a
  match a with
  | ⟨0, _⟩ => rfl
  | ⟨1, _⟩ => exact Subsingleton.elim (α := Fin 1) _ _

/-- An array whose entry (p, 0) is the head of row p's logit, for every p, is the output array. -/
theorem eq_out (x : (⟨2, ![16384, 1]⟩ : Shape).Idx → EReal) (dense : (⟨2, ![16384, 2]⟩ : Shape).Idx → EReal)
    (dnn : (⟨2, ![16384, 194]⟩ : Shape).Idx → EReal) (fm : (⟨3, ![16384, 12, 16]⟩ : Shape).Idx → EReal)
    (ls : (⟨2, ![16384, 1]⟩ : Shape).Idx → EReal) (θ : Params) (W : (⟨2, ![1, 1]⟩ : Shape).Idx → EReal)
    (b : (⟨1, ![1]⟩ : Shape).Idx → EReal)
    (h : ∀ p : Fin 16384, x (ix2 p (0 : Fin 1))
      = head (logit θ (fun k => dense (ix2 p k)) (fun k => dnn (ix2 p k)) (fun f e => fm (ix3 p f e)) (ls (ix2 p (0 : Fin 1))))
          (W (ix2 (0 : Fin 1) (0 : Fin 1))) (b (ix1 (0 : Fin 1)))) :
    x = out dense dnn fm ls θ W b := by
  funext i
  rw [idx_col i]
  exact h _

/-- Dense arrays that agree entry by entry give the same output. -/
theorem out_congr_dense (d d' : (⟨2, ![16384, 2]⟩ : Shape).Idx → EReal) (dnn : (⟨2, ![16384, 194]⟩ : Shape).Idx → EReal)
    (fm : (⟨3, ![16384, 12, 16]⟩ : Shape).Idx → EReal) (ls : (⟨2, ![16384, 1]⟩ : Shape).Idx → EReal) (θ : Params)
    (W : (⟨2, ![1, 1]⟩ : Shape).Idx → EReal) (b : (⟨1, ![1]⟩ : Shape).Idx → EReal)
    (h : ∀ (p : Fin 16384) (k : Fin 2), d (ix2 p k) = d' (ix2 p k)) :
    out d dnn fm ls θ W b = out d' dnn fm ls θ W b :=
  eq_out _ d' dnn fm ls θ W b (fun p => by rw [out_apply]; simp only [h])

end Cert.Dfm

end
-- ==== Proof.RefOut.lean ====
/-
  The reference's two results as the model's output arrays, over the extended reals.

  Each result is a [16384, 1] array.  Read at entry (p, 0) it is the logistic head of the logit array at (p, 0), and
  the logit array at (p, 0) is the row function's logit of row p of the dense features, the joined input of the deep
  part, the joined field array and the first-order embedding sums, with the weights read off the weight arrays.  An
  array with those entries is the output array of that head.
-/
import proofs.«160683_j87995289960919_1_alg».proof.Proof.RefLink
import proofs.«160683_j87995289960919_1_alg».proof.Proof.SpecOut

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first result after the line is the first head's output array. -/
theorem result0_eq (V : Valuation τ sig (Elt Ideal)) :
    StableHlo.after ops V (Proc.devRef .tc main_v119 : DevRef τ sig)
      = Dfm.out (V (Proc.devRef .tc main_arg1 : DevRef τ sig)) (StableHlo.after ops V (Proc.devRef .tc main_v88 : DevRef τ sig)) (StableHlo.after ops V (Proc.devRef .tc main_v75 : DevRef τ sig)) (StableHlo.after ops V (Proc.devRef .tc main_v12 : DevRef τ sig))
          (Dfm.paramsOf (V (Proc.devRef .tc main_arg6 : DevRef τ sig)) (V (Proc.devRef .tc main_arg7 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)))
          (V (Proc.devRef .tc main_arg20 : DevRef τ sig)) (V (Proc.devRef .tc main_arg21 : DevRef τ sig)) := by
  rw [v119_eq V]
  exact Dfm.eq_out _ _ _ _ _ _ _ _ (fun p => by rw [Tail.refHead_apply, Tail.refLogit_apply])

/-- The second result after the line is the second head's output array. -/
theorem result1_eq (V : Valuation τ sig (Elt Ideal)) :
    StableHlo.after ops V (Proc.devRef .tc main_v129 : DevRef τ sig)
      = Dfm.out (V (Proc.devRef .tc main_arg1 : DevRef τ sig)) (StableHlo.after ops V (Proc.devRef .tc main_v88 : DevRef τ sig)) (StableHlo.after ops V (Proc.devRef .tc main_v75 : DevRef τ sig)) (StableHlo.after ops V (Proc.devRef .tc main_v12 : DevRef τ sig))
          (Dfm.paramsOf (V (Proc.devRef .tc main_arg6 : DevRef τ sig)) (V (Proc.devRef .tc main_arg7 : DevRef τ sig)) (V (Proc.devRef .tc main_arg12 : DevRef τ sig)) (V (Proc.devRef .tc main_arg13 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)))
          (V (Proc.devRef .tc main_arg22 : DevRef τ sig)) (V (Proc.devRef .tc main_arg23 : DevRef τ sig)) := by
  rw [v129_eq V]
  exact Dfm.eq_out _ _ _ _ _ _ _ _ (fun p => by rw [Tail.refHead_apply, Tail.refLogit_apply])

end Cert.ReferenceIdeal.Hand

end
-- ==== Proof.KBlocks.lean ====
/-
  Where the blocks of the pipeline's windows sit in their arrays.

  The grid has eight points.  At point `t` the three row-blocked inputs (the deep part's input, the embedded fields,
  the first-order sums) and the two outputs all take rows `2048 t … 2048 t + 2047` of their arrays, every other axis
  whole; each weight window takes its whole array at every point.  So row `p` of a block at point `t` is row
  `2048 t + p` of the array, and a weight block is the weight array.
-/
import proofs.«160683_j87995289960919_1_alg».proof.Proof.Gen.KernelIdeal.Points
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)

/-- The printed index maps, decided over the grid: the row-blocked windows move together along the rows and stay at
    block 0 on every other axis; the row block index is at most 7. -/
theorem idx_rows : ∀ t : Fin cfg0.N,
    win0_0.index t (0 : Fin 2) = win0_17.index t (0 : Fin 2) ∧ win0_0.index t (1 : Fin 2) = 0
    ∧ win0_1.index t (0 : Fin 3) = win0_17.index t (0 : Fin 2) ∧ win0_1.index t (1 : Fin 3) = 0 ∧ win0_1.index t (2 : Fin 3) = 0
    ∧ win0_2.index t (0 : Fin 2) = win0_17.index t (0 : Fin 2) ∧ win0_2.index t (1 : Fin 2) = 0
    ∧ win0_18.index t (0 : Fin 2) = win0_17.index t (0 : Fin 2) ∧ win0_18.index t (1 : Fin 2) = 0
    ∧ win0_17.index t (1 : Fin 2) = 0 ∧ win0_17.index t (0 : Fin 2) ≤ 7 :=
  (by decide +kernel : ∀ t : Fin grid0.N, _)

/-- Every row block is some point's. -/
theorem idx_onto : ∀ q : Fin 8, ∃ t : Fin cfg0.N, win0_17.index t (0 : Fin 2) = q.val :=
  (by decide +kernel : ∀ q : Fin 8, ∃ t : Fin grid0.N, win0_17.index t (0 : Fin 2) = q.val)

/-- The array row that row `p` of a block at point `t` is. -/
def row (t : Fin cfg0.N) (p : Fin 2048) : Fin 16384 :=
  ⟨win0_17.index t (0 : Fin 2) * 2048 + p.val, by
    have h := (idx_rows t).2.2.2.2.2.2.2.2.2.2
    have hp := p.isLt
    omega⟩

theorem emb0 (t : Fin cfg0.N) (p : Fin 2048) (k : Fin 194) :
    ((cfg0.win 0).blk t).view.emb (ix2 p k) = ix2 (row t p) k := by
  obtain ⟨e0, e1, -⟩ := idx_rows t
  funext a; apply Fin.ext
  match a with
  | ⟨0, _⟩ => show win0_0.index t (0 : Fin 2) * 2048 + 1 * p.val = win0_17.index t (0 : Fin 2) * 2048 + p.val; omega
  | ⟨1, _⟩ => show win0_0.index t (1 : Fin 2) * 194 + 1 * k.val = k.val; omega

theorem emb1 (t : Fin cfg0.N) (p : Fin 2048) (f : Fin 12) (e : Fin 16) :
    ((cfg0.win 1).blk t).view.emb (ix3 p f e) = ix3 (row t p) f e := by
  obtain ⟨-, -, e0, e1, e2, -⟩ := idx_rows t
  funext a; apply Fin.ext
  match a with
  | ⟨0, _⟩ => show win0_1.index t (0 : Fin 3) * 2048 + 1 * p.val = win0_17.index t (0 : Fin 2) * 2048 + p.val; omega
  | ⟨1, _⟩ => show win0_1.index t (1 : Fin 3) * 12 + 1 * f.val = f.val; omega
  | ⟨2, _⟩ => show win0_1.index t (2 : Fin 3) * 16 + 1 * e.val = e.val; omega

theorem emb2 (t : Fin cfg0.N) (p : Fin 2048) (z : Fin 1) :
    ((cfg0.win 2).blk t).view.emb (ix2 p z) = ix2 (row t p) z := by
  obtain ⟨-, -, -, -, -, e0, e1, -⟩ := idx_rows t
  funext a; apply Fin.ext
  match a with
  | ⟨0, _⟩ => show win0_2.index t (0 : Fin 2) * 2048 + 1 * p.val = win0_17.index t (0 : Fin 2) * 2048 + p.val; omega
  | ⟨1, _⟩ => show win0_2.index t (1 : Fin 2) * 1 + 1 * z.val = z.val; omega

theorem emb17 (t : Fin cfg0.N) (p : Fin 2048) (z : Fin 1) :
    ((cfg0.win 17).blk t).view.emb (ix2 p z) = ix2 (row t p) z := by
  obtain ⟨-, -, -, -, -, -, -, -, -, e1, -⟩ := idx_rows t
  funext a; apply Fin.ext
  match a with
  | ⟨0, _⟩ => show win0_17.index t (0 : Fin 2) * 2048 + 1 * p.val = win0_17.index t (0 : Fin 2) * 2048 + p.val; omega
  | ⟨1, _⟩ => show win0_17.index t (1 : Fin 2) * 1 + 1 * z.val = z.val; omega

theorem emb18 (t : Fin cfg0.N) (p : Fin 2048) (z : Fin 1) :
    ((cfg0.win 18).blk t).view.emb (ix2 p z) = ix2 (row t p) z := by
  obtain ⟨-, -, -, -, -, -, -, e0, e1, -⟩ := idx_rows t
  funext a; apply Fin.ext
  match a with
  | ⟨0, _⟩ => show win0_18.index t (0 : Fin 2) * 2048 + 1 * p.val = win0_17.index t (0 : Fin 2) * 2048 + p.val; omega
  | ⟨1, _⟩ => show win0_18.index t (1 : Fin 2) * 1 + 1 * z.val = z.val; omega

/-- The weight windows sit at block 0 of every axis at every point. -/
theorem idx_whole : ∀ t : Fin cfg0.N,
    win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0 :=
  (by decide +kernel : ∀ t : Fin grid0.N, _)

theorem emb_w3 (t : Fin cfg0.N) (y : S2x1.Idx) : ((cfg0.win 3).blk t).view.emb y = y := by
  obtain ⟨h0, h1, -, -, -, -, -, -, -, -, -, -, -, -, -, -, -, -, -, -, -⟩ := idx_whole t
  funext a; apply Fin.ext
  match a with
  | ⟨0, _⟩ => show win0_3.index t (0 : Fin 2) * 2 + 1 * (y 0).val = (y 0).val; omega
  | ⟨1, _⟩ => show win0_3.index t (1 : Fin 2) * 1 + 1 * (y 1).val = (y 1).val; omega

theorem emb_w4 (t : Fin cfg0.N) (y : S1.Idx) : ((cfg0.win 4).blk t).view.emb y = y := by
  obtain ⟨-, -, h0, -, -, -, -, -, -, -, -, -, -, -, -, -, -, -, -, -, -⟩ := idx_whole t
  funext a; apply Fin.ext
  match a with
  | ⟨0, _⟩ => show win0_4.index t (0 : Fin 1) * 1 + 1 * (y 0).val = (y 0).val; omega

theorem emb_w5 (t : Fin cfg0.N) (y : S194x200.Idx) : ((cfg0.win 5).blk t).view.emb y = y := by
  obtain ⟨-, -, -, h0, h1, -, -, -, -, -, -, -, -, -, -, -, -, -, -, -, -⟩ := idx_whole t
  funext a; apply Fin.ext
  match a with
  | ⟨0, _⟩ => show win0_5.index t (0 : Fin 2) * 194 + 1 * (y 0).val = (y 0).val; omega
  | ⟨1, _⟩ => show win0_5.index t (1 : Fin 2) * 200 + 1 * (y 1).val = (y 1).val; omega

theorem emb_w6 (t : Fin cfg0.N) (y : S200.Idx) : ((cfg0.win 6).blk t).view.emb y = y := by
  obtain ⟨-, -, -, -, -, h0, -, -, -, -, -, -, -, -, -, -, -, -, -, -, -⟩ := idx_whole t
  funext a; apply Fin.ext
  match a with
  | ⟨0, _⟩ => show win0_6.index t (0 : Fin 1) * 200 + 1 * (y 0).val = (y 0).val; omega

theorem emb_w7 (t : Fin cfg0.N) (y : S200x200.Idx) : ((cfg0.win 7).blk t).view.emb y = y := by
  obtain ⟨-, -, -, -, -, -, h0, h1, -, -, -, -, -, -, -, -, -, -, -, -, -⟩ := idx_whole t
  funext a; apply Fin.ext
  match a with
  | ⟨0, _⟩ => show win0_7.index t (0 : Fin 2) * 200 + 1 * (y 0).val = (y 0).val; omega
  | ⟨1, _⟩ => show win0_7.index t (1 : Fin 2) * 200 + 1 * (y 1).val = (y 1).val; omega

theorem emb_w8 (t : Fin cfg0.N) (y : S200.Idx) : ((cfg0.win 8).blk t).view.emb y = y := by
  obtain ⟨-, -, -, -, -, -, -, -, h0, -, -, -, -, -, -, -, -, -, -, -, -⟩ := idx_whole t
  funext a; apply Fin.ext
  match a with
  | ⟨0, _⟩ => show win0_8.index t (0 : Fin 1) * 200 + 1 * (y 0).val = (y 0).val; omega

theorem emb_w9 (t : Fin cfg0.N) (y : S200x200.Idx) : ((cfg0.win 9).blk t).view.emb y = y := by
  obtain ⟨-, -, -, -, -, -, -, -, -, h0, h1, -, -, -, -, -, -, -, -, -, -⟩ := idx_whole t
  funext a; apply Fin.ext
  match a with
  | ⟨0, _⟩ => show win0_9.index t (0 : Fin 2) * 200 + 1 * (y 0).val = (y 0).val; omega
  | ⟨1, _⟩ => show win0_9.index t (1 : Fin 2) * 200 + 1 * (y 1).val = (y 1).val; omega

theorem emb_w10 (t : Fin cfg0.N) (y : S200.Idx) : ((cfg0.win 10).blk t).view.emb y = y := by
  obtain ⟨-, -, -, -, -, -, -, -, -, -, -, h0, -, -, -, -, -, -, -, -, -⟩ := idx_whole t
  funext a; apply Fin.ext
  match a with
  | ⟨0, _⟩ => show win0_10.index t (0 : Fin 1) * 200 + 1 * (y 0).val = (y 0).val; omega

theorem emb_w11 (t : Fin cfg0.N) (y : S200x1.Idx) : ((cfg0.win 11).blk t).view.emb y = y := by
  obtain ⟨-, -, -, -, -, -, -, -, -, -, -, -, h0, h1, -, -, -, -, -, -, -⟩ := idx_whole t
  funext a; apply Fin.ext
  match a with
  | ⟨0, _⟩ => show win0_11.index t (0 : Fin 2) * 200 + 1 * (y 0).val = (y 0).val; omega
  | ⟨1, _⟩ => show win0_11.index t (1 : Fin 2) * 1 + 1 * (y 1).val = (y 1).val; omega

theorem emb_w12 (t : Fin cfg0.N) (y : S1.Idx) : ((cfg0.win 12).blk t).view.emb y = y := by
  obtain ⟨-, -, -, -, -, -, -, -, -, -, -, -, -, -, h0, -, -, -, -, -, -⟩ := idx_whole t
  funext a; apply Fin.ext
  match a with
  | ⟨0, _⟩ => show win0_12.index t (0 : Fin 1) * 1 + 1 * (y 0).val = (y 0).val; omega

theorem emb_w13 (t : Fin cfg0.N) (y : S1x1.Idx) : ((cfg0.win 13).blk t).view.emb y = y := by
  obtain ⟨-, -, -, -, -, -, -, -, -, -, -, -, -, -, -, h0, h1, -, -, -, -⟩ := idx_whole t
  funext a; apply Fin.ext
  match a with
  | ⟨0, _⟩ => show win0_13.index t (0 : Fin 2) * 1 + 1 * (y 0).val = (y 0).val; omega
  | ⟨1, _⟩ => show win0_13.index t (1 : Fin 2) * 1 + 1 * (y 1).val = (y 1).val; omega

theorem emb_w14 (t : Fin cfg0.N) (y : S1.Idx) : ((cfg0.win 14).blk t).view.emb y = y := by
  obtain ⟨-, -, -, -, -, -, -, -, -, -, -, -, -, -, -, -, -, h0, -, -, -⟩ := idx_whole t
  funext a; apply Fin.ext
  match a with
  | ⟨0, _⟩ => show win0_14.index t (0 : Fin 1) * 1 + 1 * (y 0).val = (y 0).val; omega

theorem emb_w15 (t : Fin cfg0.N) (y : S1x1.Idx) : ((cfg0.win 15).blk t).view.emb y = y := by
  obtain ⟨-, -, -, -, -, -, -, -, -, -, -, -, -, -, -, -, -, -, h0, h1, -⟩ := idx_whole t
  funext a; apply Fin.ext
  match a with
  | ⟨0, _⟩ => show win0_15.index t (0 : Fin 2) * 1 + 1 * (y 0).val = (y 0).val; omega
  | ⟨1, _⟩ => show win0_15.index t (1 : Fin 2) * 1 + 1 * (y 1).val = (y 1).val; omega

theorem emb_w16 (t : Fin cfg0.N) (y : S1.Idx) : ((cfg0.win 16).blk t).view.emb y = y := by
  obtain ⟨-, -, -, -, -, -, -, -, -, -, -, -, -, -, -, -, -, -, -, -, h0⟩ := idx_whole t
  funext a; apply Fin.ext
  match a with
  | ⟨0, _⟩ => show win0_16.index t (0 : Fin 1) * 1 + 1 * (y 0).val = (y 0).val; omega

/-- An index of a [16384, 1] output array is in point `t`'s block iff each coordinate is in the block's range. -/
theorem mem_blk17 (t : Fin cfg0.N) (i : S16384x1.Idx) :
    i ∈ ((cfg0.win 17).blk t).view.set ↔ ∀ a : Fin 2, win0_17.index t a * S2048x1.size a ≤ (i a).val ∧ (i a).val < win0_17.index t a * S2048x1.size a + S2048x1.size a := by
  show i ∈ ((View.whole main_v75_0).slice (win0_17.rect t)).set ↔ _
  rw [View.set_slice_whole, Rect.mem_set_unit]
  exact Iff.rfl

theorem mem_blk18 (t : Fin cfg0.N) (i : S16384x1.Idx) :
    i ∈ ((cfg0.win 18).blk t).view.set ↔ ∀ a : Fin 2, win0_18.index t a * S2048x1.size a ≤ (i a).val ∧ (i a).val < win0_18.index t a * S2048x1.size a + S2048x1.size a := by
  show i ∈ ((View.whole main_v75_1).slice (win0_18.rect t)).set ↔ _
  rw [View.set_slice_whole, Rect.mem_set_unit]
  exact Iff.rfl

/-- The eight row blocks cover the first output array: row `r` is in the block of the point whose row block is `r / 2048`. -/
theorem cover17 (i : S16384x1.Idx) : ∃ t : Fin cfg0.N, (cfg0.win 17).flush t = true ∧ i ∈ ((cfg0.win 17).blk t).view.set := by
  have hi0 : (i 0).val < 16384 := (i 0).isLt
  have hi1 : (i 1).val < 1 := (i 1).isLt
  obtain ⟨t, ht⟩ := idx_onto ⟨(i 0).val / 2048, by omega⟩
  obtain ⟨-, -, -, -, -, -, -, -, -, e1, -⟩ := idx_rows t
  have ht' : win0_17.index t (0 : Fin 2) = (i 0).val / 2048 := ht
  refine ⟨t, flush0_17 t, ?_⟩
  rw [mem_blk17]
  intro a
  match a with
  | ⟨0, _⟩ => show win0_17.index t (0 : Fin 2) * 2048 ≤ (i 0).val ∧ (i 0).val < win0_17.index t (0 : Fin 2) * 2048 + 2048; omega
  | ⟨1, _⟩ => show win0_17.index t (1 : Fin 2) * 1 ≤ (i 1).val ∧ (i 1).val < win0_17.index t (1 : Fin 2) * 1 + 1; omega

/-- and the second. -/
theorem cover18 (i : S16384x1.Idx) : ∃ t : Fin cfg0.N, (cfg0.win 18).flush t = true ∧ i ∈ ((cfg0.win 18).blk t).view.set := by
  have hi0 : (i 0).val < 16384 := (i 0).isLt
  have hi1 : (i 1).val < 1 := (i 1).isLt
  obtain ⟨t, ht⟩ := idx_onto ⟨(i 0).val / 2048, by omega⟩
  obtain ⟨-, -, -, -, -, -, -, e0, e1, -⟩ := idx_rows t
  have ht' : win0_17.index t (0 : Fin 2) = (i 0).val / 2048 := ht
  refine ⟨t, flush0_18 t, ?_⟩
  rw [mem_blk18]
  intro a
  match a with
  | ⟨0, _⟩ => show win0_18.index t (0 : Fin 2) * 2048 ≤ (i 0).val ∧ (i 0).val < win0_18.index t (0 : Fin 2) * 2048 + 2048; omega
  | ⟨1, _⟩ => show win0_18.index t (1 : Fin 2) * 1 ≤ (i 1).val ∧ (i 1).val < win0_18.index t (1 : Fin 2) * 1 + 1; omega

end Cert.KernelIdeal.Blocks

end
-- ==== Proof.KIArr.lean ====
/-
  The arrays the kernel's region finds, block by block.

  The pipeline hands the body, at grid point `t`, rows `2048 t … 2048 t + 2047` of the three row-blocked host arrays
  and every weight array whole.  Stated here: the specification's output array of those host arrays (with the dense
  features read off the first two columns of the deep part's input), and each block the body is handed as the
  corresponding rows of its array.
-/
import proofs.«160683_j87995289960919_1_alg».proof.Proof.KIFrame
import proofs.«160683_j87995289960919_1_alg».proof.Proof.KBlocks
import proofs.«160683_j87995289960919_1_alg».proof.Proof.SpecOut
import Idealize.ShloMosaic.Lib.Pipeline.Value

set_option Elab.async false
set_option maxRecDepth 16384

noncomputable section

namespace Cert.KernelIdeal.HandValue

open Cert.KernelIdeal Cert.KernelIdeal.Gen Cert.KernelIdeal.Hand Cert.KernelIdeal.Blocks
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The shared weights, read off the weight arrays as the region finds them. -/
def θ (c : Dev nD) : Dfm.Params :=
  Dfm.paramsOf (V m c main_arg6) (V m c main_arg7) (V m c main_arg12) (V m c main_arg13) (V m c main_arg14) (V m c main_arg15)
    (V m c main_arg16) (V m c main_arg17) (V m c main_arg18) (V m c main_arg19)

/-- The dense features as the kernel reads them: the first two columns of the deep part's input. -/
def denseOf (dnn : S16384x194.Idx → EReal) : S16384x2.Idx → EReal :=
  fun j => dnn (ix2 (j 0 : Fin 16384) (Fin.castLE (by decide : 2 ≤ 194) (j 1 : Fin 2)))

/-- One result array: the specification's output of the arrays the region finds, for the head with weight `W`, bias `b`. -/
def G (c : Dev nD) (W : S1x1.Idx → EReal) (b : S1.Idx → EReal) : S16384x1.Idx → EReal :=
  Dfm.out (denseOf (V m c main_v74)) (V m c main_v74) (V m c main_v70) (V m c main_v12) (θ m c) W b

/-! ## The blocks the body is handed, as rows of the arrays -/

theorem blk0 (c : Dev nD) (t : Fin cfg0.N) (p : Fin 2048) (k : Fin 194) :
    iblk m c 0 t (ix2 p k) = V m c main_v74 (ix2 (row t p) k) := by
  show V m c (Pipeline.arrRef spec0 0) (((cfg0.win 0).blk t).view.emb (ix2 p k)) = _
  rw [emb0]
theorem blk1 (c : Dev nD) (t : Fin cfg0.N) (p : Fin 2048) (f : Fin 12) (e : Fin 16) :
    iblk m c 1 t (ix3 p f e) = V m c main_v70 (ix3 (row t p) f e) := by
  show V m c (Pipeline.arrRef spec0 1) (((cfg0.win 1).blk t).view.emb (ix3 p f e)) = _
  rw [emb1]
theorem blk2 (c : Dev nD) (t : Fin cfg0.N) (p : Fin 2048) (z : Fin 1) :
    iblk m c 2 t (ix2 p z) = V m c main_v12 (ix2 (row t p) z) := by
  show V m c (Pipeline.arrRef spec0 2) (((cfg0.win 2).blk t).view.emb (ix2 p z)) = _
  rw [emb2]
theorem blk_w3 (c : Dev nD) (t : Fin cfg0.N) : iblk m c 3 t = V m c main_arg6 := by
  funext y
  show V m c (Pipeline.arrRef spec0 3) (((cfg0.win 3).blk t).view.emb y) = _
  rw [emb_w3]
theorem blk_w4 (c : Dev nD) (t : Fin cfg0.N) : iblk m c 4 t = V m c main_arg7 := by
  funext y
  show V m c (Pipeline.arrRef spec0 4) (((cfg0.win 4).blk t).view.emb y) = _
  rw [emb_w4]
theorem blk_w5 (c : Dev nD) (t : Fin cfg0.N) : iblk m c 5 t = V m c main_arg12 := by
  funext y
  show V m c (Pipeline.arrRef spec0 5) (((cfg0.win 5).blk t).view.emb y) = _
  rw [emb_w5]
theorem blk_w6 (c : Dev nD) (t : Fin cfg0.N) : iblk m c 6 t = V m c main_arg13 := by
  funext y
  show V m c (Pipeline.arrRef spec0 6) (((cfg0.win 6).blk t).view.emb y) = _
  rw [emb_w6]
theorem blk_w7 (c : Dev nD) (t : Fin cfg0.N) : iblk m c 7 t = V m c main_arg14 := by
  funext y
  show V m c (Pipeline.arrRef spec0 7) (((cfg0.win 7).blk t).view.emb y) = _
  rw [emb_w7]
theorem blk_w8 (c : Dev nD) (t : Fin cfg0.N) : iblk m c 8 t = V m c main_arg15 := by
  funext y
  show V m c (Pipeline.arrRef spec0 8) (((cfg0.win 8).blk t).view.emb y) = _
  rw [emb_w8]
theorem blk_w9 (c : Dev nD) (t : Fin cfg0.N) : iblk m c 9 t = V m c main_arg16 := by
  funext y
  show V m c (Pipeline.arrRef spec0 9) (((cfg0.win 9).blk t).view.emb y) = _
  rw [emb_w9]
theorem blk_w10 (c : Dev nD) (t : Fin cfg0.N) : iblk m c 10 t = V m c main_arg17 := by
  funext y
  show V m c (Pipeline.arrRef spec0 10) (((cfg0.win 10).blk t).view.emb y) = _
  rw [emb_w10]
theorem blk_w11 (c : Dev nD) (t : Fin cfg0.N) : iblk m c 11 t = V m c main_arg18 := by
  funext y
  show V m c (Pipeline.arrRef spec0 11) (((cfg0.win 11).blk t).view.emb y) = _
  rw [emb_w11]
theorem blk_w12 (c : Dev nD) (t : Fin cfg0.N) : iblk m c 12 t = V m c main_arg19 := by
  funext y
  show V m c (Pipeline.arrRef spec0 12) (((cfg0.win 12).blk t).view.emb y) = _
  rw [emb_w12]
theorem blk_w13 (c : Dev nD) (t : Fin cfg0.N) : iblk m c 13 t = V m c main_arg20 := by
  funext y
  show V m c (Pipeline.arrRef spec0 13) (((cfg0.win 13).blk t).view.emb y) = _
  rw [emb_w13]
theorem blk_w14 (c : Dev nD) (t : Fin cfg0.N) : iblk m c 14 t = V m c main_arg21 := by
  funext y
  show V m c (Pipeline.arrRef spec0 14) (((cfg0.win 14).blk t).view.emb y) = _
  rw [emb_w14]
theorem blk_w15 (c : Dev nD) (t : Fin cfg0.N) : iblk m c 15 t = V m c main_arg22 := by
  funext y
  show V m c (Pipeline.arrRef spec0 15) (((cfg0.win 15).blk t).view.emb y) = _
  rw [emb_w15]
theorem blk_w16 (c : Dev nD) (t : Fin cfg0.N) : iblk m c 16 t = V m c main_arg23 := by
  funext y
  show V m c (Pipeline.arrRef spec0 16) (((cfg0.win 16).blk t).view.emb y) = _
  rw [emb_w16]

end Cert.KernelIdeal.HandValue

end
-- ==== Proof.KPayload.lean ====
/-
  The kernel body's arithmetic read at an index, over the extended reals.

  One grid step works on a block of 2048 rows.  Every operation of the body is either entry-wise, or a sum along one
  axis, or a matrix product into a zero accumulator, or a change of layout; read at row `p` each of them is a plain
  formula in the entries of row `p` of the input blocks and in the weights.  Put together, entry `(p, 0)` of each of
  the two output blocks is the row function of the specification at row `p`: the first-order term, the second-order
  term and the deep term added in the order (first + second) + deep, then one logistic head.
-/
import proofs.«160683_j87995289960919_1_alg».proof.Proof.Gen.KernelIdeal.Skeleton
import proofs.«160683_j87995289960919_1_alg».proof.Proof.SpecArr
import proofs.«160683_j87995289960919_1_alg».proof.Proof.LibPlainDot
import proofs.«160683_j87995289960919_1_alg».proof.Proof.LibDense
import proofs.«160683_j87995289960919_1_alg».proof.Proof.LibRowReduce
import proofs.«160683_j87995289960919_1_alg».proof.Proof.LibHostRank3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The operations that are not entry-wise, at the shapes of this body -/

/-- The sum over the 12 fields of a block, at row `p` and coordinate `e`. -/
theorem sumFields (x : FVec Ideal S2048x12x16 .f32) (p : Fin 2048) (e : Fin 16) :
    multiReduction (F := Ideal) .add [1] S2048x16 x 0x00000000#32 reduces_S2048x12x16_S2048x16 (.inl rfl) rfl (ix2 p e)
      = ∑ f : Fin 12, x (ix3 p f e) := by
  refine (Ideal.multiReduction_add_single x _ reduces_S2048x12x16_S2048x16 _ _ (ix2 p e)).trans ?_
  exact Finset.sum_congr rfl fun f _ => congrArg x (HostRank3.lift_mid reduces_S2048x12x16_S2048x16 p e f)

/-- The sum over the 16 coordinates, at row `p`. -/
theorem sumCoords (x : FVec Ideal S2048x16 .f32) (p : Fin 2048) :
    multiReduction (F := Ideal) .add [1] S2048 x 0x00000000#32 reduces_S2048x16_S2048 (.inl rfl) rfl (ix1 p)
      = ∑ e : Fin 16, x (ix2 p e) :=
  RowReduce.multiReduction_add_row x _ reduces_S2048x16_S2048 _ _ p

/-- A vector of 2048 row values kept as a column. -/
theorem column_apply (x : FVec Ideal S2048 .f32) (p : Fin 2048) (u : Fin 1) :
    shapeCast S2048x1 x shapeCasts_S2048_S2048x1 (ix2 p u) = x (ix1 p) :=
  RowReduce.shapeCast_a_a1_apply x shapeCasts_S2048_S2048x1 p u

/-- One half, as the body spells it. -/
theorem half_eq : (Scalar.ofBits .f32 0x3F000000#32 : Ideal .f32) = Dfm.half := rfl

/-- The zero word is the extended real zero. -/
theorem zero_eq : (Scalar.ofBits .f32 0x00000000#32 : Ideal .f32) = (0 : EReal) := Ideal.ofBits_zero_f32

/-- The block of the deep part's input enters the body unchanged. -/
theorem pay2_eq (v0 : Vec Ideal S2048x194 .f32) : k0_pay2 (F := Ideal) v0 = v0 :=
  shapeCast_self v0 shapeCasts_S2048x194_S2048x194

/-- The two dense features are the first two columns of the deep part's input. -/
theorem dense_apply (x : FVec Ideal S2048x194 .f32) (p : Fin 2048) (k : Fin 2) :
    extractStridedSlice S2048x2 ![0, 0] x slices_S2048x194_o0_0_S2048x2 (ix2 p k)
      = x (ix2 p (Fin.castLE (by decide : 2 ≤ 194) k)) :=
  extractStridedSlice_apply ![0, 0] x slices_S2048x194_o0_0_S2048x2 (ix2 p k) (ix2 p (Fin.castLE (by decide : 2 ≤ 194) k)) fun a => by
    match a with
    | ⟨0, _⟩ => show p.val = 0 + p.val; omega
    | ⟨1, _⟩ => show k.val = 0 + k.val; omega

/-- The four matrix products of the body, each into the zero accumulator. -/
theorem mm2x1 (x : FVec Ideal S2048x2 .bf16) (w : FVec Ideal S2x1 .bf16) (p : Fin 2048) (q : Fin 1) :
    matmul dot_S2048x2_S2x1_S2048x1_1_0_0_1_n_n none x w (constant S2048x1 .f32 0x00000000#32) (ix2 p q)
      = ∑ k : Fin 2, x (ix2 p k) * w (ix2 k q) :=
  PlainDot.matmul_zero_apply dot_S2048x2_S2x1_S2048x1_1_0_0_1_n_n rfl none x w p q

theorem mm194x200 (x : FVec Ideal S2048x194 .bf16) (w : FVec Ideal S194x200 .bf16) (p : Fin 2048) (q : Fin 200) :
    matmul dot_S2048x194_S194x200_S2048x200_1_0_0_1_n_n none x w (constant S2048x200 .f32 0x00000000#32) (ix2 p q)
      = ∑ k : Fin 194, x (ix2 p k) * w (ix2 k q) :=
  PlainDot.matmul_zero_apply dot_S2048x194_S194x200_S2048x200_1_0_0_1_n_n rfl none x w p q

theorem mm200x200 (x : FVec Ideal S2048x200 .bf16) (w : FVec Ideal S200x200 .bf16) (p : Fin 2048) (q : Fin 200) :
    matmul dot_S2048x200_S200x200_S2048x200_1_0_0_1_n_n none x w (constant S2048x200 .f32 0x00000000#32) (ix2 p q)
      = ∑ k : Fin 200, x (ix2 p k) * w (ix2 k q) :=
  PlainDot.matmul_zero_apply dot_S2048x200_S200x200_S2048x200_1_0_0_1_n_n rfl none x w p q

theorem mm200x1 (x : FVec Ideal S2048x200 .bf16) (w : FVec Ideal S200x1 .bf16) (p : Fin 2048) (q : Fin 1) :
    matmul dot_S2048x200_S200x1_S2048x1_1_0_0_1_n_n none x w (constant S2048x1 .f32 0x00000000#32) (ix2 p q)
      = ∑ k : Fin 200, x (ix2 p k) * w (ix2 k q) :=
  PlainDot.matmul_zero_apply dot_S2048x200_S200x1_S2048x1_1_0_0_1_n_n rfl none x w p q

/-- A bias of 200 units, as a row over the 2048 rows of the block. -/
theorem biasRow200 (b : FVec Ideal S200 .f32) (p : Fin 2048) (q : Fin 200) :
    broadcastTo S2048x200 (shapeCast S1x200 b shapeCasts_S200_S1x200) broadcasts_S1x200_S2048x200 (ix2 p q) = b (ix1 q) :=
  DenseLayer.castRow_apply b shapeCasts_S200_S1x200 broadcasts_S1x200_S2048x200 p q

/-- A single bias, over the 2048 rows of the block. -/
theorem biasRow1 (b : FVec Ideal S1 .f32) (p : Fin 2048) (q : Fin 1) :
    broadcastTo S2048x1 (shapeCast S1x1 b shapeCasts_S1_S1x1) broadcasts_S1x1_S2048x1 (ix2 p q) = b (ix1 q) :=
  DenseLayer.castRow_apply b shapeCasts_S1_S1x1 broadcasts_S1x1_S2048x1 p q

/-- A single bias kept as a 1×1 array. -/
theorem cast1_apply (b : FVec Ideal S1 .f32) (u i : Fin 1) :
    shapeCast S1x1 b shapeCasts_S1_S1x1 (ix2 u i) = b (ix1 i) :=
  shapeCast_a_1a_apply b shapeCasts_S1_S1x1 u i

/-- A single weight, over the 2048 rows of the block. -/
theorem weightRow1 (w : FVec Ideal S1x1 .f32) (p : Fin 2048) (q : Fin 1) :
    broadcastTo S2048x1 w broadcasts_S1x1_S2048x1 (ix2 p q) = w (ix2 (0 : Fin 1) q) :=
  broadcastTo_1b_ab_apply w broadcasts_S1x1_S2048x1 p q

/-! ## The second-order term -/

theorem second_apply (v2 : Vec Ideal S2048x12x16 .f32) (p : Fin 2048) :
    k0_pay3 (F := Ideal) v2 (ix2 p (0 : Fin 1)) = Dfm.second (fun f e => v2 (ix3 p f e)) := by
  unfold k0_pay3 Dfm.second
  simp only [mulf_apply, subf_apply, broadcast_apply, column_apply, shapeCast_self, half_eq]
  refine congrArg (fun t => Dfm.half * t) ((sumCoords _ p).trans (Finset.sum_congr rfl fun e _ => ?_))
  show _ * _ - _ = _
  refine congrArg₂ (fun s t => s * s - t) (sumFields v2 p e) ((sumFields _ p e).trans ?_)
  rfl

/-! ## The first-order term -/

theorem first_apply (v0 : Vec Ideal S2048x194 .f32) (v15 : Vec Ideal S2x1 .f32) (v18 : Vec Ideal S1 .f32)
    (v22 : Vec Ideal S2048x1 .f32) (p : Fin 2048) :
    k0_pay4 (F := Ideal) v0 v15 v18 v22 (ix2 p (0 : Fin 1))
      = Dfm.unit (fun k : Fin 2 => v0 (ix2 p (Fin.castLE (by decide : 2 ≤ 194) k))) (fun k => v15 (ix2 k (0 : Fin 1)))
          (v18 (ix1 (0 : Fin 1))) + v22 (ix2 p (0 : Fin 1)) := by
  unfold k0_pay4 Dfm.unit
  simp only [addf_apply, shapeCast_self, pay2_eq, mm2x1, biasRow1, truncf_apply, dense_apply]

/-! ## The hidden layers -/

theorem h1_apply (v0 : Vec Ideal S2048x194 .f32) (v26 : Vec Ideal S194x200 .f32) (v29 : Vec Ideal S200 .f32)
    (p : Fin 2048) (q : Fin 200) :
    k0_pay5 (F := Ideal) v0 v26 v29 (ix2 p q)
      = Dfm.hidden (fun k : Fin 194 => v0 (ix2 p k)) (fun k => v26 (ix2 k q)) (v29 (ix1 q)) := by
  unfold k0_pay5 Dfm.hidden Dfm.unit
  simp only [addf_apply, maximumf_apply, broadcast_apply, pay2_eq, mm194x200, biasRow200, truncf_apply, zero_eq]

theorem logit_apply (v13 v24 : FVec Ideal S2048x1 .f32) (v35 : FVec Ideal S2048x200 .bf16)
    (v36 : Vec Ideal S200x200 .f32) (v39 : Vec Ideal S200 .f32) (v46 : Vec Ideal S200x200 .f32) (v49 : Vec Ideal S200 .f32)
    (v56 : Vec Ideal S200x1 .f32) (v59 : Vec Ideal S1 .f32) (p : Fin 2048) :
    k0_pay6 (F := Ideal) v13 v24 v35 v36 v39 v46 v49 v56 v59 (ix2 p (0 : Fin 1))
      = (v24 (ix2 p (0 : Fin 1)) + v13 (ix2 p (0 : Fin 1)))
        + Dfm.unit
            (fun j : Fin 200 => Dfm.hidden
              (fun k : Fin 200 => Dfm.hidden (fun i : Fin 200 => v35 (ix2 p i)) (fun i => v36 (ix2 i k)) (v39 (ix1 k)))
              (fun k => v46 (ix2 k j)) (v49 (ix1 j)))
            (fun j => v56 (ix2 j (0 : Fin 1))) (v59 (ix1 (0 : Fin 1))) := by
  unfold k0_pay6 Dfm.unit Dfm.hidden Dfm.unit
  simp only [addf_apply, maximumf_apply, broadcast_apply, mm200x200, mm200x1, biasRow200, biasRow1, truncf_apply, zero_eq]

/-! ## The logit and the two heads -/

/-- The logistic function, entry by entry. -/
theorem logisticf_apply {s : Shape} {φ : FTy} (x : FVec Ideal s φ) (i : s.Idx) : logistic x i = Ideal.logistic (x i) := rfl

/-- The logit of row `p`: (first-order + second-order) + deep, the deep term through the three hidden layers. -/
theorem logitRow_apply (v0 : Vec Ideal S2048x194 .f32) (v2 : Vec Ideal S2048x12x16 .f32) (v22 : Vec Ideal S2048x1 .f32)
    (v15 : Vec Ideal S2x1 .f32) (v18 : Vec Ideal S1 .f32) (v26 : Vec Ideal S194x200 .f32) (v29 : Vec Ideal S200 .f32)
    (v36 : Vec Ideal S200x200 .f32) (v39 : Vec Ideal S200 .f32) (v46 : Vec Ideal S200x200 .f32) (v49 : Vec Ideal S200 .f32)
    (v56 : Vec Ideal S200x1 .f32) (v59 : Vec Ideal S1 .f32) (p : Fin 2048) :
    k0_pay6 (F := Ideal) (k0_pay3 v2) (k0_pay4 v0 v15 v18 v22) (k0_pay5 v0 v26 v29) v36 v39 v46 v49 v56 v59 (ix2 p (0 : Fin 1))
      = Dfm.logit (Dfm.paramsOf v15 v18 v26 v29 v36 v39 v46 v49 v56 v59)
            (fun k : Fin 2 => v0 (ix2 p (Fin.castLE (by decide : 2 ≤ 194) k))) (fun k => v0 (ix2 p k))
            (fun f e => v2 (ix3 p f e)) (v22 (ix2 p (0 : Fin 1))) := by
  rw [logit_apply, first_apply, second_apply]
  simp only [h1_apply]
  rfl

/-- The first output block at `(p, 0)`. -/
theorem finish_apply (v0 : Vec Ideal S2048x194 .f32) (v2 : Vec Ideal S2048x12x16 .f32) (v22 : Vec Ideal S2048x1 .f32)
    (v15 : Vec Ideal S2x1 .f32) (v18 : Vec Ideal S1 .f32) (v26 : Vec Ideal S194x200 .f32) (v29 : Vec Ideal S200 .f32)
    (v36 : Vec Ideal S200x200 .f32) (v39 : Vec Ideal S200 .f32) (v46 : Vec Ideal S200x200 .f32) (v49 : Vec Ideal S200 .f32)
    (v56 : Vec Ideal S200x1 .f32) (v59 : Vec Ideal S1 .f32)
    (v65 : Vec Ideal S1x1 .f32) (v68 : Vec Ideal S1 .f32) (p : Fin 2048) :
    k0_pay7 (F := Ideal) (k0_pay3 v2) (k0_pay4 v0 v15 v18 v22) (k0_pay5 v0 v26 v29) v36 v39 v46 v49 v56 v59 v65 v68 (ix2 p (0 : Fin 1))
      = Dfm.head
          (Dfm.logit (Dfm.paramsOf v15 v18 v26 v29 v36 v39 v46 v49 v56 v59)
            (fun k : Fin 2 => v0 (ix2 p (Fin.castLE (by decide : 2 ≤ 194) k))) (fun k => v0 (ix2 p k))
            (fun f e => v2 (ix3 p f e)) (v22 (ix2 p (0 : Fin 1))))
          (v65 (ix2 (0 : Fin 1) (0 : Fin 1))) (v68 (ix1 (0 : Fin 1))) := by
  unfold k0_pay7 Dfm.head
  simp only [logisticf_apply, mulf_apply, addf_apply, biasRow1, weightRow1, cast1_apply]
  rw [logitRow_apply]

/-- The second output block at `(p, 0)`. -/
theorem like_apply (v0 : Vec Ideal S2048x194 .f32) (v2 : Vec Ideal S2048x12x16 .f32) (v22 : Vec Ideal S2048x1 .f32)
    (v15 : Vec Ideal S2x1 .f32) (v18 : Vec Ideal S1 .f32) (v26 : Vec Ideal S194x200 .f32) (v29 : Vec Ideal S200 .f32)
    (v36 : Vec Ideal S200x200 .f32) (v39 : Vec Ideal S200 .f32) (v46 : Vec Ideal S200x200 .f32) (v49 : Vec Ideal S200 .f32)
    (v56 : Vec Ideal S200x1 .f32) (v59 : Vec Ideal S1 .f32)
    (v73 : Vec Ideal S1x1 .f32) (v76 : Vec Ideal S1 .f32) (p : Fin 2048) :
    k0_pay1 (F := Ideal) (k0_pay8 (k0_pay3 v2) (k0_pay4 v0 v15 v18 v22) (k0_pay5 v0 v26 v29) v36 v39 v46 v49 v56 v59 v73) (k0_pay9 v76)
        (ix2 p (0 : Fin 1))
      = Dfm.head
          (Dfm.logit (Dfm.paramsOf v15 v18 v26 v29 v36 v39 v46 v49 v56 v59)
            (fun k : Fin 2 => v0 (ix2 p (Fin.castLE (by decide : 2 ≤ 194) k))) (fun k => v0 (ix2 p k))
            (fun f e => v2 (ix3 p f e)) (v22 (ix2 p (0 : Fin 1))))
          (v73 (ix2 (0 : Fin 1) (0 : Fin 1))) (v76 (ix1 (0 : Fin 1))) := by
  unfold k0_pay1 k0_pay8 k0_pay9 Dfm.head
  simp only [logisticf_apply, mulf_apply, addf_apply, biasRow1, weightRow1, cast1_apply]
  rw [logitRow_apply]

end Cert.KernelIdeal.Pay

end
-- ==== Proof.KIValue.lean ====
/-
  What the kernel program's two result arrays hold at the end, at the ideal values.

  Point `t` of the grid writes back, into rows `2048 t … 2048 t + 2047` of each [16384, 1] result, the head of the
  logit of the corresponding rows of the three row-blocked inputs (the weights are whole at every point).  Read through
  the blocks' positions this is block `t` of ONE function of the arrays the region finds: the output array of the
  specification, with the dense features taken from the first two columns of the deep part's input.  The eight blocks
  cover the result, so after the run each result IS that array; the arguments are as they were.
-/
import proofs.«160683_j87995289960919_1_alg».proof.Proof.KIArr
import proofs.«160683_j87995289960919_1_alg».proof.Proof.KPayload
import proofs.«160683_j87995289960919_1_alg».proof.Proof.KBlocks
import proofs.«160683_j87995289960919_1_alg».proof.Proof.SpecOut
import Idealize.ShloMosaic.Lib.Pipeline.Value

set_option Elab.async false
set_option maxRecDepth 16384

noncomputable section

namespace Cert.KernelIdeal.HandValue

open Cert.KernelIdeal Cert.KernelIdeal.Gen Cert.KernelIdeal.Hand Cert.KernelIdeal.Blocks
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What each point writes back -/

set_option maxHeartbeats 4000000 in
theorem flushed17_eq (c : Dev nD) (t : Fin cfg0.N) :
    (dats m 0 c).flushed 17 t = ((cfg0.win 17).blk t).view.read (Elt Ideal) (G m c (V m c main_arg20) (V m c main_arg21)) := by
  show (cfg0.win 17).cut (grid0.coords t) ((dats m 0 c).after 17 t) = _
  rw [after0_17]
  unfold out0_17
  rw [View.canon_unit_zero hz2]
  simp only [View.ld_unit_zero (S := S2048x194) hz2, View.ld_unit_zero (S := S2048x12x16) hz3, View.ld_unit_zero (S := S2048x1) hz2, View.ld_unit_zero (S := S2x1) hz2, View.ld_unit_zero (S := S1) hz1, View.ld_unit_zero (S := S194x200) hz2, View.ld_unit_zero (S := S200) hz1, View.ld_unit_zero (S := S200x200) hz2, View.ld_unit_zero (S := S200x1) hz2, View.ld_unit_zero (S := S1x1) hz2]
  funext j
  obtain ⟨p, rfl⟩ : ∃ p : Fin 2048, j = ix2 p (0 : Fin 1) :=
    ⟨j 0, by funext a; match a with | ⟨0, _⟩ => rfl | ⟨1, _⟩ => exact Subsingleton.elim (α := Fin 1) _ _⟩
  refine (Pay.finish_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p).trans ?_
  show _ = G m c (V m c main_arg20) (V m c main_arg21) (((cfg0.win 17).blk t).view.emb (ix2 p (0 : Fin 1)))
  rw [emb17, G, Dfm.out_apply]
  simp only [blk0, blk1, blk2]
  rw [blk_w3, blk_w4, blk_w5, blk_w6, blk_w7, blk_w8, blk_w9, blk_w10, blk_w11, blk_w12, blk_w13, blk_w14]
  rfl

set_option maxHeartbeats 4000000 in
theorem flushed18_eq (c : Dev nD) (t : Fin cfg0.N) :
    (dats m 0 c).flushed 18 t = ((cfg0.win 18).blk t).view.read (Elt Ideal) (G m c (V m c main_arg22) (V m c main_arg23)) := by
  show (cfg0.win 18).cut (grid0.coords t) ((dats m 0 c).after 18 t) = _
  rw [after0_18]
  unfold out0_18
  rw [View.canon_unit_zero hz2]
  simp only [View.ld_unit_zero (S := S2048x194) hz2, View.ld_unit_zero (S := S2048x12x16) hz3, View.ld_unit_zero (S := S2048x1) hz2, View.ld_unit_zero (S := S2x1) hz2, View.ld_unit_zero (S := S1) hz1, View.ld_unit_zero (S := S194x200) hz2, View.ld_unit_zero (S := S200) hz1, View.ld_unit_zero (S := S200x200) hz2, View.ld_unit_zero (S := S200x1) hz2, View.ld_unit_zero (S := S1x1) hz2]
  funext j
  obtain ⟨p, rfl⟩ : ∃ p : Fin 2048, j = ix2 p (0 : Fin 1) :=
    ⟨j 0, by funext a; match a with | ⟨0, _⟩ => rfl | ⟨1, _⟩ => exact Subsingleton.elim (α := Fin 1) _ _⟩
  refine (Pay.like_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 15 t) (iblk m c 16 t) p).trans ?_
  show _ = G m c (V m c main_arg22) (V m c main_arg23) (((cfg0.win 18).blk t).view.emb (ix2 p (0 : Fin 1)))
  rw [emb18, G, Dfm.out_apply]
  simp only [blk0, blk1, blk2]
  rw [blk_w3, blk_w4, blk_w5, blk_w6, blk_w7, blk_w8, blk_w9, blk_w10, blk_w11, blk_w12, blk_w15, blk_w16]
  rfl

/-! ## The arrays after the run -/

theorem final17 (c : Dev nD) : (dats m 0 c).arrAt 17 cfg0.N = G m c (V m c main_arg20) (V m c main_arg21) :=
  (dats m 0 c).arrAt_eq_of_cover 17 (G m c (V m c main_arg20) (V m c main_arg21)) (fun t _ => flushed17_eq m c t) cover17

theorem final18 (c : Dev nD) : (dats m 0 c).arrAt 18 cfg0.N = G m c (V m c main_arg22) (V m c main_arg23) :=
  (dats m 0 c).arrAt_eq_of_cover 18 (G m c (V m c main_arg22) (V m c main_arg23)) (fun t _ => flushed18_eq m c t) cover18

/-- Every weakly fair execution of the kernel program ends with the two results at the specification's output
    arrays and the arguments unchanged. -/
theorem run : θ_run defs (onTc (τ := τ) (main (F := Ideal))) ⟨m, fun _ => 0, ρ⟩ fun r => ∀ c : Dev nD,
      r.2.mem ((c.tc : Thread nD τ).loc main_v75_0) = G m c (V m c main_arg20) (V m c main_arg21)
      ∧ r.2.mem ((c.tc : Thread nD τ).loc main_v75_1) = G m c (V m c main_arg22) (V m c main_arg23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨((h c).1 17).trans (final17 m c), ((h c).1 18).trans (final18 m c),
      kept_of_post m (dats m) (A_eq m) r h c⟩)
    (run_main m ρ)

end Cert.KernelIdeal.HandValue

end
-- ==== Proof.LibNary3.lean ====
/-
  A host operation over a literal family of three buffers (a three-piece concatenation), read at its result.

  The operation's function takes its operands as a family indexed by `Fin 3`.  Read at the result buffer it gives the
  function applied to the family of the three buffers' contents; written with each operand's contents at its own
  literal buffer, the contents themselves can go on being rewritten (under the family's binder the buffer
  `![x, a, b] k` is no literal).
-/
import Idealize.ShloMosaic.Lib.StableHlo.Run

noncomputable section

namespace Idealize.ShloMosaic.StableHlo

variable {τ : Topo} {sig : RefSig} {Val : EltTy → Type} {x a b y : Ref sig .tc}

/-- The three-operand operation's result with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a rewriting pass on the operation alone. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A three-operand operation's function applied to its three operands' contents, the operands as plain arguments:
    a rewriting pass goes on rewriting them there, where it would not look inside the family (or inside the
    shape-and-array pairs a concatenation makes of it). -/
def apply3 (f : ((k : Fin 3) → ((![x, a, b] : Fin 3 → Ref sig .tc) k).ty.Contents Val) → y.ty.Contents Val)
    (A : x.ty.Contents Val) (B : a.ty.Contents Val) (C : b.ty.Contents Val) : y.ty.Contents Val :=
  f (Fin.cons A (Fin.cons B (Fin.cons C (fun i => i.elim0))))

/-- The same for four operands. -/
def apply4 {c : Ref sig .tc} (f : ((k : Fin 4) → ((![x, a, b, c] : Fin 4 → Ref sig .tc) k).ty.Contents Val) → y.ty.Contents Val)
    (A : x.ty.Contents Val) (B : a.ty.Contents Val) (C : b.ty.Contents Val) (D : c.ty.Contents Val) : y.ty.Contents Val :=
  f (Fin.cons A (Fin.cons B (Fin.cons C (Fin.cons D (fun i => i.elim0)))))

/-- The three-operand operation's result as its function applied to the operands' contents. -/
theorem nary3_result_app'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result f hxs hy F

/-- The four-operand operation's result as its function applied to the operands' contents. -/
theorem nary4_result_app' {c : Ref sig .tc}
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = apply4 f (F (Proc.devRef .tc x)) (F (Proc.devRef .tc a)) (F (Proc.devRef .tc b)) (F (Proc.devRef .tc c)) :=
  nary4_result f hxs hy F

end Idealize.ShloMosaic.StableHlo

/-- What one buffer holds after a literal list of host operations, as the operations' functions of what the buffers
    held before, with every three- and four-operand operation read at its literal operands (the rule for a family of
    any length is left out: it would leave the operands under the family's binder, unread); two-piece concatenations
    are read through `joined` when the caller passes that equation. -/
macro "read_fold_lit" "[" ls:Lean.Parser.Tactic.simpLemma,* "]" : tactic =>
  `(tactic| (simp (disch := decide) only [
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result_app', Idealize.ShloMosaic.StableHlo.nary3_result_app',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.PrefixEq.lean ====
/-
  The host computation the two programs share.

  Before its kernel call the kernel program gathers and pools the embeddings into three arrays: the deep part's
  [16384, 194] input, the [16384, 12, 16] embedded fields, and the [16384, 1] first-order embedding sums.  The reference
  computes the same three arrays by the same operations on the way to its results (interleaved with its other
  operations).  From arguments that agree, each array is one and the same term of the arguments in both programs.
-/
import proofs.«160683_j87995289960919_1_alg».proof.Proof.RefRun
import proofs.«160683_j87995289960919_1_alg».proof.Proof.Gen.KernelIdeal.Launch
import proofs.«160683_j87995289960919_1_alg».proof.Proof.LibNary3
import proofs.«160683_j87995289960919_1_alg».proof.Proof.LibJoinedPair
import proofs.«160683_j87995289960919_1_alg».proof.Proof.LibTypedTransport

set_option maxRecDepth 65536

noncomputable section

namespace Cert.Bridge

open Idealize.ShloMosaic Idealize.ShloMosaic.TcCoe Idealize.ShloMosaic.StableHlo

variable {F : FTy → Type} [FloatOps F]
variable (VK : Valuation Cert.KernelIdeal.τ Cert.KernelIdeal.sig (Elt F))
  (VR : Valuation Cert.ReferenceIdeal.τ Cert.ReferenceIdeal.sig (Elt F))

set_option maxHeartbeats 40000000 in
/-- The first-order embedding sums. -/
theorem ls_eq
    (h0 : VR (Proc.devRef .tc Cert.ReferenceIdeal.main_arg0) = VK (Proc.devRef .tc Cert.KernelIdeal.main_arg0))
    (h8 : VR (Proc.devRef .tc Cert.ReferenceIdeal.main_arg8) = VK (Proc.devRef .tc Cert.KernelIdeal.main_arg8)) :
    after (Cert.ReferenceIdeal.Hand.ops (F := F)) VR (Proc.devRef .tc Cert.ReferenceIdeal.main_v12)
      = after (Cert.KernelIdeal.Gen.hostOps0 (F := F)) VK (Proc.devRef .tc Cert.KernelIdeal.main_v12) := by
  read_fold_lit [Idealize.ShloMosaic.JoinedPair.joined_eq, TRef.ofBuf_toBuf, TRef.toBuf_ofBuf]
  rw [h0, h8]
  rfl

set_option maxHeartbeats 40000000 in
/-- The embedded fields: the eight looked-up embeddings and the four pooled ones, laid along the field axis. -/
theorem fm_eq
    (h0 : VR (Proc.devRef .tc Cert.ReferenceIdeal.main_arg0) = VK (Proc.devRef .tc Cert.KernelIdeal.main_arg0))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5))
    (h9 : VR (Proc.devRef .tc Cert.ReferenceIdeal.main_arg9) = VK (Proc.devRef .tc Cert.KernelIdeal.main_arg9))
    (h10 : VR (Proc.devRef .tc Cert.ReferenceIdeal.main_arg10) = VK (Proc.devRef .tc Cert.KernelIdeal.main_arg10))
    (h11 : VR (Proc.devRef .tc Cert.ReferenceIdeal.main_arg11) = VK (Proc.devRef .tc Cert.KernelIdeal.main_arg11)) :
    after (Cert.ReferenceIdeal.Hand.ops (F := F)) VR (Proc.devRef .tc Cert.ReferenceIdeal.main_v75)
      = after (Cert.KernelIdeal.Gen.hostOps0 (F := F)) VK (Proc.devRef .tc Cert.KernelIdeal.main_v70) := by
  read_fold_lit [Idealize.ShloMosaic.JoinedPair.joined_eq, TRef.ofBuf_toBuf, TRef.toBuf_ofBuf]
  rw [h0, h2, h3, h4, h5, h9, h10, h11]
  rfl

set_option maxHeartbeats 40000000 in
/-- The deep part's input: the dense features and the flattened embeddings side by side. -/
theorem dnn_eq
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5))
    (h9 : VR (Proc.devRef .tc Cert.ReferenceIdeal.main_arg9) = VK (Proc.devRef .tc Cert.KernelIdeal.main_arg9))
    (h10 : VR (Proc.devRef .tc Cert.ReferenceIdeal.main_arg10) = VK (Proc.devRef .tc Cert.KernelIdeal.main_arg10))
    (h11 : VR (Proc.devRef .tc Cert.ReferenceIdeal.main_arg11) = VK (Proc.devRef .tc Cert.KernelIdeal.main_arg11)) :
    after (Cert.ReferenceIdeal.Hand.ops (F := F)) VR (Proc.devRef .tc Cert.ReferenceIdeal.main_v88)
      = after (Cert.KernelIdeal.Gen.hostOps0 (F := F)) VK (Proc.devRef .tc Cert.KernelIdeal.main_v74) := by
  read_fold_lit [Idealize.ShloMosaic.JoinedPair.joined_eq, TRef.ofBuf_toBuf, TRef.toBuf_ofBuf]
  rw [h0, h1, h2, h3, h4, h5, h9, h10, h11]
  rfl

end Cert.Bridge

end
-- ==== Proof.KDense.lean ====
/-
  The deep part's input row begins with the row's two dense features.

  The host builds the [16384, 194] input of the deep part by laying four arrays side by side along the columns: the
  [16384, 2] dense features first, then the flattened embeddings.  A column index below 2 therefore falls in the first
  piece, and the entry there is the dense feature itself.
-/
import proofs.«160683_j87995289960919_1_alg».proof.Proof.Gen.KernelIdeal.Launch
import Idealize.ShloMosaic.Lib.Pipeline.Value
import Idealize.ShloMosaic.Lib.ValueIdx
import Idealize.ShloMosaic.Lib.StableHlo.Run

set_option maxRecDepth 16384

noncomputable section

namespace Cert.KernelIdeal.Pre

open Cert.KernelIdeal Cert.KernelIdeal.Gen Idealize.ShloMosaic Idealize.ShloMosaic.TcCoe Idealize.ShloMosaic.ValueIdx
open Idealize.ShloMosaic.StableHlo

/-- Four arrays laid side by side along the columns, read at a column of the first: the first array's entry. -/
theorem concat4_first {α : Type} {R n0 n1 n2 n3 N : ℕ}
    (u0 : (⟨2, ![R, n0]⟩ : Shape).Idx → α) (u1 : (⟨2, ![R, n1]⟩ : Shape).Idx → α)
    (u2 : (⟨2, ![R, n2]⟩ : Shape).Idx → α) (u3 : (⟨2, ![R, n3]⟩ : Shape).Idx → α)
    (h : Shape.Concatenates [(⟨2, ![R, n0]⟩ : Shape), ⟨2, ![R, n1]⟩, ⟨2, ![R, n2]⟩, ⟨2, ![R, n3]⟩] (⟨2, ![R, N]⟩ : Shape) (1 : Fin 2))
    (hN : n0 ≤ N) (p : Fin R) (k : Fin n0) :
    concatenate (⟨2, ![R, N]⟩ : Shape) (1 : Fin 2) [⟨(⟨2, ![R, n0]⟩ : Shape), u0⟩, ⟨(⟨2, ![R, n1]⟩ : Shape), u1⟩, ⟨(⟨2, ![R, n2]⟩ : Shape), u2⟩, ⟨(⟨2, ![R, n3]⟩ : Shape), u3⟩] h
        (ix2 p (Fin.castLE hN k)) = u0 (ix2 p k) := by
  refine concatenate_apply_piece (t := (⟨2, ![R, N]⟩ : Shape)) (1 : Fin 2)
    [⟨(⟨2, ![R, n0]⟩ : Shape), u0⟩, ⟨(⟨2, ![R, n1]⟩ : Shape), u1⟩, ⟨(⟨2, ![R, n2]⟩ : Shape), u2⟩, ⟨(⟨2, ![R, n3]⟩ : Shape), u3⟩]
    h (ix2 p (Fin.castLE hN k)) 0 (by simp) (⟨2, ![R, n0]⟩ : Shape) u0 rfl rfl 0 rfl
    (ix2 p k) ?_ ?_
  · intro b hb
    match b with
    | ⟨0, _⟩ => rfl
    | ⟨1, _⟩ => exact absurd rfl hb
  · show 0 + k.val = k.val
    omega

variable {F : FTy → Type} [FloatOps F]

set_option maxHeartbeats 4000000 in
/-- The deep part's input as the host operations leave it, read at one of its first two columns: the row's dense
    feature, which no host operation writes. -/
theorem dnn_dense (V : Valuation τ sig (Elt F)) (p : Fin 16384) (k : Fin 2) :
    (StableHlo.after (hostOps0 (F := F)) V (Proc.devRef .tc main_v74) : (⟨S16384x194, .f32⟩ : BufTy).Contents (Elt F))
        (ix2 p (Fin.castLE (by decide : 2 ≤ 194) k))
      = (V (Proc.devRef .tc main_arg1) : (⟨S16384x2, .f32⟩ : BufTy).Contents (Elt F)) (ix2 p k) := by
  after_results_simp
  exact concat4_first _ _ _ _ _ _ p k

end Cert.KernelIdeal.Pre

end
-- ==== Proof.Bridge.lean ====
/-
  The two programs' results are one array.

  From memories that agree on the arguments, the reference's two results are the specification's output arrays of the
  dense features, the three shared host arrays (the deep part's input, the embedded fields, the first-order sums) and the
  weights; the kernel program's are the same output arrays with the dense features read off the first two columns of
  the deep part's input.  The shared host arrays are the same terms of the arguments in both programs, and those two
  columns ARE the dense features, so the results agree.
-/
import proofs.«160683_j87995289960919_1_alg».proof.Proof.KIValue
import proofs.«160683_j87995289960919_1_alg».proof.Proof.RefOut
import proofs.«160683_j87995289960919_1_alg».proof.Proof.PrefixEq
import proofs.«160683_j87995289960919_1_alg».proof.Proof.KDense

set_option maxRecDepth 16384

noncomputable section

namespace Cert.Bridge

open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arrays the kernel's region finds are what the host operations leave of the launch contents. -/
theorem V_eq (b : Ref Cert.KernelIdeal.sig .tc) :
    Cert.KernelIdeal.Hand.V m c b = after (Cert.KernelIdeal.Gen.hostOps0 (F := Ideal)) (fun b => m (c, b)) (Proc.devRef .tc b) := by
  simp only [Cert.KernelIdeal.Hand.V, List.flatten_cons, List.flatten_nil, List.append_nil]

/-- A head's result in the reference is the kernel program's, for the head's weight and bias in both. -/
theorem out_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (W : Cert.KernelIdeal.S1x1.Idx → EReal) (b : Cert.KernelIdeal.S1.Idx → EReal) :
    Dfm.out (m' ((c.tc : Thread Cert.ReferenceIdeal.nD Cert.ReferenceIdeal.τ).loc Cert.ReferenceIdeal.main_arg1))
        (after (Cert.ReferenceIdeal.Hand.ops (F := Ideal)) (fun b => m' (c, b)) (Proc.devRef .tc Cert.ReferenceIdeal.main_v88))
        (after (Cert.ReferenceIdeal.Hand.ops (F := Ideal)) (fun b => m' (c, b)) (Proc.devRef .tc Cert.ReferenceIdeal.main_v75))
        (after (Cert.ReferenceIdeal.Hand.ops (F := Ideal)) (fun b => m' (c, b)) (Proc.devRef .tc Cert.ReferenceIdeal.main_v12))
        (Dfm.paramsOf (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))) W b
      = Cert.KernelIdeal.HandValue.G m c W b := by
  obtain ⟨a0, a1, a2, a3, a4, a5, a6, a7, a8, a9, a10, a11, a12, a13, a14, a15, a16, a17, a18, a19, a20, a21, a22, a23⟩ := hag
  unfold Cert.KernelIdeal.HandValue.G Cert.KernelIdeal.HandValue.θ
  rw [V_eq m c Cert.KernelIdeal.main_v74, V_eq m c Cert.KernelIdeal.main_v70, V_eq m c Cert.KernelIdeal.main_v12,
    Cert.KernelIdeal.Hand.V_main_arg6, Cert.KernelIdeal.Hand.V_main_arg7, Cert.KernelIdeal.Hand.V_main_arg12,
    Cert.KernelIdeal.Hand.V_main_arg13, Cert.KernelIdeal.Hand.V_main_arg14, Cert.KernelIdeal.Hand.V_main_arg15,
    Cert.KernelIdeal.Hand.V_main_arg16, Cert.KernelIdeal.Hand.V_main_arg17, Cert.KernelIdeal.Hand.V_main_arg18,
    Cert.KernelIdeal.Hand.V_main_arg19,
    dnn_eq (fun b => m (c, b)) (fun b => m' (c, b)) a0 a1 a2 a3 a4 a5 a9 a10 a11,
    fm_eq (fun b => m (c, b)) (fun b => m' (c, b)) a0 a2 a3 a4 a5 a9 a10 a11,
    ls_eq (fun b => m (c, b)) (fun b => m' (c, b)) a0 a8,
    a6, a7, a12, a13, a14, a15, a16, a17, a18, a19]
  refine Dfm.out_congr_dense _ _ _ _ _ _ _ _ (fun p k => ?_)
  rw [a1]
  exact (Cert.KernelIdeal.Pre.dnn_dense (fun b => m (c, b)) p k).symm

end Cert.Bridge

end
-- ==== Proof.lean ====
/-
  The certificate of a DeepFM two-head model: a kernel over row blocks against its plain reference.

  Both programs first gather and pool embeddings on the host into the deep part's [16384, 194] input, the
  [16384, 12, 16] embedded fields and the [16384, 1] first-order sums, by the same operations.  The kernel program then
  computes, over eight blocks of 2048 rows, each row's logit — a first-order term, the factorisation-machine term
  (half the sum over coordinates of (sum over fields)² − sum over fields of squares) and three hidden layers of 200 units
  followed by one linear unit — and the two heads logistic(logit · w + b); the reference computes the same on whole
  arrays, with its sigmoid spelt 1 / (1 + exp(−x)), which at the ideal values is the logistic function by definition.

  * The frames: each program runs to its end without a fault and leaves its arguments as they were.  The kernel
    programs' frame runs are written out over the pipeline's launch theorem (the host operations up to the region, the
    body's triple, the proof data and the body obligation); the reference's is its operations run in order.
  * The idealised kernel is the kernel's own text read at the ideal values: nothing was rewritten, so there is nothing
    to preserve.
  * The values: at the ideal values every operation is exact and a change of float format is the identity, so row by row
    both programs compute ONE function of the row's inputs and the weights (the same sums in the same order: no
    finiteness is used).  The kernel's blocks are rows 2048 t … 2048 t + 2047 of that one array and cover it; the shared
    host arrays are the same terms of the arguments; the kernel takes the dense features from the first two columns of
    the deep part's input, which are the dense features.
-/
import proofs.«160683_j87995289960919_1_alg».proof.Defs
import proofs.«160683_j87995289960919_1_alg».proof.Proof.Gen.Kernel
import proofs.«160683_j87995289960919_1_alg».proof.Proof.Gen.KernelIdeal
import proofs.«160683_j87995289960919_1_alg».proof.Proof.Gen.ReferenceIdeal
import proofs.«160683_j87995289960919_1_alg».proof.Proof.Gen.Pre_finite_inputs
import proofs.«160683_j87995289960919_1_alg».proof.Proof.KFrame
import proofs.«160683_j87995289960919_1_alg».proof.Proof.KIFrame
import proofs.«160683_j87995289960919_1_alg».proof.Proof.RefRun
import proofs.«160683_j87995289960919_1_alg».proof.Proof.RefOut
import proofs.«160683_j87995289960919_1_alg».proof.Proof.KIValue
import proofs.«160683_j87995289960919_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- The idealisation rewrote nothing. -/
theorem preserves : Cert.preserves_Kernel_KernelIdeal := trivial

set_option maxHeartbeats 4000000 in
/-- At the ideal values, from memories agreeing on the arguments, both programs end with each result at the
    specification's output array of the arrays the kernel's region finds. -/
theorem algebraic : Cert.algebraic_KernelIdeal_ReferenceIdeal := by
  intro m ρ m' ρ' _ hagree
  refine ⟨fun c => Cert.KernelIdeal.HandValue.G m c (Cert.KernelIdeal.Hand.V m c Cert.KernelIdeal.main_arg20)
      (Cert.KernelIdeal.Hand.V m c Cert.KernelIdeal.main_arg21),
    fun c => Cert.KernelIdeal.HandValue.G m c (Cert.KernelIdeal.Hand.V m c Cert.KernelIdeal.main_arg22)
      (Cert.KernelIdeal.Hand.V m c Cert.KernelIdeal.main_arg23),
    Cert.KernelIdeal.HandValue.run m ρ, ?_⟩
  refine (θ_run Cert.ReferenceIdeal.defs _ _).mono (fun r h c => ?_) (Cert.ReferenceIdeal.Hand.run_after m' ρ')
  have hag := hagree c
  refine ⟨(h c Cert.ReferenceIdeal.main_v119).trans ?_, (h c Cert.ReferenceIdeal.main_v129).trans ?_,
    (h c Cert.ReferenceIdeal.main_arg0).trans (Cert.ReferenceIdeal.Hand.kept_main_arg0 _),
    (h c Cert.ReferenceIdeal.main_arg1).trans (Cert.ReferenceIdeal.Hand.kept_main_arg1 _),
    (h c Cert.ReferenceIdeal.main_arg2).trans (Cert.ReferenceIdeal.Hand.kept_main_arg2 _),
    (h c Cert.ReferenceIdeal.main_arg3).trans (Cert.ReferenceIdeal.Hand.kept_main_arg3 _),
    (h c Cert.ReferenceIdeal.main_arg4).trans (Cert.ReferenceIdeal.Hand.kept_main_arg4 _),
    (h c Cert.ReferenceIdeal.main_arg5).trans (Cert.ReferenceIdeal.Hand.kept_main_arg5 _),
    (h c Cert.ReferenceIdeal.main_arg6).trans (Cert.ReferenceIdeal.Hand.kept_main_arg6 _),
    (h c Cert.ReferenceIdeal.main_arg7).trans (Cert.ReferenceIdeal.Hand.kept_main_arg7 _),
    (h c Cert.ReferenceIdeal.main_arg8).trans (Cert.ReferenceIdeal.Hand.kept_main_arg8 _),
    (h c Cert.ReferenceIdeal.main_arg9).trans (Cert.ReferenceIdeal.Hand.kept_main_arg9 _),
    (h c Cert.ReferenceIdeal.main_arg10).trans (Cert.ReferenceIdeal.Hand.kept_main_arg10 _),
    (h c Cert.ReferenceIdeal.main_arg11).trans (Cert.ReferenceIdeal.Hand.kept_main_arg11 _),
    (h c Cert.ReferenceIdeal.main_arg12).trans (Cert.ReferenceIdeal.Hand.kept_main_arg12 _),
    (h c Cert.ReferenceIdeal.main_arg13).trans (Cert.ReferenceIdeal.Hand.kept_main_arg13 _),
    (h c Cert.ReferenceIdeal.main_arg14).trans (Cert.ReferenceIdeal.Hand.kept_main_arg14 _),
    (h c Cert.ReferenceIdeal.main_arg15).trans (Cert.ReferenceIdeal.Hand.kept_main_arg15 _),
    (h c Cert.ReferenceIdeal.main_arg16).trans (Cert.ReferenceIdeal.Hand.kept_main_arg16 _),
    (h c Cert.ReferenceIdeal.main_arg17).trans (Cert.ReferenceIdeal.Hand.kept_main_arg17 _),
    (h c Cert.ReferenceIdeal.main_arg18).trans (Cert.ReferenceIdeal.Hand.kept_main_arg18 _),
    (h c Cert.ReferenceIdeal.main_arg19).trans (Cert.ReferenceIdeal.Hand.kept_main_arg19 _),
    (h c Cert.ReferenceIdeal.main_arg20).trans (Cert.ReferenceIdeal.Hand.kept_main_arg20 _),
    (h c Cert.ReferenceIdeal.main_arg21).trans (Cert.ReferenceIdeal.Hand.kept_main_arg21 _),
    (h c Cert.ReferenceIdeal.main_arg22).trans (Cert.ReferenceIdeal.Hand.kept_main_arg22 _),
    (h c Cert.ReferenceIdeal.main_arg23).trans (Cert.ReferenceIdeal.Hand.kept_main_arg23 _)⟩
  · rw [Cert.ReferenceIdeal.Hand.result0_eq]
    beta_reduce
    rw [Cert.KernelIdeal.Hand.V_main_arg20, Cert.KernelIdeal.Hand.V_main_arg21,
      ← hag.2.2.2.2.2.2.2.2.2.2.2.2.2.2.2.2.2.2.2.2.1, ← hag.2.2.2.2.2.2.2.2.2.2.2.2.2.2.2.2.2.2.2.2.2.1]
    exact Cert.Bridge.out_eq m m' c hag _ _
  · rw [Cert.ReferenceIdeal.Hand.result1_eq]
    beta_reduce
    rw [Cert.KernelIdeal.Hand.V_main_arg22, Cert.KernelIdeal.Hand.V_main_arg23,
      ← hag.2.2.2.2.2.2.2.2.2.2.2.2.2.2.2.2.2.2.2.2.2.2.1, ← hag.2.2.2.2.2.2.2.2.2.2.2.2.2.2.2.2.2.2.2.2.2.2.2]
    exact Cert.Bridge.out_eq m m' c hag _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
